-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x3x512x512 : Shape := ⟨4, ![8, 3, 512, 512]⟩
abbrev S576x192 : Shape := ⟨2, ![576, 192]⟩
abbrev S576 : Shape := ⟨1, ![576]⟩
abbrev S_ : Shape := ⟨0, ![]⟩

class Facts : Prop where
  bcast_S_S8x3x512x512 : S_.BroadcastsInDim S8x3x512x512 (![] : Fin 0 → Fin S8x3x512x512.rank)
  reducesTo_S8x3x512x512_S_d0_1_2_3 : S8x3x512x512.ReducesTo [0, 1, 2, 3] S_
  h_S_ : 0 < S_.numel
  bcast_S_S576x192 : S_.BroadcastsInDim S576x192 (![] : Fin 0 → Fin S576x192.rank)
  reducesTo_S576x192_S_d0_1 : S576x192.ReducesTo [0, 1] S_
  bcast_S_S576 : S_.BroadcastsInDim S576 (![] : Fin 0 → Fin S576.rank)
  reducesTo_S576_S_d0 : S576.ReducesTo [0] S_

variable [Facts]

def fn {F : FTy → Type} [FloatOps F] (main_arg0 : FVec F S8x3x512x512 .f32) (main_arg1 : FVec F S576x192 .f32) (main_arg2 : FVec F S576 .f32) : IVec S_ 1 :=
  let main_v0 : FVec F S8x3x512x512 .f32 := Host.absf main_arg0
  let main_cst : FVec F S_ .f32 := constant S_ .f32 0x7F800000#32
  let main_v1 : FVec F S8x3x512x512 .f32 := broadcastInDim S8x3x512x512 ![] bcast_S_S8x3x512x512 main_cst
  let main_v2 : IVec S8x3x512x512 1 := cmpf .olt main_v0 main_v1
  let main_c : IVec S_ 1 := constantI S_ 1 1#1
  let main_v3 : IVec S_ 1 := (fun x v => Host.reduce IntOp.andi x v reducesTo_S8x3x512x512_S_d0_1_2_3 h_S_) main_v2 main_c
  let main_v4 : FVec F S576x192 .f32 := Host.absf main_arg1
  let main_cst_0 : FVec F S_ .f32 := constant S_ .f32 0x7F800000#32
  let main_v5 : FVec F S576x192 .f32 := broadcastInDim S576x192 ![] bcast_S_S576x192 main_cst_0
  let main_v6 : IVec S576x192 1 := cmpf .olt main_v4 main_v5
  let main_c_1 : IVec S_ 1 := constantI S_ 1 1#1
  let main_v7 : IVec S_ 1 := (fun x v => Host.reduce IntOp.andi x v reducesTo_S576x192_S_d0_1 h_S_) main_v6 main_c_1
  let main_v8 : IVec S_ 1 := andi main_v3 main_v7
  let main_v9 : FVec F S576 .f32 := Host.absf main_arg2
  let main_cst_2 : FVec F S_ .f32 := constant S_ .f32 0x7F800000#32
  let main_v10 : FVec F S576 .f32 := broadcastInDim S576 ![] bcast_S_S576 main_cst_2
  let main_v11 : IVec S576 1 := cmpf .olt main_v9 main_v10
  let main_c_3 : IVec S_ 1 := constantI S_ 1 1#1
  let main_v12 : IVec S_ 1 := (fun x v => Host.reduce IntOp.andi x v reducesTo_S576_S_d0 h_S_) main_v11 main_c_3
  let main_v13 : IVec S_ 1 := andi main_v8 main_v12
  main_v13
-- ==== Kernel.lean ====
abbrev S8x3x512x512 : Shape := ⟨4, ![8, 3, 512, 512]⟩
abbrev S576x192 : Shape := ⟨2, ![576, 192]⟩
abbrev S576 : Shape := ⟨1, ![576]⟩
abbrev S9x8x8 : Shape := ⟨3, ![9, 8, 8]⟩
abbrev S_ : Shape := ⟨0, ![]⟩
abbrev S8x3x528x528 : Shape := ⟨4, ![8, 3, 528, 528]⟩
abbrev S8x3x66x8x66x8 : Shape := ⟨6, ![8, 3, 66, 8, 66, 8]⟩
abbrev S8x66x66x3x8x8 : Shape := ⟨6, ![8, 66, 66, 3, 8, 8]⟩
abbrev S8x66x66x192 : Shape := ⟨4, ![8, 66, 66, 192]⟩
abbrev S192x576 : Shape := ⟨2, ![192, 576]⟩
abbrev S1x576 : Shape := ⟨2, ![1, 576]⟩
abbrev S9x64 : Shape := ⟨2, ![9, 64]⟩
abbrev S9x192 : Shape := ⟨2, ![9, 192]⟩
abbrev S8x64x64x192 : Shape := ⟨4, ![8, 64, 64, 192]⟩
abbrev S1x66x66x192 : Shape := ⟨4, ![1, 66, 66, 192]⟩
abbrev S1x64x64x192 : Shape := ⟨4, ![1, 64, 64, 192]⟩
abbrev S66x66x192 : Shape := ⟨3, ![66, 66, 192]⟩
abbrev S4356x192 : Shape := ⟨2, ![4356, 192]⟩
abbrev S4356x576 : Shape := ⟨2, ![4356, 576]⟩
abbrev S66x66x576 : Shape := ⟨3, ![66, 66, 576]⟩
abbrev S64x64x192 : Shape := ⟨3, ![64, 64, 192]⟩
abbrev S1x192 : Shape := ⟨2, ![1, 192]⟩
abbrev S192 : Shape := ⟨1, ![192]⟩
abbrev S1x1x192 : Shape := ⟨3, ![1, 1, 192]⟩
abbrev S8x64x64x3x8x8 : Shape := ⟨6, ![8, 64, 64, 3, 8, 8]⟩
abbrev S8x3x64x8x64x8 : Shape := ⟨6, ![8, 3, 64, 8, 64, 8]⟩

abbrev nBuf : Space → Nat
  | .hbm => 20
  | .vmem => 6
  | .smem => 0
  | _ => 0

abbrev bufTy : (tb : Table) → Fin (tcTables nBuf tb) → BufTy
  | .hbm, ⟨0, _⟩ => ⟨S8x3x512x512, .f32⟩
  | .hbm, ⟨1, _⟩ => ⟨S576x192, .f32⟩
  | .hbm, ⟨2, _⟩ => ⟨S576, .f32⟩
  | .hbm, ⟨3, _⟩ => ⟨S9x8x8, .f32⟩
  | .hbm, ⟨4, _⟩ => ⟨S_, .i32⟩
  | .hbm, ⟨5, _⟩ => ⟨S_, .f32⟩
  | .hbm, ⟨6, _⟩ => ⟨S8x3x528x528, .f32⟩
  | .hbm, ⟨7, _⟩ => ⟨S8x3x528x528, .bf16⟩
  | .hbm, ⟨8, _⟩ => ⟨S8x3x66x8x66x8, .bf16⟩
  | .hbm, ⟨9, _⟩ => ⟨S8x66x66x3x8x8, .bf16⟩
  | .hbm, ⟨10, _⟩ => ⟨S8x66x66x192, .bf16⟩
  | .hbm, ⟨11, _⟩ => ⟨S192x576, .f32⟩
  | .hbm, ⟨12, _⟩ => ⟨S192x576, .bf16⟩
  | .hbm, ⟨13, _⟩ => ⟨S1x576, .f32⟩
  | .hbm, ⟨14, _⟩ => ⟨S9x64, .f32⟩
  | .hbm, ⟨15, _⟩ => ⟨S9x192, .f32⟩
  | .hbm, ⟨16, _⟩ => ⟨S8x64x64x192, .f32⟩
  | .hbm, ⟨17, _⟩ => ⟨S8x64x64x3x8x8, .f32⟩
  | .hbm, ⟨18, _⟩ => ⟨S8x3x64x8x64x8, .f32⟩
  | .hbm, ⟨19, _⟩ => ⟨S8x3x512x512, .f32⟩
  | .local _ .vmem, ⟨0, _⟩ => ⟨S1x66x66x192, .bf16⟩
  | .local _ .vmem, ⟨1, _⟩ => ⟨S1x66x66x192, .bf16⟩
  | .local _ .vmem, ⟨2, _⟩ => ⟨S192x576, .bf16⟩
  | .local _ .vmem, ⟨3, _⟩ => ⟨S1x576, .f32⟩
  | .local _ .vmem, ⟨4, _⟩ => ⟨S9x192, .f32⟩
  | .local _ .vmem, ⟨5, _⟩ => ⟨S1x64x64x192, .f32⟩
  | _, _ => ⟨S8x3x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x66x66x192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S192x576 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x576 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S9x192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64x64x192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

class Facts₀ : Prop where
  pads_S8x3x512x512_S8x3x528x528_000_000_880_880 : S8x3x512x512.Pads (![0, 0, 8, 8] : Fin 4 → Nat) ![0, 0, 8, 8] ![0, 0, 0, 0] S8x3x528x528
  h_S_ : 0 < S_.numel
  bitsLt_bf16_f32 : FTy.bits .bf16 < FTy.bits .f32
  shapeCasts_S8x3x528x528_S8x3x66x8x66x8 : S8x3x528x528.ShapeCasts S8x3x66x8x66x8
  transposes_S8x3x66x8x66x8_S8x66x66x3x8x8_0_2_4_1_3_5 : S8x3x66x8x66x8.Transposes [0, 2, 4, 1, 3, 5] S8x66x66x3x8x8
  shapeCasts_S8x66x66x3x8x8_S8x66x66x192 : S8x66x66x3x8x8.ShapeCasts S8x66x66x192
  transposes_S576x192_S192x576_1_0 : S576x192.Transposes [1, 0] S192x576
  shapeCasts_S576_S1x576 : S576.ShapeCasts S1x576
  shapeCasts_S9x8x8_S9x64 : S9x8x8.ShapeCasts S9x64
  concatenates_S9x64_S9x64_S9x64_S9x192_d1 : Shape.Concatenates [S9x64, S9x64, S9x64] S9x192 1
  inb_S1x66x66x192_S1x66x66x192_0_0_0_0 : ∀ a, (![0, 0, 0, 0] : Fin 4 → Nat) a + S1x66x66x192.size a ≤ S1x66x66x192.size a
  h_S1x66x66x192 : 0 < S1x66x66x192.numel
  shapeCasts_S1x66x66x192_S66x66x192 : S1x66x66x192.ShapeCasts S66x66x192
  shapeCasts_S66x66x192_S4356x192 : S66x66x192.ShapeCasts S4356x192
  inb_S192x576_S192x576_0_0 : ∀ a, (![0, 0] : Fin 2 → Nat) a + S192x576.size a ≤ S192x576.size a
  h_S192x576 : 0 < S192x576.numel
  shapeCasts_S192x576_S192x576 : S192x576.ShapeCasts S192x576
  inb_S1x576_S1x576_0_0 : ∀ a, (![0, 0] : Fin 2 → Nat) a + S1x576.size a ≤ S1x576.size a
  h_S1x576 : 0 < S1x576.numel
  shapeCasts_S1x576_S1x576 : S1x576.ShapeCasts S1x576
  broadcasts_S1x576_S4356x576 : S1x576.Broadcasts S4356x576
  shapeCasts_S4356x576_S66x66x576 : S4356x576.ShapeCasts S66x66x576
  slices_S66x66x576_o1_1_0_S64x64x192 : S66x66x576.Slices ![1, 1, 0] S64x64x192
  slices_S66x66x576_o0_0_192_S64x64x192 : S66x66x576.Slices ![0, 0, 192] S64x64x192
  slices_S66x66x576_o0_0_384_S64x64x192 : S66x66x576.Slices ![0, 0, 384] S64x64x192
  inb_S9x192_S1x192_0_0 : ∀ a, (![0, 0] : Fin 2 → Nat) a + S1x192.size a ≤ S9x192.size a
  h_S1x192 : 0 < S1x192.numel
  shapeCasts_S1x192_S192 : S1x192.ShapeCasts S192
  shapeCasts_S192_S1x1x192 : S192.ShapeCasts S1x1x192
  broadcasts_S1x1x192_S64x64x192 : S1x1x192.Broadcasts S64x64x192
  slices_S66x66x576_o0_1_192_S64x64x192 : S66x66x576.Slices ![0, 1, 192] S64x64x192
  slices_S66x66x576_o0_1_384_S64x64x192 : S66x66x576.Slices ![0, 1, 384] S64x64x192
  inb_S9x192_S1x192_1_0 : ∀ a, (![1, 0] : Fin 2 → Nat) a + S1x192.size a ≤ S9x192.size a
  slices_S66x66x576_o0_2_192_S64x64x192 : S66x66x576.Slices ![0, 2, 192] S64x64x192
  slices_S66x66x576_o0_2_384_S64x64x192 : S66x66x576.Slices ![0, 2, 384] S64x64x192
  inb_S9x192_S1x192_2_0 : ∀ a, (![2, 0] : Fin 2 → Nat) a + S1x192.size a ≤ S9x192.size a
  slices_S66x66x576_o1_0_192_S64x64x192 : S66x66x576.Slices ![1, 0, 192] S64x64x192
  slices_S66x66x576_o1_0_384_S64x64x192 : S66x66x576.Slices ![1, 0, 384] S64x64x192
  inb_S9x192_S1x192_3_0 : ∀ a, (![3, 0] : Fin 2 → Nat) a + S1x192.size a ≤ S9x192.size a
  slices_S66x66x576_o1_1_192_S64x64x192 : S66x66x576.Slices ![1, 1, 192] S64x64x192
  slices_S66x66x576_o1_1_384_S64x64x192 : S66x66x576.Slices ![1, 1, 384] S64x64x192
  inb_S9x192_S1x192_4_0 : ∀ a, (![4, 0] : Fin 2 → Nat) a + S1x192.size a ≤ S9x192.size a
  slices_S66x66x576_o1_2_192_S64x64x192 : S66x66x576.Slices ![1, 2, 192] S64x64x192
  slices_S66x66x576_o1_2_384_S64x64x192 : S66x66x576.Slices ![1, 2, 384] S64x64x192
  inb_S9x192_S1x192_5_0 : ∀ a, (![5, 0] : Fin 2 → Nat) a + S1x192.size a ≤ S9x192.size a
  slices_S66x66x576_o2_0_192_S64x64x192 : S66x66x576.Slices ![2, 0, 192] S64x64x192
  slices_S66x66x576_o2_0_384_S64x64x192 : S66x66x576.Slices ![2, 0, 384] S64x64x192
  inb_S9x192_S1x192_6_0 : ∀ a, (![6, 0] : Fin 2 → Nat) a + S1x192.size a ≤ S9x192.size a
  slices_S66x66x576_o2_1_192_S64x64x192 : S66x66x576.Slices ![2, 1, 192] S64x64x192
  slices_S66x66x576_o2_1_384_S64x64x192 : S66x66x576.Slices ![2, 1, 384] S64x64x192
  inb_S9x192_S1x192_7_0 : ∀ a, (![7, 0] : Fin 2 → Nat) a + S1x192.size a ≤ S9x192.size a
  slices_S66x66x576_o2_2_192_S64x64x192 : S66x66x576.Slices ![2, 2, 192] S64x64x192
  slices_S66x66x576_o2_2_384_S64x64x192 : S66x66x576.Slices ![2, 2, 384] S64x64x192
  inb_S9x192_S1x192_8_0 : ∀ a, (![8, 0] : Fin 2 → Nat) a + S1x192.size a ≤ S9x192.size a
  inb_S1x64x64x192_S1x64x64x192_0_0_0_0 : ∀ a, (![0, 0, 0, 0] : Fin 4 → Nat) a + S1x64x64x192.size a ≤ S1x64x64x192.size a
  h_S1x64x64x192 : 0 < S1x64x64x192.numel
  shapeCasts_S1x64x64x192_S64x64x192 : S1x64x64x192.ShapeCasts S64x64x192
  shapeCasts_S64x64x192_S1x64x64x192 : S64x64x192.ShapeCasts S1x64x64x192
  shapeCasts_S8x64x64x192_S8x64x64x3x8x8 : S8x64x64x192.ShapeCasts S8x64x64x3x8x8
  transposes_S8x64x64x3x8x8_S8x3x64x8x64x8_0_3_1_4_2_5 : S8x64x64x3x8x8.Transposes [0, 3, 1, 4, 2, 5] S8x3x64x8x64x8
  shapeCasts_S8x3x64x8x64x8_S8x3x512x512 : S8x3x64x8x64x8.ShapeCasts S8x3x512x512
  dot_S4356x192_S192x576_S4356x576_1_0_0_1_n_n_wf : DotDims.WF S4356x192 S192x576 S4356x576 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x66x66x192.size a ≤ S8x66x66x192.size a
  hwx0_0 : ∀ i : grid0.Coords, EltTy.bits .bf16 = 32 ∨ (Rect.block (s := S8x66x66x192) S1x66x66x192.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S192x576.size a ≤ S192x576.size a
  hwx0_1 : ∀ i : grid0.Coords, EltTy.bits .bf16 = 32 ∨ (Rect.block (s := S192x576) S192x576.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x576.size a ≤ S1x576.size a
  hwx0_2 : ∀ i : grid0.Coords, EltTy.bits .f32 = 32 ∨ (Rect.block (s := S1x576) S1x576.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S9x192.size a ≤ S9x192.size a
  hwx0_3 : ∀ i : grid0.Coords, EltTy.bits .f32 = 32 ∨ (Rect.block (s := S9x192) S9x192.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64x64x192.size a ≤ S8x64x64x192.size a
  hwx0_4 : ∀ i : grid0.Coords, EltTy.bits .f32 = 32 ∨ (Rect.block (s := S8x64x64x192) S1x64x64x192.size (cc0_transform_4 i) (hinb0_4 i)).WholeWords (EltTy.packing .f32)

variable [Facts₀]

def dot_S4356x192_S192x576_S4356x576_1_0_0_1_n_n : DotDims S4356x192 S192x576 S4356x576 where
  lhsContracting := [1]
  rhsContracting := [0]
  lhsNonContracting := [0]
  rhsNonContracting := [1]
  lhsBatch := []
  rhsBatch := []
  wf := dot_S4356x192_S192x576_S4356x576_1_0_0_1_n_n_wf

abbrev win0_0 : Pipeline.Window sig grid0 :=
  Pipeline.Window.ofSpec (Memref.whole main_v4) S1x66x66x192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S192x576.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S1x576.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v9) S9x192.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v10) S1x64x64x192.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8x3x512x512 : Shape := ⟨4, ![8, 3, 512, 512]⟩
abbrev S576x192 : Shape := ⟨2, ![576, 192]⟩
abbrev S576 : Shape := ⟨1, ![576]⟩
abbrev S9x8x8 : Shape := ⟨3, ![9, 8, 8]⟩
abbrev S_ : Shape := ⟨0, ![]⟩
abbrev S8x3x528x528 : Shape := ⟨4, ![8, 3, 528, 528]⟩
abbrev S8x3x66x8x66x8 : Shape := ⟨6, ![8, 3, 66, 8, 66, 8]⟩
abbrev S8x66x66x3x8x8 : Shape := ⟨6, ![8, 66, 66, 3, 8, 8]⟩
abbrev S8x64x64x3x8x8 : Shape := ⟨6, ![8, 64, 64, 3, 8, 8]⟩
abbrev S8x64x64x1x3x8x8 : Shape := ⟨7, ![8, 64, 64, 1, 3, 8, 8]⟩
abbrev S8x64x64x9x3x8x8 : Shape := ⟨7, ![8, 64, 64, 9, 3, 8, 8]⟩
abbrev S8x64x64x9x192 : Shape := ⟨5, ![8, 64, 64, 9, 192]⟩
abbrev S8x64x64x9x576 : Shape := ⟨5, ![8, 64, 64, 9, 576]⟩
abbrev S1x1x1x1x576 : Shape := ⟨5, ![1, 1, 1, 1, 576]⟩
abbrev S8x64x64x9x3x3x8x8 : Shape := ⟨8, ![8, 64, 64, 9, 3, 3, 8, 8]⟩
abbrev S8x64x64x9x1x3x8x8 : Shape := ⟨8, ![8, 64, 64, 9, 1, 3, 8, 8]⟩
abbrev S9x1x8x8 : Shape := ⟨4, ![9, 1, 8, 8]⟩
abbrev S1x1x1x9x1x8x8 : Shape := ⟨7, ![1, 1, 1, 9, 1, 8, 8]⟩
abbrev S8x3x64x8x64x8 : Shape := ⟨6, ![8, 3, 64, 8, 64, 8]⟩

abbrev nBuf : Space → Nat
  | .hbm => 57
  | .vmem => 0
  | .smem => 0
  | _ => 0

abbrev bufTy : (tb : Table) → Fin (tcTables nBuf tb) → BufTy
  | .hbm, ⟨0, _⟩ => ⟨S8x3x512x512, .f32⟩
  | .hbm, ⟨1, _⟩ => ⟨S576x192, .f32⟩
  | .hbm, ⟨2, _⟩ => ⟨S576, .f32⟩
  | .hbm, ⟨3, _⟩ => ⟨S9x8x8, .f32⟩
  | .hbm, ⟨4, _⟩ => ⟨S_, .i32⟩
  | .hbm, ⟨5, _⟩ => ⟨S_, .f32⟩
  | .hbm, ⟨6, _⟩ => ⟨S8x3x528x528, .f32⟩
  | .hbm, ⟨7, _⟩ => ⟨S8x3x66x8x66x8, .f32⟩
  | .hbm, ⟨8, _⟩ => ⟨S8x66x66x3x8x8, .f32⟩
  | .hbm, ⟨9, _⟩ => ⟨S8x64x64x3x8x8, .f32⟩
  | .hbm, ⟨10, _⟩ => ⟨S8x64x64x3x8x8, .f32⟩
  | .hbm, ⟨11, _⟩ => ⟨S8x64x64x3x8x8, .f32⟩
  | .hbm, ⟨12, _⟩ => ⟨S8x64x64x3x8x8, .f32⟩
  | .hbm, ⟨13, _⟩ => ⟨S8x64x64x3x8x8, .f32⟩
  | .hbm, ⟨14, _⟩ => ⟨S8x64x64x3x8x8, .f32⟩
  | .hbm, ⟨15, _⟩ => ⟨S8x64x64x3x8x8, .f32⟩
  | .hbm, ⟨16, _⟩ => ⟨S8x64x64x3x8x8, .f32⟩
  | .hbm, ⟨17, _⟩ => ⟨S8x64x64x3x8x8, .f32⟩
  | .hbm, ⟨18, _⟩ => ⟨S8x64x64x1x3x8x8, .f32⟩
  | .hbm, ⟨19, _⟩ => ⟨S8x64x64x1x3x8x8, .f32⟩
  | .hbm, ⟨20, _⟩ => ⟨S8x64x64x1x3x8x8, .f32⟩
  | .hbm, ⟨21, _⟩ => ⟨S8x64x64x1x3x8x8, .f32⟩
  | .hbm, ⟨22, _⟩ => ⟨S8x64x64x1x3x8x8, .f32⟩
  | .hbm, ⟨23, _⟩ => ⟨S8x64x64x1x3x8x8, .f32⟩
  | .hbm, ⟨24, _⟩ => ⟨S8x64x64x1x3x8x8, .f32⟩
  | .hbm, ⟨25, _⟩ => ⟨S8x64x64x1x3x8x8, .f32⟩
  | .hbm, ⟨26, _⟩ => ⟨S8x64x64x1x3x8x8, .f32⟩
  | .hbm, ⟨27, _⟩ => ⟨S8x64x64x9x3x8x8, .f32⟩
  | .hbm, ⟨28, _⟩ => ⟨S8x64x64x9x192, .f32⟩
  | .hbm, ⟨29, _⟩ => ⟨S8x64x64x9x576, .f32⟩
  | .hbm, ⟨30, _⟩ => ⟨S1x1x1x1x576, .f32⟩
  | .hbm, ⟨31, _⟩ => ⟨S8x64x64x9x576, .f32⟩
  | .hbm, ⟨32, _⟩ => ⟨S8x64x64x9x576, .f32⟩
  | .hbm, ⟨33, _⟩ => ⟨S8x64x64x9x3x3x8x8, .f32⟩
  | .hbm, ⟨34, _⟩ => ⟨S8x64x64x9x1x3x8x8, .f32⟩
  | .hbm, ⟨35, _⟩ => ⟨S8x64x64x9x3x8x8, .f32⟩
  | .hbm, ⟨36, _⟩ => ⟨S8x64x64x9x1x3x8x8, .f32⟩
  | .hbm, ⟨37, _⟩ => ⟨S8x64x64x9x3x8x8, .f32⟩
  | .hbm, ⟨38, _⟩ => ⟨S8x64x64x9x1x3x8x8, .f32⟩
  | .hbm, ⟨39, _⟩ => ⟨S8x64x64x9x3x8x8, .f32⟩
  | .hbm, ⟨40, _⟩ => ⟨S8x64x64x1x3x8x8, .f32⟩
  | .hbm, ⟨41, _⟩ => ⟨S8x64x64x3x8x8, .f32⟩
  | .hbm, ⟨42, _⟩ => ⟨S_, .f32⟩
  | .hbm, ⟨43, _⟩ => ⟨S8x64x64x3x8x8, .f32⟩
  | .hbm, ⟨44, _⟩ => ⟨S8x64x64x3x8x8, .f32⟩
  | .hbm, ⟨45, _⟩ => ⟨S8x64x64x1x3x8x8, .f32⟩
  | .hbm, ⟨46, _⟩ => ⟨S8x64x64x9x3x8x8, .f32⟩
  | .hbm, ⟨47, _⟩ => ⟨S8x64x64x9x3x8x8, .f32⟩
  | .hbm, ⟨48, _⟩ => ⟨S9x1x8x8, .f32⟩
  | .hbm, ⟨49, _⟩ => ⟨S1x1x1x9x1x8x8, .f32⟩
  | .hbm, ⟨50, _⟩ => ⟨S8x64x64x9x3x8x8, .f32⟩
  | .hbm, ⟨51, _⟩ => ⟨S8x64x64x9x3x8x8, .f32⟩
  | .hbm, ⟨52, _⟩ => ⟨S8x64x64x9x3x8x8, .f32⟩
  | .hbm, ⟨53, _⟩ => ⟨S_, .f32⟩
  | .hbm, ⟨54, _⟩ => ⟨S8x64x64x3x8x8, .f32⟩
  | .hbm, ⟨55, _⟩ => ⟨S8x3x64x8x64x8, .f32⟩
  | .hbm, ⟨56, _⟩ => ⟨S8x3x512x512, .f32⟩
  | _, _ => ⟨S8x3x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_cst_0 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_cst_1 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩

abbrev nD : Nat := 1
abbrev τ : Topo := Topo.v7x

variable {F : FTy → Type} [FloatOps F]

class Facts₀ : Prop where
  pads_S8x3x512x512_S8x3x528x528_000_000_880_880 : S8x3x512x512.Pads (![0, 0, 8, 8] : Fin 4 → Nat) ![0, 0, 8, 8] ![0, 0, 0, 0] S8x3x528x528
  h_S_ : 0 < S_.numel
  shapeCasts_S8x3x528x528_S8x3x66x8x66x8 : S8x3x528x528.ShapeCasts S8x3x66x8x66x8
  transposes_S8x3x66x8x66x8_S8x66x66x3x8x8_0_2_4_1_3_5 : S8x3x66x8x66x8.Transposes [0, 2, 4, 1, 3, 5] S8x66x66x3x8x8
  slices_S8x66x66x3x8x8_S8x64x64x3x8x8_0_0_0_0_0_0 : S8x66x66x3x8x8.Slices ![0, 0, 0, 0, 0, 0] S8x64x64x3x8x8
  slices_S8x66x66x3x8x8_S8x64x64x3x8x8_0_0_1_0_0_0 : S8x66x66x3x8x8.Slices ![0, 0, 1, 0, 0, 0] S8x64x64x3x8x8
  slices_S8x66x66x3x8x8_S8x64x64x3x8x8_0_0_2_0_0_0 : S8x66x66x3x8x8.Slices ![0, 0, 2, 0, 0, 0] S8x64x64x3x8x8
  slices_S8x66x66x3x8x8_S8x64x64x3x8x8_0_1_0_0_0_0 : S8x66x66x3x8x8.Slices ![0, 1, 0, 0, 0, 0] S8x64x64x3x8x8
  slices_S8x66x66x3x8x8_S8x64x64x3x8x8_0_1_1_0_0_0 : S8x66x66x3x8x8.Slices ![0, 1, 1, 0, 0, 0] S8x64x64x3x8x8
  slices_S8x66x66x3x8x8_S8x64x64x3x8x8_0_1_2_0_0_0 : S8x66x66x3x8x8.Slices ![0, 1, 2, 0, 0, 0] S8x64x64x3x8x8
  slices_S8x66x66x3x8x8_S8x64x64x3x8x8_0_2_0_0_0_0 : S8x66x66x3x8x8.Slices ![0, 2, 0, 0, 0, 0] S8x64x64x3x8x8
  slices_S8x66x66x3x8x8_S8x64x64x3x8x8_0_2_1_0_0_0 : S8x66x66x3x8x8.Slices ![0, 2, 1, 0, 0, 0] S8x64x64x3x8x8
  slices_S8x66x66x3x8x8_S8x64x64x3x8x8_0_2_2_0_0_0 : S8x66x66x3x8x8.Slices ![0, 2, 2, 0, 0, 0] S8x64x64x3x8x8
  bcast_S8x64x64x3x8x8_S8x64x64x1x3x8x8_0_1_2_4_5_6 : S8x64x64x3x8x8.BroadcastsInDim S8x64x64x1x3x8x8 (![0, 1, 2, 4, 5, 6] : Fin 6 → Fin S8x64x64x1x3x8x8.rank)
  concatenates_S8x64x64x1x3x8x8_S8x64x64x1x3x8x8_S8x64x64x1x3x8x8_S8x64x64x1x3x8x8_S8x64x64x1x3x8x8_S8x64x64x1x3x8x8_S8x64x64x1x3x8x8_S8x64x64x1x3x8x8_S8x64x64x1x3x8x8_S8x64x64x9x3x8x8_d3 : Shape.Concatenates [S8x64x64x1x3x8x8, S8x64x64x1x3x8x8, S8x64x64x1x3x8x8, S8x64x64x1x3x8x8, S8x64x64x1x3x8x8, S8x64x64x1x3x8x8, S8x64x64x1x3x8x8, S8x64x64x1x3x8x8, S8x64x64x1x3x8x8] S8x64x64x9x3x8x8 3
  shapeCasts_S8x64x64x9x3x8x8_S8x64x64x9x192 : S8x64x64x9x3x8x8.ShapeCasts S8x64x64x9x192
  bcast_S576_S1x1x1x1x576_4 : S576.BroadcastsInDim S1x1x1x1x576 (![4] : Fin 1 → Fin S1x1x1x1x576.rank)
  bcast_S1x1x1x1x576_S8x64x64x9x576_0_1_2_3_4 : S1x1x1x1x576.BroadcastsInDim S8x64x64x9x576 (![0, 1, 2, 3, 4] : Fin 5 → Fin S8x64x64x9x576.rank)
  shapeCasts_S8x64x64x9x576_S8x64x64x9x3x3x8x8 : S8x64x64x9x576.ShapeCasts S8x64x64x9x3x3x8x8
  slices_S8x64x64x9x3x3x8x8_S8x64x64x9x1x3x8x8_0_0_0_0_0_0_0_0 : S8x64x64x9x3x3x8x8.Slices ![0, 0, 0, 0, 0, 0, 0, 0] S8x64x64x9x1x3x8x8
  shapeCasts_S8x64x64x9x1x3x8x8_S8x64x64x9x3x8x8 : S8x64x64x9x1x3x8x8.ShapeCasts S8x64x64x9x3x8x8
  slices_S8x64x64x9x3x3x8x8_S8x64x64x9x1x3x8x8_0_0_0_0_1_0_0_0 : S8x64x64x9x3x3x8x8.Slices ![0, 0, 0, 0, 1, 0, 0, 0] S8x64x64x9x1x3x8x8
  slices_S8x64x64x9x3x3x8x8_S8x64x64x9x1x3x8x8_0_0_0_0_2_0_0_0 : S8x64x64x9x3x3x8x8.Slices ![0, 0, 0, 0, 2, 0, 0, 0] S8x64x64x9x1x3x8x8
  slices_S8x64x64x9x3x8x8_S8x64x64x1x3x8x8_0_0_0_4_0_0_0 : S8x64x64x9x3x8x8.Slices ![0, 0, 0, 4, 0, 0, 0] S8x64x64x1x3x8x8
  shapeCasts_S8x64x64x1x3x8x8_S8x64x64x3x8x8 : S8x64x64x1x3x8x8.ShapeCasts S8x64x64x3x8x8
  bcast_S_S8x64x64x3x8x8 : S_.BroadcastsInDim S8x64x64x3x8x8 (![] : Fin 0 → Fin S8x64x64x3x8x8.rank)
  bcast_S8x64x64x1x3x8x8_S8x64x64x9x3x8x8_0_1_2_3_4_5_6 : S8x64x64x1x3x8x8.BroadcastsInDim S8x64x64x9x3x8x8 (![0, 1, 2, 3, 4, 5, 6] : Fin 7 → Fin S8x64x64x9x3x8x8.rank)
  bcast_S9x8x8_S9x1x8x8_0_2_3 : S9x8x8.BroadcastsInDim S9x1x8x8 (![0, 2, 3] : Fin 3 → Fin S9x1x8x8.rank)
  bcast_S9x1x8x8_S1x1x1x9x1x8x8_3_4_5_6 : S9x1x8x8.BroadcastsInDim S1x1x1x9x1x8x8 (![3, 4, 5, 6] : Fin 4 → Fin S1x1x1x9x1x8x8.rank)
  bcast_S1x1x1x9x1x8x8_S8x64x64x9x3x8x8_0_1_2_3_4_5_6 : S1x1x1x9x1x8x8.BroadcastsInDim S8x64x64x9x3x8x8 (![0, 1, 2, 3, 4, 5, 6] : Fin 7 → Fin S8x64x64x9x3x8x8.rank)
  reducesTo_S8x64x64x9x3x8x8_S8x64x64x3x8x8_d3 : S8x64x64x9x3x8x8.ReducesTo [3] S8x64x64x3x8x8
  transposes_S8x64x64x3x8x8_S8x3x64x8x64x8_0_3_1_4_2_5 : S8x64x64x3x8x8.Transposes [0, 3, 1, 4, 2, 5] S8x3x64x8x64x8
  shapeCasts_S8x3x64x8x64x8_S8x3x512x512 : S8x3x64x8x64x8.ShapeCasts S8x3x512x512
  dot_S8x64x64x9x192_S576x192_S8x64x64x9x576_4_1_0123_0_n_n_wf : DotDims.WF S8x64x64x9x192 S576x192 S8x64x64x9x576 [4] [1] [0, 1, 2, 3] [0] [] []

variable [Facts₀]

def dot_S8x64x64x9x192_S576x192_S8x64x64x9x576_4_1_0123_0_n_n : DotDims S8x64x64x9x192 S576x192 S8x64x64x9x576 where
  lhsContracting := [4]
  rhsContracting := [1]
  lhsNonContracting := [0, 1, 2, 3]
  rhsNonContracting := [0]
  lhsBatch := []
  rhsBatch := []
  wf := dot_S8x64x64x9x192_S576x192_S8x64x64x9x576_4_1_0123_0_n_n_wf

class Facts : Prop extends Facts₀ where

variable [Facts]
-- ==== Proof.KernelRegion.lean ====
/-
  The frame of `Kernel`'s one pipelined region, written against the launch theorem for an entry function that runs host
  operations, the region, and host operations again.

  The entry function pads and re-lays the image into a grid of flattened patches, transposes the projection matrix,
  reshapes the bias and builds the nine-row weight table (three stretches of host operations), launches the kernel
  on a grid of eight points — one image per point —, and lays the result back out as an image (one more stretch). At
  each point the kernel's body loads its four input blocks whole (the weight table row by row), computes, and stores
  one value over the whole of its output block: so what the output's staging buffer holds after the body is that one
  value as a function of the four input blocks (`stored`), and the input buffers are left as found.
  Everything is stated at any float instance `F`; nothing here looks inside the arithmetic.
-/
import proofs.«134163_j6322191860015_2_alg».proof.Proof.Gen.Kernel.Launch
import proofs.«134163_j6322191860015_2_alg».proof.Proof.Gen.Kernel.Skeleton
import proofs.«134163_j6322191860015_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The entry function around the region -/

/-- The buffers' contents when the region is entered: the launch contents after the three stretches of host
    operations that come before it. -/
abbrev V0 (c : Dev nD) : Valuation τ sig (Elt F) :=
  StableHlo.after (List.flatten [hostOps0, hostOps0_1, hostOps0_2]) (fun b => m (c, b))
/-- The same read at a reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The entry function reduces to the region continued by the last stretch of host operations, the buffers held at
    `V` when the region is entered. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2] [hostOps1]
    (by simp only [List.Forall]; exact ⟨hostOps0_sub, hostOps0_1_sub, hostOps0_2_sub⟩)
    (by simp only [List.Forall]; exact ⟨hostOps0_fresh, hostOps0_1_fresh, hostOps0_2_fresh⟩) main_chain

/-- The operations after the region touch only the region's arrays and the buffers that bypass it. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And each writes only its own result, which is none of the region's arrays. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl
    all_goals intro w; fin_cases w <;> simp only [StableHlo.nullary_writes, StableHlo.unary_writes, StableHlo.binary_writes, StableHlo.reshape_writes, StableHlo.nary_writes, Finset.mem_singleton] <;> exact StableHlo.devRef_ne_of_ne (by decide)

/-- No operation before the region writes an argument array: the region finds each as launched. -/
theorem V_arg (a : Ref sig .tc) (ha : a = main_arg0 ∨ a = main_arg1 ∨ a = main_arg2) (c : Dev nD) :
    V m c a = m ((c : Thread nD τ).loc a) := by
  rcases ha with rfl | rfl | rfl
  all_goals
    exact StableHlo.after_of_forall_not_mem (b := Proc.devRef .tc _) _ _ (List.forall_iff_forall_mem.mp (by
      simp only [hostOps0, hostOps0_1, hostOps0_2, StableHlo.TRef.unary, StableHlo.TRef.binary, List.flatten_cons, List.flatten_nil, List.append_nil, List.cons_append,
        List.nil_append, List.Forall, StableHlo.nullary_writes, StableHlo.unary_writes, StableHlo.binary_writes, StableHlo.reshape_writes, StableHlo.nary_writes, Finset.mem_singleton]
      repeat' apply And.intro
      all_goals exact StableHlo.devRef_ne_of_ne (by decide)))

/-- No operation after the region writes one either: each ends as launched. -/
theorem W_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.reshape_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_arg m main_arg0 (by simp) c
theorem W_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.reshape_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_arg m main_arg1 (by simp) c
theorem W_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.reshape_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_arg m main_arg2 (by simp) c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, whether the point fetched it or not
    (unfetched, the block index has not moved), for any proof data whose arrays are `V`'s and whose body leaves the
    block in place. One statement per input window: the window's number has to be a numeral for its facts to compute. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- The frame from a frame run: for any proof data whose arrays are the region-entry contents, a run ending with the
    region's arrays at what the proof data computes and every other buffer as the last stretch of host operations
    leaves it ends with the three argument arrays as launched: no window stages one, and no host operation writes one. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_arg0 (Pipeline.mem_restRefs_of main_arg0 (by decide) (by decide))).trans (W_arg0 m dats c),
     ((h c).2 main_arg1 (Pipeline.mem_restRefs_of main_arg1 (by decide) (by decide))).trans (W_arg1 m dats c),
     ((h c).2 main_arg2 (Pipeline.mem_restRefs_of main_arg2 (by decide) (by decide))).trans (W_arg2 m dats c)⟩) h

/-! ## The body's accesses -/

/-- The patch grid's block, the projection matrix, the bias row and the output block, each whole. -/
abbrev rG : Rect S1x66x66x192 := Rect.unit (s := S1x66x66x192) ![0, 0, 0, 0] S1x66x66x192.size inb_S1x66x66x192_S1x66x66x192_0_0_0_0
abbrev rW : Rect S192x576 := Rect.unit (s := S192x576) ![0, 0] S192x576.size inb_S192x576_S192x576_0_0
abbrev rB : Rect S1x576 := Rect.unit (s := S1x576) ![0, 0] S1x576.size inb_S1x576_S1x576_0_0
abbrev rO : Rect S1x64x64x192 := Rect.unit (s := S1x64x64x192) ![0, 0, 0, 0] S1x64x64x192.size inb_S1x64x64x192_S1x64x64x192_0_0_0_0
/-- Row n of the nine-row weight table, n = 0 … 8. -/
abbrev rT0 : Rect S9x192 := Rect.unit (s := S9x192) ![0, 0] S1x192.size inb_S9x192_S1x192_0_0
abbrev rT1 : Rect S9x192 := Rect.unit (s := S9x192) ![1, 0] S1x192.size inb_S9x192_S1x192_1_0
abbrev rT2 : Rect S9x192 := Rect.unit (s := S9x192) ![2, 0] S1x192.size inb_S9x192_S1x192_2_0
abbrev rT3 : Rect S9x192 := Rect.unit (s := S9x192) ![3, 0] S1x192.size inb_S9x192_S1x192_3_0
abbrev rT4 : Rect S9x192 := Rect.unit (s := S9x192) ![4, 0] S1x192.size inb_S9x192_S1x192_4_0
abbrev rT5 : Rect S9x192 := Rect.unit (s := S9x192) ![5, 0] S1x192.size inb_S9x192_S1x192_5_0
abbrev rT6 : Rect S9x192 := Rect.unit (s := S9x192) ![6, 0] S1x192.size inb_S9x192_S1x192_6_0
abbrev rT7 : Rect S9x192 := Rect.unit (s := S9x192) ![7, 0] S1x192.size inb_S9x192_S1x192_7_0
abbrev rT8 : Rect S9x192 := Rect.unit (s := S9x192) ![8, 0] S1x192.size inb_S9x192_S1x192_8_0

/-! ## What the body leaves in the output window's buffer -/

/-- The projected patches of one image (every padded patch's 576 channels), from the loaded blocks. -/
def projected (xG : Vec F S1x66x66x192 .bf16) (xW : Vec F S192x576 .bf16) (xB : Vec F S1x576 .f32) : FVec F S66x66x576 .bf16 :=
  k0_pay2 (View.ld xG rG) (View.ld xW rW) (View.ld xB rB)

/-- The value the body stores over its whole output block, from the four input blocks: the printed body's pure
    operations in the printed order (the generated skeleton's named values, composed as the body composes them). -/
def stored (xG : Vec F S1x66x66x192 .bf16) (xW : Vec F S192x576 .bf16) (xB : Vec F S1x576 .f32) (xT : Vec F S9x192 .f32) :
    Vec F S1x64x64x192 .f32 :=
  k0_pay1 (projected xG xW xB) (k0_pay3 (View.ld xG rG) (View.ld xW rW) (View.ld xB rB))
    (k0_pay7 (projected xG xW xB) (k0_pay3 (View.ld xG rG) (View.ld xW rW) (View.ld xB rB))
      (k0_pay4 (View.ld xG rG) (View.ld xW rW) (View.ld xB rB) (View.ld xT rT0) (View.ld xT rT1))
      (k0_pay5 (View.ld xG rG) (View.ld xW rW) (View.ld xB rB)) (k0_pay6 (View.ld xG rG) (View.ld xW rW) (View.ld xB rB))
      (View.ld xT rT2) (View.ld xT rT3) (View.ld xT rT4) (View.ld xT rT5))
    (k0_pay8 (projected xG xW xB)) (k0_pay9 (projected xG xW xB)) (View.ld xT rT6) (View.ld xT rT7) (View.ld xT rT8)

/-- The output window's staging buffer after the body: its one store, over the whole block. -/
def out0_4 (xG : Vec F S1x66x66x192 .bf16) (xW : Vec F S192x576 .bf16) (xB : Vec F S1x576 .f32) (xT : Vec F S9x192 .f32) :
    Vec F S1x64x64x192 .f32 :=
  View.canon [⟨rO, stored xG xW xB xT⟩]

/-- The one store covers the buffer. -/
theorem cover0_4 (p0 : Vec F S1x64x64x192 .f32) (y : S1x64x64x192.Idx) :
    ∃ pc ∈ ([⟨rO, p0⟩] : List (View.Piece (Elt F) S1x64x64x192 .f32)), y ∈ pc.1.set :=
  View.cover_of_tiled [⟨rO, p0⟩] S1x64x64x192.size (by rfl) y

/-! ## The body's triple -/

set_option maxHeartbeats 4000000 in
/-- The kernel body on whole staging memrefs, the four inputs' at read contents and the output's at anything, runs to
    the continuation holding the inputs' as they were and the output's at `out0_4` of the inputs'. (The body also loads
    its output buffer once and never uses the value: any contents will do.) -/
theorem sound_kernel (c : Dev nD) (E : Set ℕ) (i : grid0.Coords)
    (arg1 : Memref sig .tc .vmem S1x66x66x192 .bf16) (harg1 : arg1.IsWhole) (arg2 : Memref sig .tc .vmem S192x576 .bf16) (harg2 : arg2.IsWhole)
    (arg3 : Memref sig .tc .vmem S1x576 .f32) (harg3 : arg3.IsWhole) (arg4 : Memref sig .tc .vmem S9x192 .f32) (harg4 : arg4.IsWhole)
    (arg5 : Memref sig .tc .vmem S1x64x64x192 .f32) (harg5 : arg5.IsWhole)
    (xG : Vec F S1x66x66x192 .bf16) (xW : Vec F S192x576 .bf16) (xB : Vec F S1x576 .f32) (xT : Vec F S9x192 .f32) (K : PUnit → sProp 𝕄) :
    iprop(owns (c : Thread nD τ) arg1 fullShare xG ∗ owns (c : Thread nD τ) arg2 fullShare xW ∗ owns (c : Thread nD τ) arg3 fullShare xB
        ∗ owns (c : Thread nD τ) arg4 fullShare xT ∗ (∃ d, owns (c : Thread nD τ) arg5 fullShare d)
        ∗ (iprop(owns (c : Thread nD τ) arg1 fullShare xG ∗ owns (c : Thread nD τ) arg2 fullShare xW ∗ owns (c : Thread nD τ) arg3 fullShare xB
            ∗ owns (c : Thread nD τ) arg4 fullShare xT ∗ owns (c : Thread nD τ) arg5 fullShare (out0_4 xG xW xB xT)) -∗ K ⟨⟩))
      ⊢ wp frame (wpE (defs₀ (F := F)) Variants.none c none) E (cc0__attn_kernel i arg1 harg1 arg2 harg2 arg3 harg3 arg4 harg4 arg5 harg5) K := by
  simp only [cc0__attn_kernel_eq_skeleton]; unfold cc0__attn_kernel_skel
  simp only [k0_part1_eq_skeleton, k0_part2_eq_skeleton]; unfold k0_part1_skel k0_part2_skel
  unfold owns
  iintro ⟨⟨%f1, %hf1, H1⟩, ⟨%f2, %hf2, H2⟩, ⟨%f3, %hf3, H3⟩, ⟨%f4, %hf4, H4⟩, ⟨%d5, %f5, -, H5⟩, Hk⟩
  subst hf1 hf2 hf3 hf4
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  try dsimp only
  exact View.read_writes_eq_canon _ _ _ (cover0_4 _)

/-! ## The pipeline's proof data -/

/-- The proof data of the pipeline on core `c`: the arrays as the region finds them; after the body at point `t`
    each input's buffer at its block and the output's at `out0_4` of the input blocks; as invariant the scoped rest
    and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => out0_4 (iblk m c 0 t) (iblk m c 1 t) (iblk m c 2 t) (iblk m c 3 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) :
    (dats m 0 c).after 4 t = out0_4 (iblk m c 0 t) (iblk m c 1 t) (iblk m c 2 t) (iblk m c 3 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at any point: the inputs' memrefs hold their blocks, so the body's triple applies; the invariant and the
    core's owed signals pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).Φ t.succ = (dats m 0 c).Φ t.castSucc from rfl,
    show (dats m 0 c).owesAt () t.succ = (dats m 0 c).owesAt () t.castSucc from rfl,
    after0, after1, after2, after3, after4]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of the entry function terminates, every array of the
    region ends at what the proof data computes, and every other unscoped buffer ends as the last stretch of host
    operations leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the entry function runs to the end, nothing faults, and the three argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (run_main m ρ)

end Cert.Kernel.Region

end
-- ==== Proof.KernelIdealRegion.lean ====
/-
  The frame of `KernelIdeal`'s one pipelined region, written against the launch theorem for an entry function that runs host
  operations, the region, and host operations again.

  The entry function pads and re-lays the image into a grid of flattened patches, transposes the projection matrix,
  reshapes the bias and builds the nine-row weight table (three stretches of host operations), launches the kernel
  on a grid of eight points — one image per point —, and lays the result back out as an image (one more stretch). At
  each point the kernel's body loads its four input blocks whole (the weight table row by row), computes, and stores
  one value over the whole of its output block: so what the output's staging buffer holds after the body is that one
  value as a function of the four input blocks (`stored`), and the input buffers are left as found.
  Everything is stated at any float instance `F`; nothing here looks inside the arithmetic.
-/
import proofs.«134163_j6322191860015_2_alg».proof.Proof.Gen.KernelIdeal.Launch
import proofs.«134163_j6322191860015_2_alg».proof.Proof.Gen.KernelIdeal.Skeleton
import proofs.«134163_j6322191860015_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The entry function around the region -/

/-- The buffers' contents when the region is entered: the launch contents after the three stretches of host
    operations that come before it. -/
abbrev V0 (c : Dev nD) : Valuation τ sig (Elt F) :=
  StableHlo.after (List.flatten [hostOps0, hostOps0_1, hostOps0_2]) (fun b => m (c, b))
/-- The same read at a reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The entry function reduces to the region continued by the last stretch of host operations, the buffers held at
    `V` when the region is entered. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2] [hostOps1]
    (by simp only [List.Forall]; exact ⟨hostOps0_sub, hostOps0_1_sub, hostOps0_2_sub⟩)
    (by simp only [List.Forall]; exact ⟨hostOps0_fresh, hostOps0_1_fresh, hostOps0_2_fresh⟩) main_chain

/-- The operations after the region touch only the region's arrays and the buffers that bypass it. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And each writes only its own result, which is none of the region's arrays. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl
    all_goals intro w; fin_cases w <;> simp only [StableHlo.nullary_writes, StableHlo.unary_writes, StableHlo.binary_writes, StableHlo.reshape_writes, StableHlo.nary_writes, Finset.mem_singleton] <;> exact StableHlo.devRef_ne_of_ne (by decide)

/-- No operation before the region writes an argument array: the region finds each as launched. -/
theorem V_arg (a : Ref sig .tc) (ha : a = main_arg0 ∨ a = main_arg1 ∨ a = main_arg2) (c : Dev nD) :
    V m c a = m ((c : Thread nD τ).loc a) := by
  rcases ha with rfl | rfl | rfl
  all_goals
    exact StableHlo.after_of_forall_not_mem (b := Proc.devRef .tc _) _ _ (List.forall_iff_forall_mem.mp (by
      simp only [hostOps0, hostOps0_1, hostOps0_2, StableHlo.TRef.unary, StableHlo.TRef.binary, List.flatten_cons, List.flatten_nil, List.append_nil, List.cons_append,
        List.nil_append, List.Forall, StableHlo.nullary_writes, StableHlo.unary_writes, StableHlo.binary_writes, StableHlo.reshape_writes, StableHlo.nary_writes, Finset.mem_singleton]
      repeat' apply And.intro
      all_goals exact StableHlo.devRef_ne_of_ne (by decide)))

/-- No operation after the region writes one either: each ends as launched. -/
theorem W_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.reshape_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_arg m main_arg0 (by simp) c
theorem W_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.reshape_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_arg m main_arg1 (by simp) c
theorem W_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.reshape_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_arg m main_arg2 (by simp) c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, whether the point fetched it or not
    (unfetched, the block index has not moved), for any proof data whose arrays are `V`'s and whose body leaves the
    block in place. One statement per input window: the window's number has to be a numeral for its facts to compute. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- The frame from a frame run: for any proof data whose arrays are the region-entry contents, a run ending with the
    region's arrays at what the proof data computes and every other buffer as the last stretch of host operations
    leaves it ends with the three argument arrays as launched: no window stages one, and no host operation writes one. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_arg0 (Pipeline.mem_restRefs_of main_arg0 (by decide) (by decide))).trans (W_arg0 m dats c),
     ((h c).2 main_arg1 (Pipeline.mem_restRefs_of main_arg1 (by decide) (by decide))).trans (W_arg1 m dats c),
     ((h c).2 main_arg2 (Pipeline.mem_restRefs_of main_arg2 (by decide) (by decide))).trans (W_arg2 m dats c)⟩) h

/-! ## The body's accesses -/

/-- The patch grid's block, the projection matrix, the bias row and the output block, each whole. -/
abbrev rG : Rect S1x66x66x192 := Rect.unit (s := S1x66x66x192) ![0, 0, 0, 0] S1x66x66x192.size inb_S1x66x66x192_S1x66x66x192_0_0_0_0
abbrev rW : Rect S192x576 := Rect.unit (s := S192x576) ![0, 0] S192x576.size inb_S192x576_S192x576_0_0
abbrev rB : Rect S1x576 := Rect.unit (s := S1x576) ![0, 0] S1x576.size inb_S1x576_S1x576_0_0
abbrev rO : Rect S1x64x64x192 := Rect.unit (s := S1x64x64x192) ![0, 0, 0, 0] S1x64x64x192.size inb_S1x64x64x192_S1x64x64x192_0_0_0_0
/-- Row n of the nine-row weight table, n = 0 … 8. -/
abbrev rT0 : Rect S9x192 := Rect.unit (s := S9x192) ![0, 0] S1x192.size inb_S9x192_S1x192_0_0
abbrev rT1 : Rect S9x192 := Rect.unit (s := S9x192) ![1, 0] S1x192.size inb_S9x192_S1x192_1_0
abbrev rT2 : Rect S9x192 := Rect.unit (s := S9x192) ![2, 0] S1x192.size inb_S9x192_S1x192_2_0
abbrev rT3 : Rect S9x192 := Rect.unit (s := S9x192) ![3, 0] S1x192.size inb_S9x192_S1x192_3_0
abbrev rT4 : Rect S9x192 := Rect.unit (s := S9x192) ![4, 0] S1x192.size inb_S9x192_S1x192_4_0
abbrev rT5 : Rect S9x192 := Rect.unit (s := S9x192) ![5, 0] S1x192.size inb_S9x192_S1x192_5_0
abbrev rT6 : Rect S9x192 := Rect.unit (s := S9x192) ![6, 0] S1x192.size inb_S9x192_S1x192_6_0
abbrev rT7 : Rect S9x192 := Rect.unit (s := S9x192) ![7, 0] S1x192.size inb_S9x192_S1x192_7_0
abbrev rT8 : Rect S9x192 := Rect.unit (s := S9x192) ![8, 0] S1x192.size inb_S9x192_S1x192_8_0

/-! ## What the body leaves in the output window's buffer -/

/-- The projected patches of one image (every padded patch's 576 channels), from the loaded blocks. -/
def projected (xG : Vec F S1x66x66x192 .bf16) (xW : Vec F S192x576 .bf16) (xB : Vec F S1x576 .f32) : FVec F S66x66x576 .bf16 :=
  k0_pay2 (View.ld xG rG) (View.ld xW rW) (View.ld xB rB)

/-- The value the body stores over its whole output block, from the four input blocks: the printed body's pure
    operations in the printed order (the generated skeleton's named values, composed as the body composes them). -/
def stored (xG : Vec F S1x66x66x192 .bf16) (xW : Vec F S192x576 .bf16) (xB : Vec F S1x576 .f32) (xT : Vec F S9x192 .f32) :
    Vec F S1x64x64x192 .f32 :=
  k0_pay1 (projected xG xW xB) (k0_pay3 (View.ld xG rG) (View.ld xW rW) (View.ld xB rB))
    (k0_pay7 (projected xG xW xB) (k0_pay3 (View.ld xG rG) (View.ld xW rW) (View.ld xB rB))
      (k0_pay4 (View.ld xG rG) (View.ld xW rW) (View.ld xB rB) (View.ld xT rT0) (View.ld xT rT1))
      (k0_pay5 (View.ld xG rG) (View.ld xW rW) (View.ld xB rB)) (k0_pay6 (View.ld xG rG) (View.ld xW rW) (View.ld xB rB))
      (View.ld xT rT2) (View.ld xT rT3) (View.ld xT rT4) (View.ld xT rT5))
    (k0_pay8 (projected xG xW xB)) (k0_pay9 (projected xG xW xB)) (View.ld xT rT6) (View.ld xT rT7) (View.ld xT rT8)

/-- The output window's staging buffer after the body: its one store, over the whole block. -/
def out0_4 (xG : Vec F S1x66x66x192 .bf16) (xW : Vec F S192x576 .bf16) (xB : Vec F S1x576 .f32) (xT : Vec F S9x192 .f32) :
    Vec F S1x64x64x192 .f32 :=
  View.canon [⟨rO, stored xG xW xB xT⟩]

/-- The one store covers the buffer. -/
theorem cover0_4 (p0 : Vec F S1x64x64x192 .f32) (y : S1x64x64x192.Idx) :
    ∃ pc ∈ ([⟨rO, p0⟩] : List (View.Piece (Elt F) S1x64x64x192 .f32)), y ∈ pc.1.set :=
  View.cover_of_tiled [⟨rO, p0⟩] S1x64x64x192.size (by rfl) y

/-! ## The body's triple -/

set_option maxHeartbeats 4000000 in
/-- The kernel body on whole staging memrefs, the four inputs' at read contents and the output's at anything, runs to
    the continuation holding the inputs' as they were and the output's at `out0_4` of the inputs'. (The body also loads
    its output buffer once and never uses the value: any contents will do.) -/
theorem sound_kernel (c : Dev nD) (E : Set ℕ) (i : grid0.Coords)
    (arg1 : Memref sig .tc .vmem S1x66x66x192 .bf16) (harg1 : arg1.IsWhole) (arg2 : Memref sig .tc .vmem S192x576 .bf16) (harg2 : arg2.IsWhole)
    (arg3 : Memref sig .tc .vmem S1x576 .f32) (harg3 : arg3.IsWhole) (arg4 : Memref sig .tc .vmem S9x192 .f32) (harg4 : arg4.IsWhole)
    (arg5 : Memref sig .tc .vmem S1x64x64x192 .f32) (harg5 : arg5.IsWhole)
    (xG : Vec F S1x66x66x192 .bf16) (xW : Vec F S192x576 .bf16) (xB : Vec F S1x576 .f32) (xT : Vec F S9x192 .f32) (K : PUnit → sProp 𝕄) :
    iprop(owns (c : Thread nD τ) arg1 fullShare xG ∗ owns (c : Thread nD τ) arg2 fullShare xW ∗ owns (c : Thread nD τ) arg3 fullShare xB
        ∗ owns (c : Thread nD τ) arg4 fullShare xT ∗ (∃ d, owns (c : Thread nD τ) arg5 fullShare d)
        ∗ (iprop(owns (c : Thread nD τ) arg1 fullShare xG ∗ owns (c : Thread nD τ) arg2 fullShare xW ∗ owns (c : Thread nD τ) arg3 fullShare xB
            ∗ owns (c : Thread nD τ) arg4 fullShare xT ∗ owns (c : Thread nD τ) arg5 fullShare (out0_4 xG xW xB xT)) -∗ K ⟨⟩))
      ⊢ wp frame (wpE (defs₀ (F := F)) Variants.none c none) E (cc0__attn_kernel i arg1 harg1 arg2 harg2 arg3 harg3 arg4 harg4 arg5 harg5) K := by
  simp only [cc0__attn_kernel_eq_skeleton]; unfold cc0__attn_kernel_skel
  simp only [k0_part1_eq_skeleton, k0_part2_eq_skeleton]; unfold k0_part1_skel k0_part2_skel
  unfold owns
  iintro ⟨⟨%f1, %hf1, H1⟩, ⟨%f2, %hf2, H2⟩, ⟨%f3, %hf3, H3⟩, ⟨%f4, %hf4, H4⟩, ⟨%d5, %f5, -, H5⟩, Hk⟩
  subst hf1 hf2 hf3 hf4
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  try dsimp only
  exact View.read_writes_eq_canon _ _ _ (cover0_4 _)

/-! ## The pipeline's proof data -/

/-- The proof data of the pipeline on core `c`: the arrays as the region finds them; after the body at point `t`
    each input's buffer at its block and the output's at `out0_4` of the input blocks; as invariant the scoped rest
    and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => out0_4 (iblk m c 0 t) (iblk m c 1 t) (iblk m c 2 t) (iblk m c 3 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) :
    (dats m 0 c).after 4 t = out0_4 (iblk m c 0 t) (iblk m c 1 t) (iblk m c 2 t) (iblk m c 3 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at any point: the inputs' memrefs hold their blocks, so the body's triple applies; the invariant and the
    core's owed signals pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).Φ t.succ = (dats m 0 c).Φ t.castSucc from rfl,
    show (dats m 0 c).owesAt () t.succ = (dats m 0 c).owesAt () t.castSucc from rfl,
    after0, after1, after2, after3, after4]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of the entry function terminates, every array of the
    region ends at what the proof data computes, and every other unscoped buffer ends as the last stretch of host
    operations leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the entry function runs to the end, nothing faults, and the three argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (run_main m ρ)

end Cert.KernelIdeal.Region

end
-- ==== Proof.Spec.lean ====
/-
  The patch-neighbourhood attention both programs compute, stated once over the extended reals and index by index.

  An image batch is cut into 8×8 patches on a grid padded by one patch on each side: `G b I J c p q` is pixel (p, q) of
  channel c of the patch at grid position (I, J) of image b, for I, J in 0..65. Each padded patch, flattened to 192
  features `k = 64 c + 8 p + q`, is projected by a 576 × 192 matrix `W` with bias `B` to 576 channels, read as three
  groups of 192: queries, keys and values (`chan s d = 192 s + d`). The output at patch (i, j) of the unpadded 64 × 64
  grid and feature (c, p, q) is the sum over the nine neighbours `n = 3 r + s` of the 3 × 3 window around the patch of
  `((query at the centre · one) · key at neighbour n · C n p q) · value at neighbour n`, added to `zero`, where `C`
  is a fixed 9 × 8 × 8 table of weights shared by the three channels.

  `one` and `zero` are the two programs' own float constants; nothing here evaluates them.
-/
import Idealize.ShloMosaic.PureOps.Ideal
import Idealize.ShloMosaic.Lib.ValueIdx
import Idealize.ShloMosaic.Lib.ValueIdxRank6

noncomputable section

namespace Cert.NeighbourAttention

open Idealize.ShloMosaic Idealize.ShloMosaic.ValueIdx

/-- Feature `64 c + 8 p + q` of a flattened patch: pixel (p, q) of channel c. -/
def feat (c : Fin 3) (p q : Fin 8) : Fin 192 := ⟨c.val * 64 + p.val * 8 + q.val, by omega⟩
/-- Channel `192 s + d` of the projection: feature d of group s (0 queries, 1 keys, 2 values). -/
def chan (s : Fin 3) (d : Fin 192) : Fin 576 := ⟨s.val * 192 + d.val, by omega⟩
/-- The channel, row and column of feature k of a flattened patch. -/
def featC (k : Fin 192) : Fin 3 := ⟨k.val / 64, by omega⟩
def featP (k : Fin 192) : Fin 8 := ⟨k.val / 8 % 8, by omega⟩
def featQ (k : Fin 192) : Fin 8 := ⟨k.val % 8, by omega⟩
/-- Position `i + d` of the padded grid, for a window offset d in 0..2. -/
def shift (i : Fin 64) (d : Fin 3) : Fin 66 := ⟨i.val + d.val, by omega⟩
/-- Neighbour n = 3 r + s of the window: its row offset r and column offset s. -/
def nrow (n : Fin 9) : Fin 3 := ⟨n.val / 3, by omega⟩
def ncol (n : Fin 9) : Fin 3 := ⟨n.val % 3, by omega⟩

variable (G : (⟨6, ![8, 66, 66, 3, 8, 8]⟩ : Shape).Idx → EReal) (W : (⟨2, ![576, 192]⟩ : Shape).Idx → EReal)
  (B : (⟨1, ![576]⟩ : Shape).Idx → EReal) (C : (⟨3, ![9, 8, 8]⟩ : Shape).Idx → EReal) (one zero : EReal)

/-- Channel e of the projection of the padded patch (I, J) of image b. -/
def proj (b : Fin 8) (I J : Fin 66) (e : Fin 576) : EReal :=
  (∑ k : Fin 192, G (ix6 b I J (featC k) (featP k) (featQ k)) * W (ix2 e k)) + B (ix1 e)

/-- Neighbour n's contribution at patch (i, j), feature (c, p, q), of image b. -/
def term (b : Fin 8) (i j : Fin 64) (c : Fin 3) (p q : Fin 8) (n : Fin 9) : EReal :=
  proj G W B b (shift i 1) (shift j 1) (chan 0 (feat c p q)) * one
    * proj G W B b (shift i (nrow n)) (shift j (ncol n)) (chan 1 (feat c p q))
    * C (ix3 n p q)
    * proj G W B b (shift i (nrow n)) (shift j (ncol n)) (chan 2 (feat c p q))

/-- The output before it is laid back out as an image, at explicit coordinates (b, i, j, c, p, q): the form every
    per-index lemma is stated against. -/
def outAt (b : Fin 8) (i j : Fin 64) (c : Fin 3) (p q : Fin 8) : EReal :=
  zero + ∑ n : Fin 9, term G W B C one b i j c p q n

/-- The same as one function of the rank-6 index, for an equation between whole arrays. -/
def out (y : (⟨6, ![8, 64, 64, 3, 8, 8]⟩ : Shape).Idx) : EReal :=
  outAt G W B C one zero (y 0) (y 1) (y 2) (y 3) (y 4) (y 5)

theorem out_ix6 (b : Fin 8) (i j : Fin 64) (c : Fin 3) (p q : Fin 8) :
    out G W B C one zero (ix6 b i j c p q) = outAt G W B C one zero b i j c p q := rfl

end Cert.NeighbourAttention

end
-- ==== Proof.KernelBlock.lean ====
/-
  One image's block of the computation, as the kernel's body sees it: from a block `xG` of padded, flattened patches
  [1, 66, 66, 192], the transposed projection matrix `xW` [192, 576], the bias row `xB` [1, 576] and the nine-row
  weight table `xT` [9, 192], the projection of padded patch (I, J) to channel e, and the output at patch (i, j),
  feature d: `zero` plus the sum over the nine neighbours of (((query · one) · key) · weight) · value.
-/
import proofs.«134163_j6322191860015_2_alg».proof.Proof.KernelIdealRegion
import proofs.«134163_j6322191860015_2_alg».proof.Proof.Spec

noncomputable section

namespace Cert.KernelIdeal.Body

open Idealize.ShloMosaic Idealize.ShloMosaic.ValueIdx Cert.NeighbourAttention Cert.KernelIdeal

/-- Channel e of the projection of padded patch (I, J) of the block. -/
def blockProj (xG : Vec Ideal S1x66x66x192 .bf16) (xW : Vec Ideal S192x576 .bf16) (xB : Vec Ideal S1x576 .f32)
    (I J : Fin 66) (e : Fin 576) : EReal :=
  (∑ k : Fin 192, xG (ix4 (0 : Fin 1) I J k) * xW (ix2 k e)) + xB (ix2 (0 : Fin 1) e)

/-- The block's output at patch (i, j), feature d. -/
def blockOut (xG : Vec Ideal S1x66x66x192 .bf16) (xW : Vec Ideal S192x576 .bf16) (xB : Vec Ideal S1x576 .f32)
    (xT : Vec Ideal S9x192 .f32) (i j : Fin 64) (d : Fin 192) : EReal :=
  Ideal.ofBits .f32 0x00000000#32 + ∑ n : Fin 9,
    (blockProj xG xW xB (shift i 1) (shift j 1) (chan 0 d) * Ideal.ofBits .f32 0x3F800000#32
      * blockProj xG xW xB (shift i (nrow n)) (shift j (ncol n)) (chan 1 d)
      * xT (ix2 n d)
      * blockProj xG xW xB (shift i (nrow n)) (shift j (ncol n)) (chan 2 d))

end Cert.KernelIdeal.Body

end
-- ==== Proof.KernelFinal.lean ====
/-
  From the eight blocks to the whole output array of the region.

  Point t of the grid handles image t: its input block is rows t of the patch-grid array, the other three inputs are
  whole arrays at every point, and its output block is rows t of the output array. So the eight output blocks tile
  the output array, and block t holds the block computation of image t's rows: the array after the region is ONE
  function `arrOut` of the four arrays the region found, index by index.
-/
import proofs.«134163_j6322191860015_2_alg».proof.Proof.KernelBlock
import Idealize.ShloMosaic.Lib.Pipeline.Value

set_option maxRecDepth 16384

noncomputable section

namespace Cert.KernelIdeal.Final

open Cert.KernelIdeal Cert.KernelIdeal.Gen Cert.KernelIdeal.Region Cert.KernelIdeal.Body Cert.NeighbourAttention
open Idealize.ShloMosaic Idealize.ShloMosaic.TcCoe Idealize.ShloMosaic.ValueIdx
open Idealize.ShloMosaic.Pipeline (Dat Cfg Window)

variable (m : (ℓ : Loc nD τ sig) → Buf (Elt Ideal) ℓ)

/-! ## The computation over whole arrays -/

/-- Channel e of the projection of padded patch (I, J) of image b, from the patch-grid array `g`, the transposed
    projection matrix `wT` and the bias row `bR`. -/
def arrProj (g : S8x66x66x192.Idx → EReal) (wT : S192x576.Idx → EReal) (bR : S1x576.Idx → EReal)
    (b : Fin 8) (I J : Fin 66) (e : Fin 576) : EReal :=
  (∑ k : Fin 192, g (ix4 b I J k) * wT (ix2 k e)) + bR (ix2 (0 : Fin 1) e)

/-- The output at image b, patch (i, j), feature d: the block computation on image b's rows. -/
def arrOutAt (g : S8x66x66x192.Idx → EReal) (wT : S192x576.Idx → EReal) (bR : S1x576.Idx → EReal) (tb : S9x192.Idx → EReal)
    (b : Fin 8) (i j : Fin 64) (d : Fin 192) : EReal :=
  Ideal.ofBits .f32 0x00000000#32 + ∑ n : Fin 9,
    (arrProj g wT bR b (shift i 1) (shift j 1) (chan 0 d) * Ideal.ofBits .f32 0x3F800000#32
      * arrProj g wT bR b (shift i (nrow n)) (shift j (ncol n)) (chan 1 d)
      * tb (ix2 n d)
      * arrProj g wT bR b (shift i (nrow n)) (shift j (ncol n)) (chan 2 d))

/-- The same as one function of the array index. -/
def arrOut (g : S8x66x66x192.Idx → EReal) (wT : S192x576.Idx → EReal) (bR : S1x576.Idx → EReal) (tb : S9x192.Idx → EReal)
    (y : S8x64x64x192.Idx) : EReal :=
  arrOutAt g wT bR tb (y 0) (y 1) (y 2) (y 3)

/-! ## Blocks and array indices -/

theorem hz4 : (![0, 0, 0, 0] : Fin 4 → Nat) = fun _ => 0 := funext fun a => by fin_cases a <;> rfl

/-- The image a grid point handles. -/
def img (t : Fin cfg0.N) : Fin 8 := ⟨t.val, by have h : t.val < grid0.N := t.isLt; rw [N_0] at h; exact h⟩

/-- The printed index maps over the grid: the patch grid's and the output's block index is (t, 0, 0, 0), the other
    three windows' is (0, 0). -/
theorem idx_facts : ∀ t : Fin cfg0.N,
    win0_0.index t (0 : Fin 4) = t.val ∧ win0_0.index t (1 : Fin 4) = 0 ∧ win0_0.index t (2 : Fin 4) = 0 ∧ win0_0.index t (3 : Fin 4) = 0
    ∧ win0_4.index t (0 : Fin 4) = t.val ∧ win0_4.index t (1 : Fin 4) = 0 ∧ win0_4.index t (2 : Fin 4) = 0 ∧ win0_4.index t (3 : Fin 4) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0 :=
  (by decide +kernel : ∀ t : Fin grid0.N, _)

/-- A block of the patch-grid array at point t, read at block index x, is the array at any index k with image
    coordinate t and x's patch and feature coordinates. (Stated for any array contents `A`: what the region found there
    is a long chain of host operations that nothing here needs to look at.) -/
theorem read_blk0 (t : Fin cfg0.N) (A : S8x66x66x192.Idx → EReal) (x : S1x66x66x192.Idx) (k : S8x66x66x192.Idx)
    (h0 : (k 0).val = t.val) (h1 : (k 1).val = (x 1).val) (h2 : (k 2).val = (x 2).val) (h3 : (k 3).val = (x 3).val) :
    (((cfg0.win 0).blk t).view.read (Elt Ideal) A : Vec Ideal S1x66x66x192 .bf16) x = A k := by
  obtain ⟨e0, e1, e2, e3, -⟩ := idx_facts t
  have hx0 : (x 0).val < 1 := (x 0).isLt
  rw [View.read_apply]
  refine congrArg A (funext fun a => Fin.ext ?_)
  match a with
  | ⟨0, _⟩ => show win0_0.index t (0 : Fin 4) * 1 + 1 * (x 0).val = (k 0).val; omega
  | ⟨1, _⟩ => show win0_0.index t (1 : Fin 4) * 66 + 1 * (x 1).val = (k 1).val; omega
  | ⟨2, _⟩ => show win0_0.index t (2 : Fin 4) * 66 + 1 * (x 2).val = (k 2).val; omega
  | ⟨3, _⟩ => show win0_0.index t (3 : Fin 4) * 192 + 1 * (x 3).val = (k 3).val; omega

/-- The other three inputs' blocks are their whole arrays. -/
theorem read_blk1 (t : Fin cfg0.N) (A : S192x576.Idx → EReal) (x : S192x576.Idx) :
    (((cfg0.win 1).blk t).view.read (Elt Ideal) A : Vec Ideal S192x576 .bf16) x = A x := by
  obtain ⟨-, -, -, -, -, -, -, -, e0, e1, -⟩ := idx_facts t
  rw [View.read_apply]
  refine congrArg A (funext fun a => Fin.ext ?_)
  match a with
  | ⟨0, _⟩ => show win0_1.index t (0 : Fin 2) * 192 + 1 * (x 0).val = (x 0).val; omega
  | ⟨1, _⟩ => show win0_1.index t (1 : Fin 2) * 576 + 1 * (x 1).val = (x 1).val; omega
theorem read_blk2 (t : Fin cfg0.N) (A : S1x576.Idx → EReal) (x : S1x576.Idx) :
    (((cfg0.win 2).blk t).view.read (Elt Ideal) A : Vec Ideal S1x576 .f32) x = A x := by
  obtain ⟨-, -, -, -, -, -, -, -, -, -, e0, e1, -⟩ := idx_facts t
  rw [View.read_apply]
  refine congrArg A (funext fun a => Fin.ext ?_)
  match a with
  | ⟨0, _⟩ => show win0_2.index t (0 : Fin 2) * 1 + 1 * (x 0).val = (x 0).val; omega
  | ⟨1, _⟩ => show win0_2.index t (1 : Fin 2) * 576 + 1 * (x 1).val = (x 1).val; omega
theorem read_blk3 (t : Fin cfg0.N) (A : S9x192.Idx → EReal) (x : S9x192.Idx) :
    (((cfg0.win 3).blk t).view.read (Elt Ideal) A : Vec Ideal S9x192 .f32) x = A x := by
  obtain ⟨-, -, -, -, -, -, -, -, -, -, -, -, e0, e1⟩ := idx_facts t
  rw [View.read_apply]
  refine congrArg A (funext fun a => Fin.ext ?_)
  match a with
  | ⟨0, _⟩ => show win0_3.index t (0 : Fin 2) * 9 + 1 * (x 0).val = (x 0).val; omega
  | ⟨1, _⟩ => show win0_3.index t (1 : Fin 2) * 192 + 1 * (x 1).val = (x 1).val; omega

/-- The block computation on the blocks at point t is the array computation at image t. -/
theorem blockProj_blks (t : Fin cfg0.N) (A0 : S8x66x66x192.Idx → EReal) (A1 : S192x576.Idx → EReal) (A2 : S1x576.Idx → EReal)
    (I J : Fin 66) (e : Fin 576) :
    blockProj (((cfg0.win 0).blk t).view.read (Elt Ideal) A0) (((cfg0.win 1).blk t).view.read (Elt Ideal) A1)
        (((cfg0.win 2).blk t).view.read (Elt Ideal) A2) I J e
      = arrProj A0 A1 A2 (img t) I J e := by
  unfold blockProj arrProj
  exact congrArg₂ (· + ·)
    (Finset.sum_congr rfl fun k _ => congrArg₂ (· * ·)
      (read_blk0 t A0 (ix4 (0 : Fin 1) I J k) (ix4 (img t) I J k) rfl rfl rfl rfl) (read_blk1 t A1 (ix2 k e)))
    (read_blk2 t A2 (ix2 (0 : Fin 1) e))

theorem blockOut_blks (t : Fin cfg0.N) (A0 : S8x66x66x192.Idx → EReal) (A1 : S192x576.Idx → EReal) (A2 : S1x576.Idx → EReal)
    (A3 : S9x192.Idx → EReal) (i j : Fin 64) (d : Fin 192) :
    blockOut (((cfg0.win 0).blk t).view.read (Elt Ideal) A0) (((cfg0.win 1).blk t).view.read (Elt Ideal) A1)
        (((cfg0.win 2).blk t).view.read (Elt Ideal) A2) (((cfg0.win 3).blk t).view.read (Elt Ideal) A3) i j d
      = arrOutAt A0 A1 A2 A3 (img t) i j d := by
  unfold blockOut arrOutAt
  refine congrArg (_ + ·) (Finset.sum_congr rfl fun n _ => ?_)
  rw [blockProj_blks t A0 A1 A2, blockProj_blks t A0 A1 A2, blockProj_blks t A0 A1 A2]
  exact congrArg (fun z => _ * z * _) (read_blk3 t A3 (ix2 n d))

/-! ## What point t writes back, the cover, and the array after the region -/

/-- The body's stored value read at an index, as the block computation: the one fact about the body's arithmetic this
    module needs. -/
def StoredIsBlockOut : Prop :=
  ∀ (xG : Vec Ideal S1x66x66x192 .bf16) (xW : Vec Ideal S192x576 .bf16) (xB : Vec Ideal S1x576 .f32) (xT : Vec Ideal S9x192 .f32)
    (i j : Fin 64) (d : Fin 192), stored (F := Ideal) xG xW xB xT (ix4 (0 : Fin 1) i j d) = blockOut xG xW xB xT i j d

/-- The output block's index y at point t is the array index with image coordinate t and y's other coordinates. -/
theorem blk4_emb (t : Fin cfg0.N) (y : S1x64x64x192.Idx) (k : S8x64x64x192.Idx)
    (h0 : (k 0).val = t.val) (h1 : (k 1).val = (y 1).val) (h2 : (k 2).val = (y 2).val) (h3 : (k 3).val = (y 3).val) :
    (((cfg0.win 4).blk t).view.emb y : S8x64x64x192.Idx) = k := by
  obtain ⟨-, -, -, -, e0, e1, e2, e3, -⟩ := idx_facts t
  have hy0 : (y 0).val < 1 := (y 0).isLt
  funext a
  apply Fin.ext
  match a with
  | ⟨0, _⟩ => show win0_4.index t (0 : Fin 4) * 1 + 1 * (y 0).val = (k 0).val; omega
  | ⟨1, _⟩ => show win0_4.index t (1 : Fin 4) * 64 + 1 * (y 1).val = (k 1).val; omega
  | ⟨2, _⟩ => show win0_4.index t (2 : Fin 4) * 64 + 1 * (y 2).val = (k 2).val; omega
  | ⟨3, _⟩ => show win0_4.index t (3 : Fin 4) * 192 + 1 * (y 3).val = (k 3).val; omega

/-- The stored value of the blocks of any four arrays at point t is block t of `arrOut` of the arrays. -/
theorem stored_blks (hS : StoredIsBlockOut) (t : Fin cfg0.N) (A0 : S8x66x66x192.Idx → EReal) (A1 : S192x576.Idx → EReal)
    (A2 : S1x576.Idx → EReal) (A3 : S9x192.Idx → EReal) :
    (stored (F := Ideal) (((cfg0.win 0).blk t).view.read (Elt Ideal) A0) (((cfg0.win 1).blk t).view.read (Elt Ideal) A1)
        (((cfg0.win 2).blk t).view.read (Elt Ideal) A2) (((cfg0.win 3).blk t).view.read (Elt Ideal) A3) : Vec Ideal S1x64x64x192 .f32)
      = ((cfg0.win 4).blk t).view.read (Elt Ideal) (arrOut A0 A1 A2 A3) := by
  refine funext fun (y : S1x64x64x192.Idx) => ?_
  rw [View.read_apply]
  obtain ⟨u, i, j, d, rfl⟩ : ∃ (u : Fin 1) (i j : Fin 64) (d : Fin 192), y = ix4 u i j d := ⟨y 0, y 1, y 2, y 3, eq_ix4 y⟩
  obtain rfl : u = 0 := Subsingleton.elim _ _
  refine (hS _ _ _ _ i j d).trans ?_
  rw [blockOut_blks t A0 A1 A2 A3 i j d, blk4_emb t (ix4 (0 : Fin 1) i j d) (ix4 (img t) i j d) rfl rfl rfl rfl]
  rfl

/-- What point t writes back is block t of `arrOut` of the arrays the region found. -/
theorem flushed4_eq (hS : StoredIsBlockOut) (c : Dev nD) (t : Fin cfg0.N) :
    (dats m 0 c).flushed 4 t
      = ((cfg0.win 4).blk t).view.read (Elt Ideal) (arrOut (V m c (Pipeline.arrRef spec0 0)) (V m c (Pipeline.arrRef spec0 1))
          (V m c (Pipeline.arrRef spec0 2)) (V m c (Pipeline.arrRef spec0 3))) := by
  show (cfg0.win 4).cut (grid0.coords t) ((dats m 0 c).after 4 t) = _
  rw [after4]
  unfold out0_4 iblk
  rw [View.canon_unit_zero hz4]
  generalize V m c (Pipeline.arrRef spec0 0) = A0
  generalize V m c (Pipeline.arrRef spec0 1) = A1
  generalize V m c (Pipeline.arrRef spec0 2) = A2
  generalize V m c (Pipeline.arrRef spec0 3) = A3
  exact stored_blks hS t A0 A1 A2 A3

/-- An index of the output array is in point t's block iff each coordinate is in the block's range on its axis. -/
theorem mem_blk4 (t : Fin cfg0.N) (i : S8x64x64x192.Idx) :
    i ∈ ((cfg0.win 4).blk t).view.set ↔ ∀ a : Fin 4, win0_4.index t a * S1x64x64x192.size a ≤ (i a).val ∧ (i a).val < win0_4.index t a * S1x64x64x192.size a + S1x64x64x192.size a := by
  show i ∈ ((View.whole main_v10).slice (win0_4.rect t)).set ↔ _
  rw [View.set_slice_whole, Rect.mem_set_unit]
  exact Iff.rfl

/-- Every index of the output array is in the block of the point that handles its image. -/
theorem cover4 (i : S8x64x64x192.Idx) : ∃ t : Fin cfg0.N, (cfg0.win 4).flush t = true ∧ i ∈ ((cfg0.win 4).blk t).view.set := by
  have h0 : (i 0).val < 8 := (i 0).isLt
  have h1 : (i 1).val < 64 := (i 1).isLt
  have h2 : (i 2).val < 64 := (i 2).isLt
  have h3 : (i 3).val < 192 := (i 3).isLt
  have hN : (i 0).val < grid0.N := by rw [N_0]; exact h0
  refine ⟨⟨(i 0).val, hN⟩, flush0_4 _, ?_⟩
  rw [mem_blk4]
  obtain ⟨-, -, -, -, e0, e1, e2, e3, -⟩ := idx_facts ⟨(i 0).val, hN⟩
  intro a
  match a with
  | ⟨0, _⟩ => show win0_4.index ⟨(i 0).val, hN⟩ (0 : Fin 4) * 1 ≤ (i 0).val ∧ (i 0).val < win0_4.index ⟨(i 0).val, hN⟩ (0 : Fin 4) * 1 + 1; rw [e0]; show (i 0).val * 1 ≤ (i 0).val ∧ (i 0).val < (i 0).val * 1 + 1; omega
  | ⟨1, _⟩ => show win0_4.index ⟨(i 0).val, hN⟩ (1 : Fin 4) * 64 ≤ (i 1).val ∧ (i 1).val < win0_4.index ⟨(i 0).val, hN⟩ (1 : Fin 4) * 64 + 64; omega
  | ⟨2, _⟩ => show win0_4.index ⟨(i 0).val, hN⟩ (2 : Fin 4) * 64 ≤ (i 2).val ∧ (i 2).val < win0_4.index ⟨(i 0).val, hN⟩ (2 : Fin 4) * 64 + 64; omega
  | ⟨3, _⟩ => show win0_4.index ⟨(i 0).val, hN⟩ (3 : Fin 4) * 192 ≤ (i 3).val ∧ (i 3).val < win0_4.index ⟨(i 0).val, hN⟩ (3 : Fin 4) * 192 + 192; omega

/-- The output array after the region is `arrOut` of the four arrays the region found. -/
theorem final4 (hS : StoredIsBlockOut) (c : Dev nD) :
    (dats m 0 c).arrAt 4 cfg0.N = arrOut (V m c (Pipeline.arrRef spec0 0)) (V m c (Pipeline.arrRef spec0 1))
      (V m c (Pipeline.arrRef spec0 2)) (V m c (Pipeline.arrRef spec0 3)) :=
  (dats m 0 c).arrAt_eq_of_cover 4 _ (fun t _ => flushed4_eq m hS c t) cover4

end Cert.KernelIdeal.Final

end
-- ==== Proof.KernelEntry.lean ====
/-
  What the region finds in its four input arrays, as functions of the entry function's arguments.

  Before the region the entry function pads the image batch by one patch of zeros on each side of the two image axes,
  splits each image axis into (patch, pixel), brings the two patch axes forward and flattens channel and pixels into
  192 features — the patch grid —; transposes the projection matrix; reshapes the bias vector to a row; and lays the
  9 × 8 × 8 weight table out as nine rows of 64, three copies side by side, one per channel.
-/
import proofs.«134163_j6322191860015_2_alg».proof.Proof.KernelIdealRegion
import proofs.«134163_j6322191860015_2_alg».proof.Proof.Spec
import Idealize.ShloMosaic.Lib.Pipeline.Value
import Idealize.ShloMosaic.Lib.StableHlo.Run
import Idealize.ShloMosaic.Lib.ValueLayout

set_option maxRecDepth 16384

noncomputable section

namespace Cert.KernelIdeal.Entry

open Cert.KernelIdeal Cert.KernelIdeal.Gen Cert.KernelIdeal.Region Cert.NeighbourAttention
open Idealize.ShloMosaic Idealize.ShloMosaic.TcCoe Idealize.ShloMosaic.ValueIdx Idealize.ShloMosaic.StableHlo

variable (m : (ℓ : Loc nD τ sig) → Buf (Elt Ideal) ℓ)

/-- The padded image batch. -/
def padded (x : S8x3x512x512.Idx → EReal) : S8x3x528x528.Idx → EReal :=
  pad S8x3x528x528 ![0, 0, 8, 8] ![0, 0, 8, 8] ![0, 0, 0, 0] x (sitofp .f32 (constantI S_ 32 0#32) : FVec Ideal S_ .f32)
    pads_S8x3x512x512_S8x3x528x528_000_000_880_880 h_S_

/-- The padded patch grid with channel and pixel axes apart: entry (b, I, J, c, p, q) is pixel (p, q) of channel c of
    padded patch (I, J) of image b. The change of float format on the way is the identity on extended reals. -/
def grid6 (x : S8x3x512x512.Idx → EReal) : S8x66x66x3x8x8.Idx → EReal :=
  transpose S8x66x66x3x8x8 [0, 2, 4, 1, 3, 5]
    (shapeCast S8x3x66x8x66x8 (truncf (F := Ideal) .bf16 (padded x) bitsLt_bf16_f32) shapeCasts_S8x3x528x528_S8x3x66x8x66x8)
    transposes_S8x3x66x8x66x8_S8x66x66x3x8x8_0_2_4_1_3_5

/-- The weight table's contents. -/
def table : S9x8x8.Idx → EReal := fun i => Ideal.ofBits .f32 (lit0 (S9x8x8.rowMajor i))

/-- The patch-grid array the region finds: the grid with channel and pixels flattened. -/
theorem V_v4 (c : Dev nD) : (V m c main_v4 : S8x66x66x192.Idx → EReal)
    = shapeCast S8x66x66x192 (grid6 (m ((c : Thread nD τ).loc main_arg0))) shapeCasts_S8x66x66x3x8x8_S8x66x66x192 := by
  dsimp only [V, V0]
  simp only [hostOps0, hostOps0_1, hostOps0_2, List.flatten_cons, List.flatten_nil, List.append_nil, List.cons_append, List.nil_append]
  after_results
  all_goals rfl

/-- The projection matrix the region finds: the argument's transpose. -/
theorem V_v6 (c : Dev nD) : (V m c main_v6 : S192x576.Idx → EReal)
    = truncf (F := Ideal) .bf16 (transpose S192x576 [1, 0] (m ((c : Thread nD τ).loc main_arg1)) transposes_S576x192_S192x576_1_0) bitsLt_bf16_f32 := by
  dsimp only [V, V0]
  simp only [hostOps0, hostOps0_1, hostOps0_2, List.flatten_cons, List.flatten_nil, List.append_nil, List.cons_append, List.nil_append]
  after_results
  all_goals rfl

/-- The bias row the region finds. -/
theorem V_v7 (c : Dev nD) : (V m c main_v7 : S1x576.Idx → EReal)
    = shapeCast S1x576 (m ((c : Thread nD τ).loc main_arg2)) shapeCasts_S576_S1x576 := by
  dsimp only [V, V0]
  simp only [hostOps0, hostOps0_1, hostOps0_2, List.flatten_cons, List.flatten_nil, List.append_nil, List.cons_append, List.nil_append]
  after_results
  all_goals rfl

/-- The nine-row weight table the region finds: three copies of the flattened table side by side. -/
theorem V_v9 (c : Dev nD) : (V m c main_v9 : S9x192.Idx → EReal)
    = concatenate S9x192 1 [⟨S9x64, shapeCast S9x64 table shapeCasts_S9x8x8_S9x64⟩, ⟨S9x64, shapeCast S9x64 table shapeCasts_S9x8x8_S9x64⟩, ⟨S9x64, shapeCast S9x64 table shapeCasts_S9x8x8_S9x64⟩]
        concatenates_S9x64_S9x64_S9x64_S9x192_d1 := by
  dsimp only [V, V0]
  simp only [hostOps0, hostOps0_1, hostOps0_2, List.flatten_cons, List.flatten_nil, List.append_nil, List.cons_append, List.nil_append]
  after_results
  all_goals rfl

/-! ## The four arrays read at an index -/

/-- The flattened patch grid at feature k = 64 c + 8 p + q is the grid at (c, p, q). -/
theorem flatGrid_apply (G : S8x66x66x3x8x8.Idx → EReal) (b : Fin 8) (I J : Fin 66) (k : Fin 192) :
    shapeCast S8x66x66x192 G shapeCasts_S8x66x66x3x8x8_S8x66x66x192 (ix4 b I J k)
      = G (ix6 b I J (featC k) (featP k) (featQ k)) :=
  shapeCast_apply G _ (ix4 b I J k) (ix6 b I J (featC k) (featP k) (featQ k)) (by
    rw [Shape.rowMajor_val_six, Shape.rowMajor_val_four]
    show ((((b.val * 66 + I.val) * 66 + J.val) * 3 + k.val / 64) * 8 + k.val / 8 % 8) * 8 + k.val % 8
      = ((b.val * 66 + I.val) * 66 + J.val) * 192 + k.val
    have := k.isLt
    omega)

/-- The transposed projection matrix at (k, e) is the matrix at (e, k). -/
theorem matrixT_apply (Wm : S576x192.Idx → EReal) (k : Fin 192) (e : Fin 576) :
    truncf (F := Ideal) .bf16 (transpose S192x576 [1, 0] Wm transposes_S576x192_S192x576_1_0) bitsLt_bf16_f32 (ix2 k e) = Wm (ix2 e k) :=
  transpose_apply [1, 0] Wm _ (ix2 k e) (ix2 e k) (fun b => by match b with | ⟨0, _⟩ => rfl | ⟨1, _⟩ => rfl)

/-- The bias row at (0, e) is the bias vector at e. -/
theorem biasRow_apply (Bv : S576.Idx → EReal) (e : Fin 576) :
    shapeCast S1x576 Bv shapeCasts_S576_S1x576 (ix2 (0 : Fin 1) e) = Bv (ix1 e) :=
  shapeCast_a_1a_apply Bv _ 0 e

/-- Row n of the nine-row weight table at feature d = 64 c + 8 p + q is the table at (n, p, q), whatever the channel c. -/
theorem tableRows_apply (n : Fin 9) (d : Fin 192) :
    concatenate S9x192 1 [⟨S9x64, shapeCast S9x64 table shapeCasts_S9x8x8_S9x64⟩, ⟨S9x64, shapeCast S9x64 table shapeCasts_S9x8x8_S9x64⟩, ⟨S9x64, shapeCast S9x64 table shapeCasts_S9x8x8_S9x64⟩]
        concatenates_S9x64_S9x64_S9x64_S9x192_d1 (ix2 n d)
      = table (ix3 n (featP d) (featQ d)) := by
  have hd := d.isLt
  refine (concatenate_replicate_apply (t := S9x192) (s₁ := S9x64) 1 3 (shapeCast S9x64 table shapeCasts_S9x8x8_S9x64)
    concatenates_S9x64_S9x64_S9x64_S9x192_d1 rfl (ix2 n d) (ix2 n ⟨d.val % 64, by omega⟩) ?_ ?_).trans ?_
  · rfl
  · intro b hb
    match b with
    | ⟨0, _⟩ => rfl
    | ⟨1, _⟩ => exact absurd rfl hb
  · exact shapeCast_apply table _ (ix2 n ⟨d.val % 64, by omega⟩) (ix3 n (featP d) (featQ d)) (by
      rw [Shape.rowMajor_val_three, Shape.rowMajor_val_two]
      show (n.val * 8 + d.val / 8 % 8) * 8 + d.val % 8 = n.val * 64 + d.val % 64
      omega)

end Cert.KernelIdeal.Entry

end
-- ==== Proof.KernelResult.lean ====
/-
  The kernel program's result as the specification.

  The region's output array is the array computation `arrOut` of the four arrays the region found; those are the
  flattened patch grid, the transposed projection matrix, the bias row and the three-fold weight rows of the
  arguments; read through them, `arrOut` at (b, i, j, 64 c + 8 p + q) is the specification's `outAt` at
  (b, i, j, c, p, q). The entry function then splits the feature axis back into (c, p, q) — which gives the
  specification's `out` as a whole array — and lays the patches back out as images (`layBack`, never opened).
-/
import proofs.«134163_j6322191860015_2_alg».proof.Proof.KernelFinal
import proofs.«134163_j6322191860015_2_alg».proof.Proof.KernelEntry

set_option maxRecDepth 16384

noncomputable section

namespace Cert.KernelIdeal.Result

open Cert.KernelIdeal Cert.KernelIdeal.Gen Cert.KernelIdeal.Region Cert.KernelIdeal.Body Cert.KernelIdeal.Final
open Cert.KernelIdeal.Entry Cert.NeighbourAttention
open Idealize.ShloMosaic Idealize.ShloMosaic.TcCoe Idealize.ShloMosaic.ValueIdx Idealize.ShloMosaic.StableHlo
open Idealize.SL.Sem

variable (m : (ℓ : Loc nD τ sig) → Buf (Elt Ideal) ℓ) (ρ : Dev nD → PrngReg)

/-! ## Features and their pixels -/

theorem featP_feat (c : Fin 3) (p q : Fin 8) : featP (feat c p q) = p :=
  Fin.ext (by have := c.isLt; have := p.isLt; have := q.isLt; show (c.val * 64 + p.val * 8 + q.val) / 8 % 8 = p.val; omega)
theorem featQ_feat (c : Fin 3) (p q : Fin 8) : featQ (feat c p q) = q :=
  Fin.ext (by have := c.isLt; have := p.isLt; have := q.isLt; show (c.val * 64 + p.val * 8 + q.val) % 8 = q.val; omega)

/-! ## The four arrays the region finds, named -/

def gridArr (x : S8x3x512x512.Idx → EReal) : S8x66x66x192.Idx → EReal :=
  shapeCast S8x66x66x192 (grid6 x) shapeCasts_S8x66x66x3x8x8_S8x66x66x192
def matT (W : S576x192.Idx → EReal) : S192x576.Idx → EReal :=
  truncf (F := Ideal) .bf16 (transpose S192x576 [1, 0] W transposes_S576x192_S192x576_1_0) bitsLt_bf16_f32
def biasRow (B : S576.Idx → EReal) : S1x576.Idx → EReal := shapeCast S1x576 B shapeCasts_S576_S1x576
def tableRows : S9x192.Idx → EReal :=
  concatenate S9x192 1 [⟨S9x64, shapeCast S9x64 table shapeCasts_S9x8x8_S9x64⟩, ⟨S9x64, shapeCast S9x64 table shapeCasts_S9x8x8_S9x64⟩, ⟨S9x64, shapeCast S9x64 table shapeCasts_S9x8x8_S9x64⟩]
    concatenates_S9x64_S9x64_S9x64_S9x192_d1

/-- A window's array is the buffer its operand names. -/
theorem arr0 (c : Dev nD) : V m c (Pipeline.arrRef spec0 0) = V m c main_v4 := rfl
theorem arr1 (c : Dev nD) : V m c (Pipeline.arrRef spec0 1) = V m c main_v6 := rfl
theorem arr2 (c : Dev nD) : V m c (Pipeline.arrRef spec0 2) = V m c main_v7 := rfl
theorem arr3 (c : Dev nD) : V m c (Pipeline.arrRef spec0 3) = V m c main_v9 := rfl

/-! ## The array computation through the entry arrays is the specification -/

theorem arrProj_eq (x : S8x3x512x512.Idx → EReal) (W : S576x192.Idx → EReal) (B : S576.Idx → EReal)
    (b : Fin 8) (I J : Fin 66) (e : Fin 576) :
    arrProj (gridArr x) (matT W) (biasRow B) b I J e = proj (grid6 x) W B b I J e := by
  unfold arrProj proj gridArr matT biasRow
  exact congrArg₂ (· + ·)
    (Finset.sum_congr rfl fun k _ => congrArg₂ (· * ·) (flatGrid_apply (grid6 x) b I J k) (matrixT_apply W k e))
    (biasRow_apply B e)

theorem tableRows_feat (n : Fin 9) (c : Fin 3) (p q : Fin 8) : tableRows (ix2 n (feat c p q)) = table (ix3 n p q) := by
  unfold tableRows
  rw [tableRows_apply, featP_feat, featQ_feat]

theorem arrOutAt_eq (x : S8x3x512x512.Idx → EReal) (W : S576x192.Idx → EReal) (B : S576.Idx → EReal)
    (b : Fin 8) (i j : Fin 64) (c : Fin 3) (p q : Fin 8) :
    arrOutAt (gridArr x) (matT W) (biasRow B) tableRows b i j (feat c p q)
      = outAt (grid6 x) W B table (Ideal.ofBits .f32 0x3F800000#32) (Ideal.ofBits .f32 0x00000000#32) b i j c p q := by
  unfold arrOutAt outAt term
  refine congrArg (_ + ·) (Finset.sum_congr rfl fun n _ => ?_)
  rw [arrProj_eq, arrProj_eq, arrProj_eq, tableRows_feat]

/-! ## The result before it is laid back out as images -/

/-- The region's output with its feature axis split into (channel, row, column). -/
def core (x : S8x3x512x512.Idx → EReal) (W : S576x192.Idx → EReal) (B : S576.Idx → EReal) : S8x64x64x3x8x8.Idx → EReal :=
  shapeCast S8x64x64x3x8x8 (arrOut (gridArr x) (matT W) (biasRow B) tableRows) shapeCasts_S8x64x64x192_S8x64x64x3x8x8

theorem core_eq (x : S8x3x512x512.Idx → EReal) (W : S576x192.Idx → EReal) (B : S576.Idx → EReal) :
    core x W B = out (grid6 x) W B table (Ideal.ofBits .f32 0x3F800000#32) (Ideal.ofBits .f32 0x00000000#32) := by
  funext y
  obtain ⟨b, i, j, c, p, q, rfl⟩ : ∃ (b : Fin 8) (i j : Fin 64) (c : Fin 3) (p q : Fin 8), y = ix6 b i j c p q :=
    ⟨y 0, y 1, y 2, y 3, y 4, y 5, eq_ix6 y⟩
  rw [out_ix6]
  refine (shapeCast_apply _ _ (ix6 b i j c p q) (ix4 b i j (feat c p q)) (by
    rw [Shape.rowMajor_val_four, Shape.rowMajor_val_six]
    show ((b.val * 64 + i.val) * 64 + j.val) * 192 + (c.val * 64 + p.val * 8 + q.val)
      = ((((b.val * 64 + i.val) * 64 + j.val) * 3 + c.val) * 8 + p.val) * 8 + q.val
    omega)).trans ?_
  exact arrOutAt_eq x W B b i j c p q

/-- The last two host operations: the patches laid back out as images. Both programs end with them. -/
def layBack (v : S8x64x64x3x8x8.Idx → EReal) : S8x3x512x512.Idx → EReal :=
  shapeCast S8x3x512x512 (transpose S8x3x64x8x64x8 [0, 3, 1, 4, 2, 5] v transposes_S8x64x64x3x8x8_S8x3x64x8x64x8_0_3_1_4_2_5)
    shapeCasts_S8x3x64x8x64x8_S8x3x512x512

/-! ## The run, read -/

/-- What the result buffer holds after the host operations that follow the region. -/
theorem result_eq (hS : StoredIsBlockOut) (c : Dev nD) :
    Pipeline.afterTail₀ cfgs (dats m) 0 (V0 m) [hostOps1] c main_v13
      = layBack (core (m ((c : Thread nD τ).loc main_arg0)) (m ((c : Thread nD τ).loc main_arg1)) (m ((c : Thread nD τ).loc main_arg2))) := by
  unfold Pipeline.afterTail₀
  show StableHlo.after hostOps1 _ (Proc.devRef .tc main_v13) = _
  after_results
  rw [Pipeline.withArrays_arr spec0 launch0.win.arr_inj c _ _ 4, final4 m hS c, arr0, arr1, arr2, arr3, V_v4, V_v6, V_v7, V_v9]
  rfl

/-- Every weakly fair execution of the kernel program terminates with the result at the specification laid back out
    as images, and the three arguments as launched. -/
theorem run (hS : StoredIsBlockOut) : θ_run defs (onTc (τ := τ) (main (F := Ideal))) ⟨m, fun _ => 0, ρ⟩ fun r => ∀ c : Dev nD,
      r.2.mem ((c.tc : Thread nD τ).loc main_v13)
        = layBack (out (grid6 (m ((c : Thread nD τ).loc main_arg0))) (m ((c : Thread nD τ).loc main_arg1)) (m ((c : Thread nD τ).loc main_arg2))
            table (Ideal.ofBits .f32 0x3F800000#32) (Ideal.ofBits .f32 0x00000000#32))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v13 (Pipeline.mem_restRefs_of main_v13 (by decide) (by decide))).trans
        ((result_eq m hS c).trans (congrArg layBack (core_eq _ _ _))),
     ((h c).2 main_arg0 (Pipeline.mem_restRefs_of main_arg0 (by decide) (by decide))).trans (W_arg0 m (dats m) c),
     ((h c).2 main_arg1 (Pipeline.mem_restRefs_of main_arg1 (by decide) (by decide))).trans (W_arg1 m (dats m) c),
     ((h c).2 main_arg2 (Pipeline.mem_restRefs_of main_arg2 (by decide) (by decide))).trans (W_arg2 m (dats m) c)⟩)
    (run_main m ρ)

end Cert.KernelIdeal.Result

end
-- ==== Proof.KernelProjection.lean ====
/-
  The projected block at an index. The body flattens the block of padded patches [1, 66, 66, 192] to 4356 rows of 192
  features (row 66 I + J is patch (I, J)), multiplies by the transposed matrix [192, 576] into a zero accumulator, adds the
  bias row to every row, and views the 4356 × 576 result as [66, 66, 576]. Read at (I, J, e) this is the sum over the 192
  features k of patch (I, J)'s feature k times the matrix entry (k, e), plus the bias at e: a reshape keeps the row-major
  position, the product into a zero accumulator is the plain sum over the one contracted axis, and the format changes
  are the identity on extended reals.
-/
import proofs.«134163_j6322191860015_2_alg».proof.Proof.KernelBlock
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Body

open Idealize.ShloMosaic Idealize.ShloMosaic.ValueIdx Cert.NeighbourAttention Cert.KernelIdeal Cert.KernelIdeal.Gen

/-- The projection's contraction record: rows of the flattened block against rows of the transposed matrix. -/
abbrev D := dot_S4356x192_S192x576_S4356x576_1_0_0_1_n_n

/-! The two operand indices of the product at output (r, e) and contraction position k are (r, k) and (k, e). -/
theorem lhs_0 (j : S4356x576.Idx) (k : D.contr.Idx) : (D.lhsIdx j k 0 : ℕ) = j 0 := by
  simp [DotDims.lhsIdx, D, dot_S4356x192_S192x576_S4356x576_1_0_0_1_n_n]; rfl
theorem lhs_1 (j : S4356x576.Idx) (k : D.contr.Idx) : (D.lhsIdx j k 1 : ℕ) = k ⟨0, by decide⟩ := by
  simp [DotDims.lhsIdx, D, dot_S4356x192_S192x576_S4356x576_1_0_0_1_n_n]; rfl
theorem rhs_0 (j : S4356x576.Idx) (k : D.contr.Idx) : (D.rhsIdx j k 0 : ℕ) = k ⟨0, by decide⟩ := by
  simp [DotDims.rhsIdx, D, dot_S4356x192_S192x576_S4356x576_1_0_0_1_n_n]; rfl
theorem rhs_1 (j : S4356x576.Idx) (k : D.contr.Idx) : (D.rhsIdx j k 1 : ℕ) = j 1 := by
  simp [DotDims.rhsIdx, D, dot_S4356x192_S192x576_S4356x576_1_0_0_1_n_n]; rfl

/-- Row 66 I + J of the flattened block is padded patch (I, J). -/
def flatRow (I J : Fin 66) : Fin 4356 := ⟨I.val * 66 + J.val, by omega⟩

/-- The projected block read at (I, J, e): the 192-term product sum of patch (I, J) against column e, plus the bias. -/
theorem pay2_apply (v0 : Vec Ideal S1x66x66x192 .bf16) (v3 : Vec Ideal S192x576 .bf16) (v6 : Vec Ideal S1x576 .f32)
    (I J : Fin 66) (e : Fin 576) :
    k0_pay2 (F := Ideal) v0 v3 v6 (ix3 I J e) = blockProj v0 v3 v6 I J e := by
  unfold k0_pay2
  refine (shapeCast_apply _ shapeCasts_S4356x576_S66x66x576 (ix3 I J e) (ix2 (flatRow I J) e) ?_).trans ?_
  · rw [Shape.rowMajor_val_two, Shape.rowMajor_val_three]
    show (I.val * 66 + J.val) * 576 + e.val = (I.val * 66 + J.val) * 576 + e.val
    rfl
  refine (truncf_apply (φ := .f32) (ψ := .bf16) _ bitsLt_bf16_f32 (ix2 (flatRow I J) e)).trans ?_
  refine (addf_apply (φ := .f32) _ _ (ix2 (flatRow I J) e)).trans ?_
  unfold blockProj
  refine congrArg₂ (· + ·) ?_ ?_
  · refine (Ideal.matmul_constant_zero_apply D none _ _ (ix2 (flatRow I J) e)).trans ?_
    refine ((contrEquiv1 D 192 rfl rfl).symm.sum_comp _).symm.trans ?_
    refine Finset.sum_congr rfl fun k _ => ?_
    refine congrArg₂ (· * ·) ?_ ?_
    · refine (shapeCast_apply _ shapeCasts_S66x66x192_S4356x192 _ (ix3 I J k) ?_).trans ?_
      · have h1 := (lhs_1 (ix2 (flatRow I J) e) ((contrEquiv1 D 192 rfl rfl).symm k)).trans
          (contrEquiv1_symm_val D 192 rfl rfl k)
        rw [Shape.rowMajor_val_three, Shape.rowMajor_val_two, lhs_0, h1]
        show (I.val * 66 + J.val) * 192 + k.val = (I.val * 66 + J.val) * 192 + k.val
        rfl
      · exact shapeCast_1abc_abc_apply v0 shapeCasts_S1x66x66x192_S66x66x192 I J k
    · rw [shapeCast_self]
      refine congrArg v3 (funext fun a => Fin.ext ?_)
      match a with
      | ⟨0, _⟩ => exact (rhs_0 _ _).trans (contrEquiv1_symm_val D 192 rfl rfl k)
      | ⟨1, _⟩ => exact rhs_1 _ _
  · refine (broadcastTo_1b_ab_apply _ broadcasts_S1x576_S4356x576 (flatRow I J) e).trans ?_
    rw [shapeCast_self]

/-- A rectangle's zero offsets, however many axes. -/
theorem zeros4 : (![0, 0, 0, 0] : Fin 4 → ℕ) = fun _ => 0 := by
  funext a; match a with | ⟨0, _⟩ => rfl | ⟨1, _⟩ => rfl | ⟨2, _⟩ => rfl | ⟨3, _⟩ => rfl
theorem zeros2 : (![0, 0] : Fin 2 → ℕ) = fun _ => 0 := by
  funext a; match a with | ⟨0, _⟩ => rfl | ⟨1, _⟩ => rfl

/-- The same from the loaded blocks: a load of a whole block is the block. -/
theorem projected_apply (xG : Vec Ideal S1x66x66x192 .bf16) (xW : Vec Ideal S192x576 .bf16) (xB : Vec Ideal S1x576 .f32)
    (I J : Fin 66) (e : Fin 576) :
    Region.projected (F := Ideal) xG xW xB (ix3 I J e) = blockProj xG xW xB I J e := by
  unfold Region.projected
  rw [View.ld_unit_zero zeros4, View.ld_unit_zero zeros2, View.ld_unit_zero zeros2]
  exact pay2_apply xG xW xB I J e

end Cert.KernelIdeal.Body

end
-- ==== Proof.KernelTerm.lean ====
/-
  One neighbour's product at an index, and the body's three partial sums.

  The body keeps the projected block P [66, 66, 576] and the query vector q [64, 64, 192]. Neighbour n = 3 r + s
  contributes, at (i, j, d), q(i, j, d) · P(i + r, j + s, 192 + d) · T(n, d) · P(i + r, j + s, 384 + d): the two windows
  of P are unit-stride slices at offsets (r, s, 192) and (r, s, 384), read at the shifted index, and row n of the weight
  table, loaded as a [1, 192] vector and viewed as [1, 1, 192], is broadcast over all (i, j). The nine products are added
  to a zero vector one after another, in three stretches (neighbours 0–1, 2–5, 6–8); each stretch at an index is its
  incoming partial sum there plus its products there.
-/
import proofs.«134163_j6322191860015_2_alg».proof.Proof.KernelBlock
import Idealize.ShloMosaic.Lib.ValueIdx
import Idealize.ShloMosaic.Lib.ValueLayout
import Idealize.ShloMosaic.Lib.Pipeline.Value

noncomputable section

namespace Cert.KernelIdeal.Body

open Idealize.ShloMosaic Idealize.ShloMosaic.ValueIdx Cert.NeighbourAttention Cert.KernelIdeal Cert.KernelIdeal.Gen

/-- A table row [1, 192], viewed as [192] then [1, 1, 192] and broadcast to [64, 64, 192], reads its entry d at every (i, j). -/
theorem trow_apply (t : Vec Ideal S1x192 .f32) (i j : Fin 64) (d : Fin 192) :
    broadcastTo S64x64x192 (shapeCast S1x1x192 (shapeCast S192 t shapeCasts_S1x192_S192) shapeCasts_S192_S1x1x192)
      broadcasts_S1x1x192_S64x64x192 (ix3 i j d) = t (ix2 (0 : Fin 1) d) := by
  refine (broadcastTo_apply _ broadcasts_S1x1x192_S64x64x192 (ix3 i j d) (ix3 (0 : Fin 1) (0 : Fin 1) d) fun a => ?_).trans ?_
  · match a with
    | ⟨0, _⟩ => rfl
    | ⟨1, _⟩ => rfl
    | ⟨2, _⟩ => rfl
  refine (shapeCast_apply _ shapeCasts_S192_S1x1x192 (ix3 (0 : Fin 1) (0 : Fin 1) d) (ix1 d) ?_).trans ?_
  · rw [Shape.rowMajor_val_one, Shape.rowMajor_val_three]
    show d.val = (0 * 1 + 0) * 192 + d.val
    omega
  exact shapeCast_1a_a_apply t shapeCasts_S1x192_S192 d

/-- A 64 × 64 × 192 window of the projected block at offsets (r, s, g), read at (i, j, d), is the block at (i + r, j + s, g + d). -/
theorem slice_apply (P : FVec Ideal S66x66x576 .bf16) (r s g : ℕ) (h : S66x66x576.Slices ![r, s, g] S64x64x192)
    (i j : Fin 64) (d : Fin 192) (I J : Fin 66) (e : Fin 576)
    (hI : I.val = i.val + r) (hJ : J.val = j.val + s) (he : e.val = g + d.val) :
    extf .f32 (extractStridedSlice S64x64x192 ![r, s, g] P h) bitsLt_bf16_f32 (ix3 i j d) = P (ix3 I J e) :=
  extractStridedSlice_apply _ P h (ix3 i j d) (ix3 I J e) fun a => by
    match a with
    | ⟨0, _⟩ => show I.val = r + i.val; omega
    | ⟨1, _⟩ => show J.val = s + j.val; omega
    | ⟨2, _⟩ => exact he

/-- Row n of the nine-row table, loaded as a [1, 192] vector, reads the table's entry (n, d) at (0, d). -/
theorem ld_row (xT : Vec Ideal S9x192 .f32) (n : ℕ) (hn : n < 9)
    (inb : ∀ a, (![n, 0] : Fin 2 → ℕ) a + S1x192.size a ≤ S9x192.size a) (d : Fin 192) :
    View.ld xT (Rect.unit (s := S9x192) ![n, 0] S1x192.size inb) (ix2 (0 : Fin 1) d) = xT (ix2 (⟨n, hn⟩ : Fin 9) d) := by
  refine congrArg xT (funext fun a => Fin.ext ?_)
  match a with
  | ⟨0, _⟩ => show n + 1 * 0 = n; omega
  | ⟨1, _⟩ => show 0 + 1 * d.val = d.val; omega

/-- One neighbour's product vector at an index: query · key · weight · value, in that association. -/
theorem term_apply (q K V : FVec Ideal S64x64x192 .f32) (t : Vec Ideal S1x192 .f32) (i j : Fin 64) (d : Fin 192) :
    mulf (mulf (mulf q K)
      (broadcastTo S64x64x192 (shapeCast S1x1x192 (shapeCast S192 t shapeCasts_S1x192_S192) shapeCasts_S192_S1x1x192)
        broadcasts_S1x1x192_S64x64x192)) V (ix3 i j d)
      = q (ix3 i j d) * K (ix3 i j d) * t (ix2 (0 : Fin 1) d) * V (ix3 i j d) := by
  show q (ix3 i j d) * K (ix3 i j d) * _ * V (ix3 i j d) = _
  rw [trow_apply]

/-- A neighbour's product when both windows are cut from the projected block at offsets (r, s, 192) and (r, s, 384). -/
theorem nbr_apply (P : FVec Ideal S66x66x576 .bf16) (q : FVec Ideal S64x64x192 .f32) (t : Vec Ideal S1x192 .f32) (r s : ℕ)
    (hK : S66x66x576.Slices ![r, s, 192] S64x64x192) (hV : S66x66x576.Slices ![r, s, 384] S64x64x192)
    (i j : Fin 64) (d : Fin 192) (I J : Fin 66) (hI : I.val = i.val + r) (hJ : J.val = j.val + s) :
    mulf (mulf (mulf q (extf .f32 (extractStridedSlice S64x64x192 ![r, s, 192] P hK) bitsLt_bf16_f32))
      (broadcastTo S64x64x192 (shapeCast S1x1x192 (shapeCast S192 t shapeCasts_S1x192_S192) shapeCasts_S192_S1x1x192)
        broadcasts_S1x1x192_S64x64x192)) (extf .f32 (extractStridedSlice S64x64x192 ![r, s, 384] P hV) bitsLt_bf16_f32) (ix3 i j d)
      = q (ix3 i j d) * P (ix3 I J (chan 1 d)) * t (ix2 (0 : Fin 1) d) * P (ix3 I J (chan 2 d)) := by
  refine (term_apply q _ _ t i j d).trans ?_
  rw [slice_apply P r s 192 hK i j d I J (chan 1 d) hI hJ rfl, slice_apply P r s 384 hV i j d I J (chan 2 d) hI hJ rfl]

/-- The query vector: the centre window of the block's first 192 channels, times the constant one. -/
theorem pay3_apply (v0 : Vec Ideal S1x66x66x192 .bf16) (v3 : Vec Ideal S192x576 .bf16) (v6 : Vec Ideal S1x576 .f32)
    (i j : Fin 64) (d : Fin 192) :
    k0_pay3 (F := Ideal) v0 v3 v6 (ix3 i j d)
      = k0_pay2 (F := Ideal) v0 v3 v6 (ix3 (shift i 1) (shift j 1) (chan 0 d)) * Ideal.ofBits .f32 0x3F800000#32 := by
  unfold k0_pay3
  refine (mulf_apply (φ := .f32) _ _ (ix3 i j d)).trans (congrArg₂ (· * ·) ?_ rfl)
  exact slice_apply _ 1 1 0 _ i j d (shift i 1) (shift j 1) (chan 0 d) rfl rfl rfl

/-- The key window of neighbour 2 and the value windows kept between the stretches. -/
theorem pay5_apply (v0 : Vec Ideal S1x66x66x192 .bf16) (v3 : Vec Ideal S192x576 .bf16) (v6 : Vec Ideal S1x576 .f32)
    (i j : Fin 64) (d : Fin 192) :
    k0_pay5 (F := Ideal) v0 v3 v6 (ix3 i j d) = k0_pay2 (F := Ideal) v0 v3 v6 (ix3 (shift i (nrow 2)) (shift j (ncol 2)) (chan 1 d)) := by
  unfold k0_pay5
  exact slice_apply _ 0 2 192 _ i j d (shift i (nrow 2)) (shift j (ncol 2)) (chan 1 d) rfl rfl rfl
theorem pay6_apply (v0 : Vec Ideal S1x66x66x192 .bf16) (v3 : Vec Ideal S192x576 .bf16) (v6 : Vec Ideal S1x576 .f32)
    (i j : Fin 64) (d : Fin 192) :
    k0_pay6 (F := Ideal) v0 v3 v6 (ix3 i j d) = k0_pay2 (F := Ideal) v0 v3 v6 (ix3 (shift i (nrow 2)) (shift j (ncol 2)) (chan 2 d)) := by
  unfold k0_pay6
  exact slice_apply (k0_pay2 (F := Ideal) v0 v3 v6) 0 2 384 slices_S66x66x576_o0_2_384_S64x64x192 i j d (shift i (nrow 2)) (shift j (ncol 2)) (chan 2 d) rfl rfl rfl
theorem pay8_apply (P : FVec Ideal S66x66x576 .bf16) (i j : Fin 64) (d : Fin 192) :
    k0_pay8 (F := Ideal) P (ix3 i j d) = P (ix3 (shift i (nrow 6)) (shift j (ncol 6)) (chan 1 d)) := by
  unfold k0_pay8
  exact slice_apply P 2 0 192 _ i j d (shift i (nrow 6)) (shift j (ncol 6)) (chan 1 d) rfl rfl rfl
theorem pay9_apply (P : FVec Ideal S66x66x576 .bf16) (i j : Fin 64) (d : Fin 192) :
    k0_pay9 (F := Ideal) P (ix3 i j d) = P (ix3 (shift i (nrow 6)) (shift j (ncol 6)) (chan 2 d)) := by
  unfold k0_pay9
  exact slice_apply P 2 0 384 _ i j d (shift i (nrow 6)) (shift j (ncol 6)) (chan 2 d) rfl rfl rfl

/-- The first stretch: zero plus neighbours 0 and 1. -/
theorem pay4_apply (v0 : Vec Ideal S1x66x66x192 .bf16) (v3 : Vec Ideal S192x576 .bf16) (v6 : Vec Ideal S1x576 .f32)
    (t0 t1 : Vec Ideal S1x192 .f32) (i j : Fin 64) (d : Fin 192) :
    k0_pay4 (F := Ideal) v0 v3 v6 t0 t1 (ix3 i j d)
      = Ideal.ofBits .f32 0x00000000#32
        + k0_pay3 (F := Ideal) v0 v3 v6 (ix3 i j d) * k0_pay2 (F := Ideal) v0 v3 v6 (ix3 (shift i (nrow 0)) (shift j (ncol 0)) (chan 1 d)) * t0 (ix2 (0 : Fin 1) d)
          * k0_pay2 (F := Ideal) v0 v3 v6 (ix3 (shift i (nrow 0)) (shift j (ncol 0)) (chan 2 d))
        + k0_pay3 (F := Ideal) v0 v3 v6 (ix3 i j d) * k0_pay2 (F := Ideal) v0 v3 v6 (ix3 (shift i (nrow 1)) (shift j (ncol 1)) (chan 1 d)) * t1 (ix2 (0 : Fin 1) d)
          * k0_pay2 (F := Ideal) v0 v3 v6 (ix3 (shift i (nrow 1)) (shift j (ncol 1)) (chan 2 d)) := by
  unfold k0_pay4
  refine (addf_apply (φ := .f32) _ _ (ix3 i j d)).trans (congrArg₂ (· + ·) ?_ ?_)
  · refine (addf_apply (φ := .f32) _ _ (ix3 i j d)).trans (congrArg₂ (· + ·) rfl ?_)
    exact (nbr_apply _ _ t0 0 0 _ _ i j d (shift i (nrow 0)) (shift j (ncol 0)) rfl rfl)
  · exact (nbr_apply _ _ t1 0 1 _ _ i j d (shift i (nrow 1)) (shift j (ncol 1)) rfl rfl)

/-- The second stretch: the incoming partial sum plus neighbours 2 to 5 (neighbour 2's windows come in as vectors). -/
theorem pay7_apply (P : FVec Ideal S66x66x576 .bf16) (q v40 v42 : FVec Ideal S64x64x192 .f32) (v43 : FVec Ideal S64x64x192 .bf16)
    (t2 t3 t4 t5 : Vec Ideal S1x192 .f32) (i j : Fin 64) (d : Fin 192) :
    k0_pay7 (F := Ideal) P q v40 v42 v43 t2 t3 t4 t5 (ix3 i j d)
      = v40 (ix3 i j d)
        + q (ix3 i j d) * v42 (ix3 i j d) * t2 (ix2 (0 : Fin 1) d) * v43 (ix3 i j d)
        + q (ix3 i j d) * P (ix3 (shift i (nrow 3)) (shift j (ncol 3)) (chan 1 d)) * t3 (ix2 (0 : Fin 1) d)
          * P (ix3 (shift i (nrow 3)) (shift j (ncol 3)) (chan 2 d))
        + q (ix3 i j d) * P (ix3 (shift i (nrow 4)) (shift j (ncol 4)) (chan 1 d)) * t4 (ix2 (0 : Fin 1) d)
          * P (ix3 (shift i (nrow 4)) (shift j (ncol 4)) (chan 2 d))
        + q (ix3 i j d) * P (ix3 (shift i (nrow 5)) (shift j (ncol 5)) (chan 1 d)) * t5 (ix2 (0 : Fin 1) d)
          * P (ix3 (shift i (nrow 5)) (shift j (ncol 5)) (chan 2 d)) := by
  unfold k0_pay7
  refine (addf_apply (φ := .f32) _ _ (ix3 i j d)).trans (congrArg₂ (· + ·) ?_ ?_)
  · refine (addf_apply (φ := .f32) _ _ (ix3 i j d)).trans (congrArg₂ (· + ·) ?_ ?_)
    · refine (addf_apply (φ := .f32) _ _ (ix3 i j d)).trans (congrArg₂ (· + ·) ?_ ?_)
      · refine (addf_apply (φ := .f32) _ _ (ix3 i j d)).trans (congrArg₂ (· + ·) rfl ?_)
        exact term_apply q v42 _ t2 i j d
      · exact (nbr_apply P _ t3 1 0 _ _ i j d (shift i (nrow 3)) (shift j (ncol 3)) rfl rfl)
    · exact (nbr_apply P _ t4 1 1 _ _ i j d (shift i (nrow 4)) (shift j (ncol 4)) rfl rfl)
  · exact (nbr_apply P _ t5 1 2 _ _ i j d (shift i (nrow 5)) (shift j (ncol 5)) rfl rfl)

/-- The last stretch and the store's layout: the incoming partial sum plus neighbours 6 to 8, given a leading unit axis. -/
theorem pay1_apply (P : FVec Ideal S66x66x576 .bf16) (q v88 v90 v92 : FVec Ideal S64x64x192 .f32)
    (t6 t7 t8 : Vec Ideal S1x192 .f32) (i j : Fin 64) (d : Fin 192) :
    k0_pay1 (F := Ideal) P q v88 v90 v92 t6 t7 t8 (ix4 (0 : Fin 1) i j d)
      = v88 (ix3 i j d)
        + q (ix3 i j d) * v90 (ix3 i j d) * t6 (ix2 (0 : Fin 1) d) * v92 (ix3 i j d)
        + q (ix3 i j d) * P (ix3 (shift i (nrow 7)) (shift j (ncol 7)) (chan 1 d)) * t7 (ix2 (0 : Fin 1) d)
          * P (ix3 (shift i (nrow 7)) (shift j (ncol 7)) (chan 2 d))
        + q (ix3 i j d) * P (ix3 (shift i (nrow 8)) (shift j (ncol 8)) (chan 1 d)) * t8 (ix2 (0 : Fin 1) d)
          * P (ix3 (shift i (nrow 8)) (shift j (ncol 8)) (chan 2 d)) := by
  unfold k0_pay1
  refine (shapeCast_abc_1abc_apply _ shapeCasts_S64x64x192_S1x64x64x192 (0 : Fin 1) i j d).trans ?_
  refine (addf_apply (φ := .f32) _ _ (ix3 i j d)).trans (congrArg₂ (· + ·) ?_ ?_)
  · refine (addf_apply (φ := .f32) _ _ (ix3 i j d)).trans (congrArg₂ (· + ·) ?_ ?_)
    · refine (addf_apply (φ := .f32) _ _ (ix3 i j d)).trans (congrArg₂ (· + ·) rfl ?_)
      exact term_apply q v90 v92 t6 i j d
    · exact (nbr_apply P _ t7 2 1 _ _ i j d (shift i (nrow 7)) (shift j (ncol 7)) rfl rfl)
  · exact (nbr_apply P _ t8 2 2 _ _ i j d (shift i (nrow 8)) (shift j (ncol 8)) rfl rfl)

end Cert.KernelIdeal.Body

end
-- ==== Proof.KernelBody.lean ====
/-
  The value the body stores, at an index. The body's pure operations compose to: project the block; cut the query
  vector from its centre window; add to a zero vector, neighbour after neighbour, the nine products
  query · key · weight · value; store the sum with a leading unit axis. At (0, i, j, d) this is zero plus the sum over the
  nine neighbours n of (((Q · one) · K n) · T n) · V n, where Q, K n, V n are the projection of the centre patch and of
  neighbour n's patch to the query, key and value channels of feature d, and T n is the table's entry (n, d). A left fold
  of nine additions from zero is zero plus the nine-term sum because addition of extended reals is associative.
-/
import proofs.«134163_j6322191860015_2_alg».proof.Proof.KernelProjection
import proofs.«134163_j6322191860015_2_alg».proof.Proof.KernelTerm

noncomputable section

namespace Cert.KernelIdeal.Body

open Idealize.ShloMosaic Idealize.ShloMosaic.ValueIdx Cert.NeighbourAttention Cert.KernelIdeal Cert.KernelIdeal.Gen

/-- A sum over the nine neighbours, written out. -/
theorem sum_nine (f : Fin 9 → EReal) : ∑ n, f n = f 0 + f 1 + f 2 + f 3 + f 4 + f 5 + f 6 + f 7 + f 8 := by
  rw [Fin.sum_univ_castSucc, Fin.sum_univ_eight]; rfl

/-- Adding nine terms to z one after another is z plus their sum. -/
theorem fold_nine (z a0 a1 a2 a3 a4 a5 a6 a7 a8 : EReal) :
    z + a0 + a1 + a2 + a3 + a4 + a5 + a6 + a7 + a8 = z + (a0 + a1 + a2 + a3 + a4 + a5 + a6 + a7 + a8) := by
  simp only [add_assoc]

/-- The stored block at (0, i, j, d) is the block's output at patch (i, j), feature d. -/
theorem stored_apply (xG : Vec Ideal S1x66x66x192 .bf16) (xW : Vec Ideal S192x576 .bf16) (xB : Vec Ideal S1x576 .f32)
    (xT : Vec Ideal S9x192 .f32) (i j : Fin 64) (d : Fin 192) :
    Region.stored (F := Ideal) xG xW xB xT (ix4 (0 : Fin 1) i j d) = blockOut xG xW xB xT i j d := by
  unfold Region.stored Region.projected
  rw [View.ld_unit_zero zeros4, View.ld_unit_zero zeros2, View.ld_unit_zero zeros2]
  rw [pay1_apply, pay7_apply, pay4_apply, pay5_apply, pay6_apply, pay8_apply, pay9_apply, pay3_apply]
  rw [ld_row xT 0 (by omega) _ d,
    ld_row xT 1 (by omega) _ d,
    ld_row xT 2 (by omega) _ d,
    ld_row xT 3 (by omega) _ d,
    ld_row xT 4 (by omega) _ d,
    ld_row xT 5 (by omega) _ d,
    ld_row xT 6 (by omega) _ d,
    ld_row xT 7 (by omega) _ d,
    ld_row xT 8 (by omega) _ d]
  simp only [pay2_apply]
  unfold blockOut
  rw [sum_nine, ← fold_nine]
  rfl

end Cert.KernelIdeal.Body

end
-- ==== Proof.RefStages.lean ====
/-
  The reference program's result as a chain of named stages of its three arguments: the padded patch grid, the nine
  shifted windows stacked along a new axis, the projection with its bias, its three groups of channels, the products
  and the sum over the nine neighbours, and the layout of the sum back into an image. Each stage's body is the
  program's own operations, in order.
-/
import proofs.«134163_j6322191860015_2_alg».proof.Proof.Gen.ReferenceIdeal

noncomputable section

namespace Cert.ReferenceIdeal.RefRun

open Cert.ReferenceIdeal Cert.ReferenceIdeal.Gen Idealize.ShloMosaic

variable {F : FTy → Type} [FloatOps F]

/-- An f32 array of shape `s`. -/
abbrev Arr (F : FTy → Type) (s : Shape) : Type := (⟨s, .f32⟩ : BufTy).Contents (Elt F)

/-! ## The stages -/

/-- The fixed 9 × 8 × 8 table of weights, as the program's literal words. -/
def table : Arr F S9x8x8 := fun i => FloatOps.ofBits .f32 (lit0 (S9x8x8.rowMajor i))

/-- The image batch padded by one patch (8 pixels) of the converted integer zero on each side of both image axes. -/
def padded (x : Arr F S8x3x512x512) : Arr F S8x3x528x528 :=
  pad S8x3x528x528 ![0, 0, 8, 8] ![0, 0, 8, 8] ![0, 0, 0, 0] x (sitofp .f32 (constantI S_ 32 0#32)) pads_S8x3x512x512_S8x3x528x528_000_000_880_880 h_S_

/-- The padded patch grid: image, patch row, patch column, channel, pixel row, pixel column. -/
def grid (x : Arr F S8x3x512x512) : Arr F S8x66x66x3x8x8 :=
  transpose S8x66x66x3x8x8 [0, 2, 4, 1, 3, 5] (shapeCast S8x3x66x8x66x8 (padded x) shapeCasts_S8x3x528x528_S8x3x66x8x66x8) transposes_S8x3x66x8x66x8_S8x66x66x3x8x8_0_2_4_1_3_5

/-- The 64 × 64 window of the grid at the given row and column offsets, with a unit neighbour axis. -/
def window (off : Fin 6 → Nat) (h : S8x66x66x3x8x8.Slices off S8x64x64x3x8x8) (g : Arr F S8x66x66x3x8x8) : Arr F S8x64x64x1x3x8x8 :=
  broadcastInDim S8x64x64x1x3x8x8 ![0, 1, 2, 4, 5, 6] bcast_S8x64x64x3x8x8_S8x64x64x1x3x8x8_0_1_2_4_5_6 (extractStridedSlice S8x64x64x3x8x8 off g h)

/-- Nine arrays with a unit neighbour axis stacked along it. -/
def stack (w0 w1 w2 w3 w4 w5 w6 w7 w8 : Arr F S8x64x64x1x3x8x8) : Arr F S8x64x64x9x3x8x8 :=
  concatenate S8x64x64x9x3x8x8 3
    [⟨S8x64x64x1x3x8x8, w0⟩, ⟨S8x64x64x1x3x8x8, w1⟩, ⟨S8x64x64x1x3x8x8, w2⟩, ⟨S8x64x64x1x3x8x8, w3⟩, ⟨S8x64x64x1x3x8x8, w4⟩,
     ⟨S8x64x64x1x3x8x8, w5⟩, ⟨S8x64x64x1x3x8x8, w6⟩, ⟨S8x64x64x1x3x8x8, w7⟩, ⟨S8x64x64x1x3x8x8, w8⟩]
    concatenates_S8x64x64x1x3x8x8_S8x64x64x1x3x8x8_S8x64x64x1x3x8x8_S8x64x64x1x3x8x8_S8x64x64x1x3x8x8_S8x64x64x1x3x8x8_S8x64x64x1x3x8x8_S8x64x64x1x3x8x8_S8x64x64x1x3x8x8_S8x64x64x9x3x8x8_d3

/-- The nine windows of the grid stacked, neighbour n = 3 r + s the window at row offset r and column offset s. -/
def neigh (g : Arr F S8x66x66x3x8x8) : Arr F S8x64x64x9x3x8x8 :=
  stack (window ![0, 0, 0, 0, 0, 0] slices_S8x66x66x3x8x8_S8x64x64x3x8x8_0_0_0_0_0_0 g)
    (window ![0, 0, 1, 0, 0, 0] slices_S8x66x66x3x8x8_S8x64x64x3x8x8_0_0_1_0_0_0 g)
    (window ![0, 0, 2, 0, 0, 0] slices_S8x66x66x3x8x8_S8x64x64x3x8x8_0_0_2_0_0_0 g)
    (window ![0, 1, 0, 0, 0, 0] slices_S8x66x66x3x8x8_S8x64x64x3x8x8_0_1_0_0_0_0 g)
    (window ![0, 1, 1, 0, 0, 0] slices_S8x66x66x3x8x8_S8x64x64x3x8x8_0_1_1_0_0_0 g)
    (window ![0, 1, 2, 0, 0, 0] slices_S8x66x66x3x8x8_S8x64x64x3x8x8_0_1_2_0_0_0 g)
    (window ![0, 2, 0, 0, 0, 0] slices_S8x66x66x3x8x8_S8x64x64x3x8x8_0_2_0_0_0_0 g)
    (window ![0, 2, 1, 0, 0, 0] slices_S8x66x66x3x8x8_S8x64x64x3x8x8_0_2_1_0_0_0 g)
    (window ![0, 2, 2, 0, 0, 0] slices_S8x66x66x3x8x8_S8x64x64x3x8x8_0_2_2_0_0_0 g)

/-- Each neighbour patch flattened to its 192 features. -/
def feats (nb : Arr F S8x64x64x9x3x8x8) : Arr F S8x64x64x9x192 :=
  shapeCast S8x64x64x9x192 nb shapeCasts_S8x64x64x9x3x8x8_S8x64x64x9x192

/-- The projection of every neighbour patch to 576 channels, bias added. -/
def qkv (nb : Arr F S8x64x64x9x3x8x8) (W : Arr F S576x192) (B : Arr F S576) : Arr F S8x64x64x9x576 :=
  addf (Host.dotGeneral dot_S8x64x64x9x192_S576x192_S8x64x64x9x576_4_1_0123_0_n_n none (feats nb) W)
    (broadcastInDim S8x64x64x9x576 ![0, 1, 2, 3, 4] bcast_S1x1x1x1x576_S8x64x64x9x576_0_1_2_3_4 (broadcastInDim S1x1x1x1x576 ![4] bcast_S576_S1x1x1x1x576_4 B))

/-- The 576 channels as three groups of 3 × 8 × 8. -/
def qkv8 (nb : Arr F S8x64x64x9x3x8x8) (W : Arr F S576x192) (B : Arr F S576) : Arr F S8x64x64x9x3x3x8x8 :=
  shapeCast S8x64x64x9x3x3x8x8 (qkv nb W B) shapeCasts_S8x64x64x9x576_S8x64x64x9x3x3x8x8

/-- One group of channels (0 queries, 1 keys, 2 values). -/
def group (off : Fin 8 → Nat) (h : S8x64x64x9x3x3x8x8.Slices off S8x64x64x9x1x3x8x8) (v : Arr F S8x64x64x9x3x3x8x8) : Arr F S8x64x64x9x3x8x8 :=
  shapeCast S8x64x64x9x3x8x8 (extractStridedSlice S8x64x64x9x1x3x8x8 off v h) shapeCasts_S8x64x64x9x1x3x8x8_S8x64x64x9x3x8x8

/-- The query of the centre patch (neighbour 4), times the program's constant one. -/
def centre (q : Arr F S8x64x64x9x3x8x8) : Arr F S8x64x64x3x8x8 :=
  mulf (shapeCast S8x64x64x3x8x8 (extractStridedSlice S8x64x64x1x3x8x8 ![0, 0, 0, 4, 0, 0, 0] q slices_S8x64x64x9x3x8x8_S8x64x64x1x3x8x8_0_0_0_4_0_0_0) shapeCasts_S8x64x64x1x3x8x8_S8x64x64x3x8x8)
    (broadcastInDim S8x64x64x3x8x8 ![] bcast_S_S8x64x64x3x8x8 (constant S_ .f32 0x3F800000#32))

/-- The centre query repeated along the neighbour axis. -/
def centreAll (q : Arr F S8x64x64x9x3x8x8) : Arr F S8x64x64x9x3x8x8 :=
  broadcastInDim S8x64x64x9x3x8x8 ![0, 1, 2, 3, 4, 5, 6] bcast_S8x64x64x1x3x8x8_S8x64x64x9x3x8x8_0_1_2_3_4_5_6
    (broadcastInDim S8x64x64x1x3x8x8 ![0, 1, 2, 4, 5, 6] bcast_S8x64x64x3x8x8_S8x64x64x1x3x8x8_0_1_2_4_5_6 (centre q))

/-- A 9 × 8 × 8 table repeated over images, patches and channels. -/
def tableAll (tbl : Arr F S9x8x8) : Arr F S8x64x64x9x3x8x8 :=
  broadcastInDim S8x64x64x9x3x8x8 ![0, 1, 2, 3, 4, 5, 6] bcast_S1x1x1x9x1x8x8_S8x64x64x9x3x8x8_0_1_2_3_4_5_6
    (broadcastInDim S1x1x1x9x1x8x8 ![3, 4, 5, 6] bcast_S9x1x8x8_S1x1x1x9x1x8x8_3_4_5_6
      (broadcastInDim S9x1x8x8 ![0, 2, 3] bcast_S9x8x8_S9x1x8x8_0_2_3 tbl))

/-- The nine products, before the sum. -/
def terms (v : Arr F S8x64x64x9x3x3x8x8) (tbl : Arr F S9x8x8) : Arr F S8x64x64x9x3x8x8 :=
  mulf (mulf (mulf (centreAll (group ![0, 0, 0, 0, 0, 0, 0, 0] slices_S8x64x64x9x3x3x8x8_S8x64x64x9x1x3x8x8_0_0_0_0_0_0_0_0 v))
      (group ![0, 0, 0, 0, 1, 0, 0, 0] slices_S8x64x64x9x3x3x8x8_S8x64x64x9x1x3x8x8_0_0_0_0_1_0_0_0 v)) (tableAll tbl))
    (group ![0, 0, 0, 0, 2, 0, 0, 0] slices_S8x64x64x9x3x3x8x8_S8x64x64x9x1x3x8x8_0_0_0_0_2_0_0_0 v)

/-- The sum over the nine neighbours, from the program's constant zero: the output per patch and feature, from the
    stacked neighbour patches, the projection's weights and bias, and the table. -/
def coreFrom (nb : Arr F S8x64x64x9x3x8x8) (W : Arr F S576x192) (B : Arr F S576) (tbl : Arr F S9x8x8) : Arr F S8x64x64x3x8x8 :=
  Host.reduceAdd (terms (qkv8 nb W B) tbl) (constant S_ .f32 0x00000000#32) reducesTo_S8x64x64x9x3x8x8_S8x64x64x3x8x8_d3 h_S_

/-- The same from the image batch. -/
def refCore (x : Arr F S8x3x512x512) (W : Arr F S576x192) (B : Arr F S576) : Arr F S8x64x64x3x8x8 :=
  coreFrom (neigh (grid x)) W B table

/-- The patches laid back out as an image batch. -/
def layBack (v : Arr F S8x64x64x3x8x8) : Arr F S8x3x512x512 :=
  shapeCast S8x3x512x512 (transpose S8x3x64x8x64x8 [0, 3, 1, 4, 2, 5] v transposes_S8x64x64x3x8x8_S8x3x64x8x64x8_0_3_1_4_2_5) shapeCasts_S8x3x64x8x64x8_S8x3x512x512

/-- What @main leaves in its result buffer. -/
def refResult (x : Arr F S8x3x512x512) (W : Arr F S576x192) (B : Arr F S576) : Arr F S8x3x512x512 :=
  layBack (refCore x W B)

end Cert.ReferenceIdeal.RefRun

end
-- ==== Proof.RefRun.lean ====
/-
  The reference program's run, read back as one term of its three arguments.

  @main is a straight line of tensor operations (the padding helper's two operations inlined where it is called), so
  every weakly fair execution terminates with each buffer at the fold of the operations' results over the launch
  contents. The fold at the result buffer is the chain of named stages of the imported module. It is computed in two
  halves — up to the nine windows, and from their stacking on — and the halves are then joined.
-/
import proofs.«134163_j6322191860015_2_alg».proof.Defs
import proofs.«134163_j6322191860015_2_alg».proof.Proof.Gen.ReferenceIdeal
import proofs.«134163_j6322191860015_2_alg».proof.Proof.Gen.Pre_finite_inputs
import proofs.«134163_j6322191860015_2_alg».proof.Proof.RefStages
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The program as a list of operations -/

/-- @main's operations up to the nine windows, the padding helper's two in the place of its call. -/
abbrev opsA : List (HloOp τ sig (Elt F)) :=
  [ StableHlo.nullary main_cst (fun i => FloatOps.ofBits .f32 (lit0 (S9x8x8.rowMajor i))),
    StableHlo.nullary main_c (constantI S_ 32 0#32),
    StableHlo.TRef.unary (.of main_c : StableHlo.TRef sig ⟨S_, .i32⟩) (.of main_call0_v0 : StableHlo.TRef sig ⟨S_, .f32⟩) (sitofp .f32),
    StableHlo.TRef.binary (.of main_arg0 : StableHlo.TRef sig ⟨S8x3x512x512, .f32⟩) (.of main_call0_v0 : StableHlo.TRef sig ⟨S_, .f32⟩) (.of main_v0 : StableHlo.TRef sig ⟨S8x3x528x528, .f32⟩) (fun x v => pad S8x3x528x528 ![0, 0, 8, 8] ![0, 0, 8, 8] ![0, 0, 0, 0] x v pads_S8x3x512x512_S8x3x528x528_000_000_880_880 h_S_),
    StableHlo.reshape main_v0 main_v1 rfl shapeCasts_S8x3x528x528_S8x3x66x8x66x8,
    StableHlo.unary main_v1 main_v2 ((transpose S8x66x66x3x8x8 [0, 2, 4, 1, 3, 5] · transposes_S8x3x66x8x66x8_S8x66x66x3x8x8_0_2_4_1_3_5) : (⟨S8x3x66x8x66x8, .f32⟩ : BufTy).Contents (Elt F) → (⟨S8x66x66x3x8x8, .f32⟩ : BufTy).Contents (Elt F)),
    StableHlo.unary main_v2 main_v3 ((extractStridedSlice S8x64x64x3x8x8 ![0, 0, 0, 0, 0, 0] · slices_S8x66x66x3x8x8_S8x64x64x3x8x8_0_0_0_0_0_0) : (⟨S8x66x66x3x8x8, .f32⟩ : BufTy).Contents (Elt F) → (⟨S8x64x64x3x8x8, .f32⟩ : BufTy).Contents (Elt F)),
    StableHlo.unary main_v2 main_v4 ((extractStridedSlice S8x64x64x3x8x8 ![0, 0, 1, 0, 0, 0] · slices_S8x66x66x3x8x8_S8x64x64x3x8x8_0_0_1_0_0_0) : (⟨S8x66x66x3x8x8, .f32⟩ : BufTy).Contents (Elt F) → (⟨S8x64x64x3x8x8, .f32⟩ : BufTy).Contents (Elt F)),
    StableHlo.unary main_v2 main_v5 ((extractStridedSlice S8x64x64x3x8x8 ![0, 0, 2, 0, 0, 0] · slices_S8x66x66x3x8x8_S8x64x64x3x8x8_0_0_2_0_0_0) : (⟨S8x66x66x3x8x8, .f32⟩ : BufTy).Contents (Elt F) → (⟨S8x64x64x3x8x8, .f32⟩ : BufTy).Contents (Elt F)),
    StableHlo.unary main_v2 main_v6 ((extractStridedSlice S8x64x64x3x8x8 ![0, 1, 0, 0, 0, 0] · slices_S8x66x66x3x8x8_S8x64x64x3x8x8_0_1_0_0_0_0) : (⟨S8x66x66x3x8x8, .f32⟩ : BufTy).Contents (Elt F) → (⟨S8x64x64x3x8x8, .f32⟩ : BufTy).Contents (Elt F)),
    StableHlo.unary main_v2 main_v7 ((extractStridedSlice S8x64x64x3x8x8 ![0, 1, 1, 0, 0, 0] · slices_S8x66x66x3x8x8_S8x64x64x3x8x8_0_1_1_0_0_0) : (⟨S8x66x66x3x8x8, .f32⟩ : BufTy).Contents (Elt F) → (⟨S8x64x64x3x8x8, .f32⟩ : BufTy).Contents (Elt F)),
    StableHlo.unary main_v2 main_v8 ((extractStridedSlice S8x64x64x3x8x8 ![0, 1, 2, 0, 0, 0] · slices_S8x66x66x3x8x8_S8x64x64x3x8x8_0_1_2_0_0_0) : (⟨S8x66x66x3x8x8, .f32⟩ : BufTy).Contents (Elt F) → (⟨S8x64x64x3x8x8, .f32⟩ : BufTy).Contents (Elt F)),
    StableHlo.unary main_v2 main_v9 ((extractStridedSlice S8x64x64x3x8x8 ![0, 2, 0, 0, 0, 0] · slices_S8x66x66x3x8x8_S8x64x64x3x8x8_0_2_0_0_0_0) : (⟨S8x66x66x3x8x8, .f32⟩ : BufTy).Contents (Elt F) → (⟨S8x64x64x3x8x8, .f32⟩ : BufTy).Contents (Elt F)),
    StableHlo.unary main_v2 main_v10 ((extractStridedSlice S8x64x64x3x8x8 ![0, 2, 1, 0, 0, 0] · slices_S8x66x66x3x8x8_S8x64x64x3x8x8_0_2_1_0_0_0) : (⟨S8x66x66x3x8x8, .f32⟩ : BufTy).Contents (Elt F) → (⟨S8x64x64x3x8x8, .f32⟩ : BufTy).Contents (Elt F)),
    StableHlo.unary main_v2 main_v11 ((extractStridedSlice S8x64x64x3x8x8 ![0, 2, 2, 0, 0, 0] · slices_S8x66x66x3x8x8_S8x64x64x3x8x8_0_2_2_0_0_0) : (⟨S8x66x66x3x8x8, .f32⟩ : BufTy).Contents (Elt F) → (⟨S8x64x64x3x8x8, .f32⟩ : BufTy).Contents (Elt F)),
    StableHlo.unary main_v3 main_v12 (broadcastInDim S8x64x64x1x3x8x8 ![0, 1, 2, 4, 5, 6] bcast_S8x64x64x3x8x8_S8x64x64x1x3x8x8_0_1_2_4_5_6 : (⟨S8x64x64x3x8x8, .f32⟩ : BufTy).Contents (Elt F) → (⟨S8x64x64x1x3x8x8, .f32⟩ : BufTy).Contents (Elt F)),
    StableHlo.unary main_v4 main_v13 (broadcastInDim S8x64x64x1x3x8x8 ![0, 1, 2, 4, 5, 6] bcast_S8x64x64x3x8x8_S8x64x64x1x3x8x8_0_1_2_4_5_6 : (⟨S8x64x64x3x8x8, .f32⟩ : BufTy).Contents (Elt F) → (⟨S8x64x64x1x3x8x8, .f32⟩ : BufTy).Contents (Elt F)),
    StableHlo.unary main_v5 main_v14 (broadcastInDim S8x64x64x1x3x8x8 ![0, 1, 2, 4, 5, 6] bcast_S8x64x64x3x8x8_S8x64x64x1x3x8x8_0_1_2_4_5_6 : (⟨S8x64x64x3x8x8, .f32⟩ : BufTy).Contents (Elt F) → (⟨S8x64x64x1x3x8x8, .f32⟩ : BufTy).Contents (Elt F)),
    StableHlo.unary main_v6 main_v15 (broadcastInDim S8x64x64x1x3x8x8 ![0, 1, 2, 4, 5, 6] bcast_S8x64x64x3x8x8_S8x64x64x1x3x8x8_0_1_2_4_5_6 : (⟨S8x64x64x3x8x8, .f32⟩ : BufTy).Contents (Elt F) → (⟨S8x64x64x1x3x8x8, .f32⟩ : BufTy).Contents (Elt F)),
    StableHlo.unary main_v7 main_v16 (broadcastInDim S8x64x64x1x3x8x8 ![0, 1, 2, 4, 5, 6] bcast_S8x64x64x3x8x8_S8x64x64x1x3x8x8_0_1_2_4_5_6 : (⟨S8x64x64x3x8x8, .f32⟩ : BufTy).Contents (Elt F) → (⟨S8x64x64x1x3x8x8, .f32⟩ : BufTy).Contents (Elt F)),
    StableHlo.unary main_v8 main_v17 (broadcastInDim S8x64x64x1x3x8x8 ![0, 1, 2, 4, 5, 6] bcast_S8x64x64x3x8x8_S8x64x64x1x3x8x8_0_1_2_4_5_6 : (⟨S8x64x64x3x8x8, .f32⟩ : BufTy).Contents (Elt F) → (⟨S8x64x64x1x3x8x8, .f32⟩ : BufTy).Contents (Elt F)),
    StableHlo.unary main_v9 main_v18 (broadcastInDim S8x64x64x1x3x8x8 ![0, 1, 2, 4, 5, 6] bcast_S8x64x64x3x8x8_S8x64x64x1x3x8x8_0_1_2_4_5_6 : (⟨S8x64x64x3x8x8, .f32⟩ : BufTy).Contents (Elt F) → (⟨S8x64x64x1x3x8x8, .f32⟩ : BufTy).Contents (Elt F)),
    StableHlo.unary main_v10 main_v19 (broadcastInDim S8x64x64x1x3x8x8 ![0, 1, 2, 4, 5, 6] bcast_S8x64x64x3x8x8_S8x64x64x1x3x8x8_0_1_2_4_5_6 : (⟨S8x64x64x3x8x8, .f32⟩ : BufTy).Contents (Elt F) → (⟨S8x64x64x1x3x8x8, .f32⟩ : BufTy).Contents (Elt F)),
    StableHlo.unary main_v11 main_v20 (broadcastInDim S8x64x64x1x3x8x8 ![0, 1, 2, 4, 5, 6] bcast_S8x64x64x3x8x8_S8x64x64x1x3x8x8_0_1_2_4_5_6 : (⟨S8x64x64x3x8x8, .f32⟩ : BufTy).Contents (Elt F) → (⟨S8x64x64x1x3x8x8, .f32⟩ : BufTy).Contents (Elt F)) ]

/-- @main's operations from the stacking of the windows on. -/
abbrev opsB : List (HloOp τ sig (Elt F)) :=
  [ StableHlo.nary ![main_v12, main_v13, main_v14, main_v15, main_v16, main_v17, main_v18, main_v19, main_v20] main_v21 (fun u => concatenate S8x64x64x9x3x8x8 3 [⟨S8x64x64x1x3x8x8, u 0⟩, ⟨S8x64x64x1x3x8x8, u 1⟩, ⟨S8x64x64x1x3x8x8, u 2⟩, ⟨S8x64x64x1x3x8x8, u 3⟩, ⟨S8x64x64x1x3x8x8, u 4⟩, ⟨S8x64x64x1x3x8x8, u 5⟩, ⟨S8x64x64x1x3x8x8, u 6⟩, ⟨S8x64x64x1x3x8x8, u 7⟩, ⟨S8x64x64x1x3x8x8, u 8⟩] concatenates_S8x64x64x1x3x8x8_S8x64x64x1x3x8x8_S8x64x64x1x3x8x8_S8x64x64x1x3x8x8_S8x64x64x1x3x8x8_S8x64x64x1x3x8x8_S8x64x64x1x3x8x8_S8x64x64x1x3x8x8_S8x64x64x1x3x8x8_S8x64x64x9x3x8x8_d3),
    StableHlo.reshape main_v21 main_v22 rfl shapeCasts_S8x64x64x9x3x8x8_S8x64x64x9x192,
    StableHlo.binary main_v22 main_arg1 main_v23 ((fun l r => Host.dotGeneral dot_S8x64x64x9x192_S576x192_S8x64x64x9x576_4_1_0123_0_n_n none l r) : (⟨S8x64x64x9x192, .f32⟩ : BufTy).Contents (Elt F) → (⟨S576x192, .f32⟩ : BufTy).Contents (Elt F) → (⟨S8x64x64x9x576, .f32⟩ : BufTy).Contents (Elt F)),
    StableHlo.unary main_arg2 main_v24 (broadcastInDim S1x1x1x1x576 ![4] bcast_S576_S1x1x1x1x576_4 : (⟨S576, .f32⟩ : BufTy).Contents (Elt F) → (⟨S1x1x1x1x576, .f32⟩ : BufTy).Contents (Elt F)),
    StableHlo.unary main_v24 main_v25 (broadcastInDim S8x64x64x9x576 ![0, 1, 2, 3, 4] bcast_S1x1x1x1x576_S8x64x64x9x576_0_1_2_3_4 : (⟨S1x1x1x1x576, .f32⟩ : BufTy).Contents (Elt F) → (⟨S8x64x64x9x576, .f32⟩ : BufTy).Contents (Elt F)),
    StableHlo.binary main_v23 main_v25 main_v26 (addf : (⟨S8x64x64x9x576, .f32⟩ : BufTy).Contents (Elt F) → (⟨S8x64x64x9x576, .f32⟩ : BufTy).Contents (Elt F) → (⟨S8x64x64x9x576, .f32⟩ : BufTy).Contents (Elt F)),
    StableHlo.reshape main_v26 main_v27 rfl shapeCasts_S8x64x64x9x576_S8x64x64x9x3x3x8x8,
    StableHlo.unary main_v27 main_v28 ((extractStridedSlice S8x64x64x9x1x3x8x8 ![0, 0, 0, 0, 0, 0, 0, 0] · slices_S8x64x64x9x3x3x8x8_S8x64x64x9x1x3x8x8_0_0_0_0_0_0_0_0) : (⟨S8x64x64x9x3x3x8x8, .f32⟩ : BufTy).Contents (Elt F) → (⟨S8x64x64x9x1x3x8x8, .f32⟩ : BufTy).Contents (Elt F)),
    StableHlo.reshape main_v28 main_v29 rfl shapeCasts_S8x64x64x9x1x3x8x8_S8x64x64x9x3x8x8,
    StableHlo.unary main_v27 main_v30 ((extractStridedSlice S8x64x64x9x1x3x8x8 ![0, 0, 0, 0, 1, 0, 0, 0] · slices_S8x64x64x9x3x3x8x8_S8x64x64x9x1x3x8x8_0_0_0_0_1_0_0_0) : (⟨S8x64x64x9x3x3x8x8, .f32⟩ : BufTy).Contents (Elt F) → (⟨S8x64x64x9x1x3x8x8, .f32⟩ : BufTy).Contents (Elt F)),
    StableHlo.reshape main_v30 main_v31 rfl shapeCasts_S8x64x64x9x1x3x8x8_S8x64x64x9x3x8x8,
    StableHlo.unary main_v27 main_v32 ((extractStridedSlice S8x64x64x9x1x3x8x8 ![0, 0, 0, 0, 2, 0, 0, 0] · slices_S8x64x64x9x3x3x8x8_S8x64x64x9x1x3x8x8_0_0_0_0_2_0_0_0) : (⟨S8x64x64x9x3x3x8x8, .f32⟩ : BufTy).Contents (Elt F) → (⟨S8x64x64x9x1x3x8x8, .f32⟩ : BufTy).Contents (Elt F)),
    StableHlo.reshape main_v32 main_v33 rfl shapeCasts_S8x64x64x9x1x3x8x8_S8x64x64x9x3x8x8,
    StableHlo.unary main_v29 main_v34 ((extractStridedSlice S8x64x64x1x3x8x8 ![0, 0, 0, 4, 0, 0, 0] · slices_S8x64x64x9x3x8x8_S8x64x64x1x3x8x8_0_0_0_4_0_0_0) : (⟨S8x64x64x9x3x8x8, .f32⟩ : BufTy).Contents (Elt F) → (⟨S8x64x64x1x3x8x8, .f32⟩ : BufTy).Contents (Elt F)),
    StableHlo.reshape main_v34 main_v35 rfl shapeCasts_S8x64x64x1x3x8x8_S8x64x64x3x8x8,
    StableHlo.nullary main_cst_0 (constant S_ .f32 0x3F800000#32),
    StableHlo.unary main_cst_0 main_v36 (broadcastInDim S8x64x64x3x8x8 ![] bcast_S_S8x64x64x3x8x8 : (⟨S_, .f32⟩ : BufTy).Contents (Elt F) → (⟨S8x64x64x3x8x8, .f32⟩ : BufTy).Contents (Elt F)),
    StableHlo.binary main_v35 main_v36 main_v37 (mulf : (⟨S8x64x64x3x8x8, .f32⟩ : BufTy).Contents (Elt F) → (⟨S8x64x64x3x8x8, .f32⟩ : BufTy).Contents (Elt F) → (⟨S8x64x64x3x8x8, .f32⟩ : BufTy).Contents (Elt F)),
    StableHlo.unary main_v37 main_v38 (broadcastInDim S8x64x64x1x3x8x8 ![0, 1, 2, 4, 5, 6] bcast_S8x64x64x3x8x8_S8x64x64x1x3x8x8_0_1_2_4_5_6 : (⟨S8x64x64x3x8x8, .f32⟩ : BufTy).Contents (Elt F) → (⟨S8x64x64x1x3x8x8, .f32⟩ : BufTy).Contents (Elt F)),
    StableHlo.unary main_v38 main_v39 (broadcastInDim S8x64x64x9x3x8x8 ![0, 1, 2, 3, 4, 5, 6] bcast_S8x64x64x1x3x8x8_S8x64x64x9x3x8x8_0_1_2_3_4_5_6 : (⟨S8x64x64x1x3x8x8, .f32⟩ : BufTy).Contents (Elt F) → (⟨S8x64x64x9x3x8x8, .f32⟩ : BufTy).Contents (Elt F)),
    StableHlo.binary main_v39 main_v31 main_v40 (mulf : (⟨S8x64x64x9x3x8x8, .f32⟩ : BufTy).Contents (Elt F) → (⟨S8x64x64x9x3x8x8, .f32⟩ : BufTy).Contents (Elt F) → (⟨S8x64x64x9x3x8x8, .f32⟩ : BufTy).Contents (Elt F)),
    StableHlo.unary main_cst main_v41 (broadcastInDim S9x1x8x8 ![0, 2, 3] bcast_S9x8x8_S9x1x8x8_0_2_3 : (⟨S9x8x8, .f32⟩ : BufTy).Contents (Elt F) → (⟨S9x1x8x8, .f32⟩ : BufTy).Contents (Elt F)),
    StableHlo.unary main_v41 main_v42 (broadcastInDim S1x1x1x9x1x8x8 ![3, 4, 5, 6] bcast_S9x1x8x8_S1x1x1x9x1x8x8_3_4_5_6 : (⟨S9x1x8x8, .f32⟩ : BufTy).Contents (Elt F) → (⟨S1x1x1x9x1x8x8, .f32⟩ : BufTy).Contents (Elt F)),
    StableHlo.unary main_v42 main_v43 (broadcastInDim S8x64x64x9x3x8x8 ![0, 1, 2, 3, 4, 5, 6] bcast_S1x1x1x9x1x8x8_S8x64x64x9x3x8x8_0_1_2_3_4_5_6 : (⟨S1x1x1x9x1x8x8, .f32⟩ : BufTy).Contents (Elt F) → (⟨S8x64x64x9x3x8x8, .f32⟩ : BufTy).Contents (Elt F)),
    StableHlo.binary main_v40 main_v43 main_v44 (mulf : (⟨S8x64x64x9x3x8x8, .f32⟩ : BufTy).Contents (Elt F) → (⟨S8x64x64x9x3x8x8, .f32⟩ : BufTy).Contents (Elt F) → (⟨S8x64x64x9x3x8x8, .f32⟩ : BufTy).Contents (Elt F)),
    StableHlo.binary main_v44 main_v33 main_v45 (mulf : (⟨S8x64x64x9x3x8x8, .f32⟩ : BufTy).Contents (Elt F) → (⟨S8x64x64x9x3x8x8, .f32⟩ : BufTy).Contents (Elt F) → (⟨S8x64x64x9x3x8x8, .f32⟩ : BufTy).Contents (Elt F)),
    StableHlo.nullary main_cst_1 (constant S_ .f32 0x00000000#32),
    StableHlo.binary main_v45 main_cst_1 main_v46 ((fun x v => Host.reduceAdd x v reducesTo_S8x64x64x9x3x8x8_S8x64x64x3x8x8_d3 h_S_) : (⟨S8x64x64x9x3x8x8, .f32⟩ : BufTy).Contents (Elt F) → (⟨S_, .f32⟩ : BufTy).Contents (Elt F) → (⟨S8x64x64x3x8x8, .f32⟩ : BufTy).Contents (Elt F)),
    StableHlo.unary main_v46 main_v47 ((transpose S8x3x64x8x64x8 [0, 3, 1, 4, 2, 5] · transposes_S8x64x64x3x8x8_S8x3x64x8x64x8_0_3_1_4_2_5) : (⟨S8x64x64x3x8x8, .f32⟩ : BufTy).Contents (Elt F) → (⟨S8x3x64x8x64x8, .f32⟩ : BufTy).Contents (Elt F)),
    StableHlo.reshape main_v47 main_v48 rfl shapeCasts_S8x3x64x8x64x8_S8x3x512x512 ]

/-- @main's operations, in order. -/
abbrev ops : List (HloOp τ sig (Elt F)) := opsA ++ opsB

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨nullary_bufs_sub .., nullary_bufs_sub .., unary_bufs_sub .., binary_bufs_sub .., reshape_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., nary_bufs_sub .., reshape_bufs_sub .., binary_bufs_sub .., unary_bufs_sub .., unary_bufs_sub .., binary_bufs_sub .., reshape_bufs_sub .., unary_bufs_sub .., reshape_bufs_sub .., unary_bufs_sub .., reshape_bufs_sub .., unary_bufs_sub .., reshape_bufs_sub .., unary_bufs_sub .., reshape_bufs_sub .., nullary_bufs_sub .., unary_bufs_sub .., binary_bufs_sub .., unary_bufs_sub .., unary_bufs_sub .., binary_bufs_sub .., unary_bufs_sub .., unary_bufs_sub .., unary_bufs_sub .., binary_bufs_sub .., binary_bufs_sub .., nullary_bufs_sub .., binary_bufs_sub .., unary_bufs_sub .., reshape_bufs_sub ..⟩

/-! ## A nine-operand operation's result, each operand at its own buffer -/

section Nary9
variable {Val : EltTy → Type} {x0 x1 x2 x3 x4 x5 x6 x7 x8 y : Ref sig .tc}

theorem nary9_result
    (f : ((k : Fin 9) → ((![x0, x1, x2, x3, x4, x5, x6, x7, x8] : Fin 9 → Ref sig .tc) k).ty.Contents Val) → y.ty.Contents Val) (hxs hy)
    (V : Valuation τ sig Val) :
    (nary (τ := τ) ![x0, x1, x2, x3, x4, x5, x6, x7, x8] y f hxs hy).result V (Proc.devRef .tc y)
      = f (Fin.cons (V (Proc.devRef .tc x0)) (Fin.cons (V (Proc.devRef .tc x1)) (Fin.cons (V (Proc.devRef .tc x2)) (Fin.cons (V (Proc.devRef .tc x3)) (Fin.cons (V (Proc.devRef .tc x4)) (Fin.cons (V (Proc.devRef .tc x5)) (Fin.cons (V (Proc.devRef .tc x6)) (Fin.cons (V (Proc.devRef .tc x7)) (Fin.cons (V (Proc.devRef .tc x8)) (fun i => i.elim0)))))))))) := by
  rw [nary_result]; congr 1; funext k; fin_cases k <;> rfl

theorem nary9_result'
    (f : ((k : Fin 9) → ((![x0, x1, x2, x3, x4, x5, x6, x7, x8] : Fin 9 → Ref sig .tc) k).ty.Contents Val) → y.ty.Contents Val) (hxs hy)
    (V : Valuation τ sig Val) :
    (nary (τ := τ) ![x0, x1, x2, x3, x4, x5, x6, x7, x8] y f hxs hy).result V (no_index (Proc.devRef .tc y))
      = f (Fin.cons (V (Proc.devRef .tc x0)) (Fin.cons (V (Proc.devRef .tc x1)) (Fin.cons (V (Proc.devRef .tc x2)) (Fin.cons (V (Proc.devRef .tc x3)) (Fin.cons (V (Proc.devRef .tc x4)) (Fin.cons (V (Proc.devRef .tc x5)) (Fin.cons (V (Proc.devRef .tc x6)) (Fin.cons (V (Proc.devRef .tc x7)) (Fin.cons (V (Proc.devRef .tc x8)) (fun i => i.elim0)))))))))) :=
  nary9_result f hxs hy V

end Nary9

/-! ## A reshape's result, not spelt index by index -/

section ReshapeEta
variable {Val : EltTy → Type}

private theorem rec_fun {a b : EltTy} (h : a = b) {I : Type} (f : I → Val a) :
    (fun i => (h ▸ f i : Val b)) = (Eq.rec (motive := fun e _ => I → Val e) f h : I → Val b) := by
  subst h; rfl

/-- The result of a reshape as the reshaped operand itself (moved along the equation of the two element types, which
    at literal references is the identity). -/
theorem reshape_result_eta {x y : Ref sig .tc} (he : x.ty.elt = y.ty.elt) (hn : x.ty.shape.ShapeCasts y.ty.shape) (hx hy)
    (V : Valuation τ sig Val) :
    (reshape (τ := τ) (Val := Val) x y he hn hx hy).result V (no_index (Proc.devRef .tc y))
      = (Eq.rec (motive := fun e _ => y.ty.shape.Idx → Val e) (shapeCast y.ty.shape (V (Proc.devRef .tc x)) hn) he : y.ty.shape.Idx → Val y.ty.elt) := by
  rw [reshape_result']
  exact rec_fun he _

end ReshapeEta

/-- The fold of a literal list of operations at one buffer, in one pass (the nine-operand form before the general one). -/
macro "after_results9" : tactic =>
  `(tactic| (simp (disch := decide) only [after_cons, after_nil,
      nullary_result', unary_result', binary_result', reshape_result_eta, nary9_result',
      nullary_result_ne', unary_result_ne', binary_result_ne', reshape_result_ne', nary_result_ne']))

/-- Two lines run one after the other: the second folds over what the first left. -/
theorem after_app : ∀ (l₁ l₂ : List (HloOp τ sig (Elt F))) (V : Valuation τ sig (Elt F)), after (l₁ ++ l₂) V = after l₂ (after l₁ V)
  | [], _, _ => rfl
  | op :: l₁, l₂, V => by rw [List.cons_append, after_cons, after_cons, after_app l₁ l₂]

/-! ## The first half: the nine windows, the table, the untouched arguments -/

section FirstHalf
variable (V : Valuation τ sig (Elt F))

theorem opsA_v12 : after opsA V (Proc.devRef .tc main_v12) = window ![0, 0, 0, 0, 0, 0] slices_S8x66x66x3x8x8_S8x64x64x3x8x8_0_0_0_0_0_0 (grid (V (Proc.devRef .tc main_arg0))) := by
  after_results9; rfl
theorem opsA_v13 : after opsA V (Proc.devRef .tc main_v13) = window ![0, 0, 1, 0, 0, 0] slices_S8x66x66x3x8x8_S8x64x64x3x8x8_0_0_1_0_0_0 (grid (V (Proc.devRef .tc main_arg0))) := by
  after_results9; rfl
theorem opsA_v14 : after opsA V (Proc.devRef .tc main_v14) = window ![0, 0, 2, 0, 0, 0] slices_S8x66x66x3x8x8_S8x64x64x3x8x8_0_0_2_0_0_0 (grid (V (Proc.devRef .tc main_arg0))) := by
  after_results9; rfl
theorem opsA_v15 : after opsA V (Proc.devRef .tc main_v15) = window ![0, 1, 0, 0, 0, 0] slices_S8x66x66x3x8x8_S8x64x64x3x8x8_0_1_0_0_0_0 (grid (V (Proc.devRef .tc main_arg0))) := by
  after_results9; rfl
theorem opsA_v16 : after opsA V (Proc.devRef .tc main_v16) = window ![0, 1, 1, 0, 0, 0] slices_S8x66x66x3x8x8_S8x64x64x3x8x8_0_1_1_0_0_0 (grid (V (Proc.devRef .tc main_arg0))) := by
  after_results9; rfl
theorem opsA_v17 : after opsA V (Proc.devRef .tc main_v17) = window ![0, 1, 2, 0, 0, 0] slices_S8x66x66x3x8x8_S8x64x64x3x8x8_0_1_2_0_0_0 (grid (V (Proc.devRef .tc main_arg0))) := by
  after_results9; rfl
theorem opsA_v18 : after opsA V (Proc.devRef .tc main_v18) = window ![0, 2, 0, 0, 0, 0] slices_S8x66x66x3x8x8_S8x64x64x3x8x8_0_2_0_0_0_0 (grid (V (Proc.devRef .tc main_arg0))) := by
  after_results9; rfl
theorem opsA_v19 : after opsA V (Proc.devRef .tc main_v19) = window ![0, 2, 1, 0, 0, 0] slices_S8x66x66x3x8x8_S8x64x64x3x8x8_0_2_1_0_0_0 (grid (V (Proc.devRef .tc main_arg0))) := by
  after_results9; rfl
theorem opsA_v20 : after opsA V (Proc.devRef .tc main_v20) = window ![0, 2, 2, 0, 0, 0] slices_S8x66x66x3x8x8_S8x64x64x3x8x8_0_2_2_0_0_0 (grid (V (Proc.devRef .tc main_arg0))) := by
  after_results9; rfl
theorem opsA_cst : after opsA V (Proc.devRef .tc main_cst) = table := by after_results9; rfl
theorem opsA_arg0 : after opsA V (Proc.devRef .tc main_arg0) = V (Proc.devRef .tc main_arg0) := by after_results9
theorem opsA_arg1 : after opsA V (Proc.devRef .tc main_arg1) = V (Proc.devRef .tc main_arg1) := by after_results9
theorem opsA_arg2 : after opsA V (Proc.devRef .tc main_arg2) = V (Proc.devRef .tc main_arg2) := by after_results9

end FirstHalf

/-! ## The second half, from any contents of the windows' buffers -/

theorem opsB_v48 (V : Valuation τ sig (Elt F)) :
    after opsB V (Proc.devRef .tc main_v48)
      = layBack (coreFrom (stack (V (Proc.devRef .tc main_v12)) (V (Proc.devRef .tc main_v13)) (V (Proc.devRef .tc main_v14)) (V (Proc.devRef .tc main_v15)) (V (Proc.devRef .tc main_v16)) (V (Proc.devRef .tc main_v17)) (V (Proc.devRef .tc main_v18)) (V (Proc.devRef .tc main_v19)) (V (Proc.devRef .tc main_v20)))
          (V (Proc.devRef .tc main_arg1)) (V (Proc.devRef .tc main_arg2)) (V (Proc.devRef .tc main_cst))) := by
  after_results9; rfl
theorem opsB_arg0 (V : Valuation τ sig (Elt F)) : after opsB V (Proc.devRef .tc main_arg0) = V (Proc.devRef .tc main_arg0) := by after_results9
theorem opsB_arg1 (V : Valuation τ sig (Elt F)) : after opsB V (Proc.devRef .tc main_arg1) = V (Proc.devRef .tc main_arg1) := by after_results9
theorem opsB_arg2 (V : Valuation τ sig (Elt F)) : after opsB V (Proc.devRef .tc main_arg2) = V (Proc.devRef .tc main_arg2) := by after_results9

/-! ## The whole line -/

theorem ops_v48 (V : Valuation τ sig (Elt F)) :
    after ops V (Proc.devRef .tc main_v48) = refResult (V (Proc.devRef .tc main_arg0)) (V (Proc.devRef .tc main_arg1)) (V (Proc.devRef .tc main_arg2)) := by
  rw [after_app, opsB_v48, opsA_v12, opsA_v13, opsA_v14, opsA_v15, opsA_v16, opsA_v17, opsA_v18, opsA_v19, opsA_v20, opsA_cst, opsA_arg1, opsA_arg2]
  rfl
theorem ops_arg0 (V : Valuation τ sig (Elt F)) : after ops V (Proc.devRef .tc main_arg0) = V (Proc.devRef .tc main_arg0) := by rw [after_app, opsB_arg0, opsA_arg0]
theorem ops_arg1 (V : Valuation τ sig (Elt F)) : after ops V (Proc.devRef .tc main_arg1) = V (Proc.devRef .tc main_arg1) := by rw [after_app, opsB_arg1, opsA_arg1]
theorem ops_arg2 (V : Valuation τ sig (Elt F)) : after ops V (Proc.devRef .tc main_arg2) = V (Proc.devRef .tc main_arg2) := by rw [after_app, opsB_arg2, opsA_arg2]

/-! ## The run -/

/-- On every device, for any float values, from any memory with zero counters: every weakly fair execution of @main
    terminates with the result buffer at `refResult` of the arguments' launch contents and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v48) = refResult (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v48).trans (ops_v48 _), (h c main_arg0).trans (ops_arg0 _),
      (h c main_arg1).trans (ops_arg1 _), (h c main_arg2).trans (ops_arg2 _)⟩)
    (run_seq scopedRefs_eq scopedSems_eq defs main (fun _ => ops) main_eq (fun _ => ops_sub) m ρ)

end Cert.ReferenceIdeal.RefRun

namespace Cert.Proof

open Idealize.ShloMosaic Idealize.SL.Sem

/-- The reference runs and leaves its three arguments as they were. -/
theorem frame_ri : Cert.frame_ReferenceIdeal := fun m ρ _ =>
  (θ_run Cert.ReferenceIdeal.defs _ _).mono (fun _ h c => (h c).2) (Cert.ReferenceIdeal.RefRun.run (F := Ideal) m ρ)

end Cert.Proof

end
-- ==== Proof.LibIdxHigh.lean ====
/-
  Indices of rank 7 and 8 by coordinates, and the row-major position of such an index as one sum of products:
  what ranks 0 to 6 have in the library, continued by the same proofs. General: nothing here depends on a program.
  `ix7` / `ix8` build an index from its coordinates (a coordinate of one computes by `rfl`), `eq_ix7` says every
  rank-7 index is of that form, and `rowMajor_val_seven` / `rowMajor_val_eight` spell the position for the arithmetic
  of a reshape between a rank-7 or rank-8 array and another.
-/
import Idealize.ShloMosaic.Lib.ValueIdxRank6

namespace Cert.IdxHigh

open Idealize.ShloMosaic

/-- Rank 7: the row-major position as one sum of products. -/
theorem rowMajor_val_seven {d : Fin 7 → Nat} (i : (⟨7, d⟩ : Shape).Idx) :
    ((⟨7, d⟩ : Shape).rowMajor i).val
      = ((((((i 0).val * d 1 + (i 1).val) * d 2 + (i 2).val) * d 3 + (i 3).val) * d 4 + (i 4).val) * d 5 + (i 5).val) * d 6 + (i 6).val := by
  show (Shape.rowMajorPi d i).val = _
  rw [Shape.rowMajorPi_succ_val, Shape.rowMajorPi_succ_val, Shape.rowMajorPi_succ_val, Shape.rowMajorPi_succ_val,
    Shape.rowMajorPi_succ_val, Shape.rowMajorPi_succ_val, Shape.rowMajorPi_succ_val]
  simp [Shape.rowMajorPi_zero, Fin.prod_univ_succ, Nat.add_mul, Nat.mul_assoc, Nat.add_assoc]

/-- Rank 8: the row-major position as one sum of products. -/
theorem rowMajor_val_eight {d : Fin 8 → Nat} (i : (⟨8, d⟩ : Shape).Idx) :
    ((⟨8, d⟩ : Shape).rowMajor i).val
      = (((((((i 0).val * d 1 + (i 1).val) * d 2 + (i 2).val) * d 3 + (i 3).val) * d 4 + (i 4).val) * d 5 + (i 5).val) * d 6 + (i 6).val) * d 7 + (i 7).val := by
  show (Shape.rowMajorPi d i).val = _
  rw [Shape.rowMajorPi_succ_val, Shape.rowMajorPi_succ_val, Shape.rowMajorPi_succ_val, Shape.rowMajorPi_succ_val,
    Shape.rowMajorPi_succ_val, Shape.rowMajorPi_succ_val, Shape.rowMajorPi_succ_val, Shape.rowMajorPi_succ_val]
  simp [Shape.rowMajorPi_zero, Fin.prod_univ_succ, Nat.add_mul, Nat.mul_assoc, Nat.add_assoc]

/-- A rank-7 index from its coordinates. -/
abbrev ix7 {n0 n1 n2 n3 n4 n5 n6 : Nat} (a : Fin n0) (b : Fin n1) (c : Fin n2) (d : Fin n3) (e : Fin n4) (f : Fin n5) (g : Fin n6) :
    (⟨7, ![n0, n1, n2, n3, n4, n5, n6]⟩ : Shape).Idx :=
  fun h => match h with | ⟨0, _⟩ => a | ⟨1, _⟩ => b | ⟨2, _⟩ => c | ⟨3, _⟩ => d | ⟨4, _⟩ => e | ⟨5, _⟩ => f | ⟨6, _⟩ => g

/-- A rank-8 index from its coordinates. -/
abbrev ix8 {n0 n1 n2 n3 n4 n5 n6 n7 : Nat} (a : Fin n0) (b : Fin n1) (c : Fin n2) (d : Fin n3) (e : Fin n4) (f : Fin n5) (g : Fin n6)
    (k : Fin n7) : (⟨8, ![n0, n1, n2, n3, n4, n5, n6, n7]⟩ : Shape).Idx :=
  fun h => match h with | ⟨0, _⟩ => a | ⟨1, _⟩ => b | ⟨2, _⟩ => c | ⟨3, _⟩ => d | ⟨4, _⟩ => e | ⟨5, _⟩ => f | ⟨6, _⟩ => g | ⟨7, _⟩ => k

/-- Every rank-7 index is `ix7` of its coordinates. -/
theorem eq_ix7 {n0 n1 n2 n3 n4 n5 n6 : Nat} (j : (⟨7, ![n0, n1, n2, n3, n4, n5, n6]⟩ : Shape).Idx) :
    j = ix7 (j 0) (j 1) (j 2) (j 3) (j 4) (j 5) (j 6) := by
  funext a; match a with | ⟨0, _⟩ => rfl | ⟨1, _⟩ => rfl | ⟨2, _⟩ => rfl | ⟨3, _⟩ => rfl | ⟨4, _⟩ => rfl | ⟨5, _⟩ => rfl | ⟨6, _⟩ => rfl

end Cert.IdxHigh
-- ==== Proof.RefLayout.lean ====
/-
  The reference's layout operations read at an index.

  The reference cuts the padded patch grid into the nine 64 × 64 windows of a 3 × 3 neighbourhood, stacks them along
  a new neighbour axis, flattens each neighbour patch to 192 features for the projection, splits the projection's 576
  channels into three groups of 3 × 8 × 8, picks the centre neighbour's queries, and broadcasts them and the weight
  table over the axes they do not have. Each of these only moves entries: read at an index, it is its operand at
  another index, and the lemmas here say which.
-/
import proofs.«134163_j6322191860015_2_alg».proof.Proof.RefStages
import proofs.«134163_j6322191860015_2_alg».proof.Proof.LibIdxHigh
import proofs.«134163_j6322191860015_2_alg».proof.Proof.Spec
import Idealize.ShloMosaic.Lib.Pipeline.Value
import Idealize.ShloMosaic.Lib.IdealHost

set_option maxRecDepth 16384

noncomputable section

namespace Cert.ReferenceIdeal.RefValue

open Cert.ReferenceIdeal Cert.ReferenceIdeal.Gen Cert.ReferenceIdeal.RefRun Cert.IdxHigh Cert.NeighbourAttention
open Idealize.ShloMosaic Idealize.ShloMosaic.ValueIdx

/-- A window of the grid at row offset r and column offset s, with its unit neighbour axis: entry (b, i, j, ·, c, p, q)
    is the grid at patch (r + i, s + j). -/
theorem window_apply (r s : Nat) (h : S8x66x66x3x8x8.Slices ![0, r, s, 0, 0, 0] S8x64x64x3x8x8) (g : Arr Ideal S8x66x66x3x8x8)
    (b : Fin 8) (i j : Fin 64) (u : Fin 1) (c : Fin 3) (p q : Fin 8) (I J : Fin 66) (hI : I.val = r + i.val) (hJ : J.val = s + j.val) :
    window (F := Ideal) ![0, r, s, 0, 0, 0] h g (ix7 b i j u c p q) = g (ix6 b I J c p q) := by
  unfold window
  refine (broadcastInDim_apply _ _ _ (ix7 b i j u c p q) (ix6 b i j c p q) (fun a => by
    match a with
    | ⟨0, _⟩ => rfl
    | ⟨1, _⟩ => rfl
    | ⟨2, _⟩ => rfl
    | ⟨3, _⟩ => rfl
    | ⟨4, _⟩ => rfl
    | ⟨5, _⟩ => rfl)).trans ?_
  exact extractStridedSlice_apply _ g h (ix6 b i j c p q) (ix6 b I J c p q) (fun a => by
    match a with
    | ⟨0, _⟩ => exact (Nat.zero_add _).symm
    | ⟨1, _⟩ => exact hI
    | ⟨2, _⟩ => exact hJ
    | ⟨3, _⟩ => exact (Nat.zero_add _).symm
    | ⟨4, _⟩ => exact (Nat.zero_add _).symm
    | ⟨5, _⟩ => exact (Nat.zero_add _).symm)

/-! Nine arrays stacked along the neighbour axis, read at neighbour k: array k at neighbour coordinate 0. One
    statement per k, so that each sees one literal position of the list. -/
set_option maxHeartbeats 1000000 in
theorem stack_at_0 (w0 w1 w2 w3 w4 w5 w6 w7 w8 : Arr Ideal S8x64x64x1x3x8x8) (b : Fin 8) (i j : Fin 64) (c : Fin 3) (p q : Fin 8) :
    concatenate S8x64x64x9x3x8x8 3 [⟨S8x64x64x1x3x8x8, w0⟩, ⟨S8x64x64x1x3x8x8, w1⟩, ⟨S8x64x64x1x3x8x8, w2⟩, ⟨S8x64x64x1x3x8x8, w3⟩, ⟨S8x64x64x1x3x8x8, w4⟩, ⟨S8x64x64x1x3x8x8, w5⟩, ⟨S8x64x64x1x3x8x8, w6⟩, ⟨S8x64x64x1x3x8x8, w7⟩, ⟨S8x64x64x1x3x8x8, w8⟩] concatenates_S8x64x64x1x3x8x8_S8x64x64x1x3x8x8_S8x64x64x1x3x8x8_S8x64x64x1x3x8x8_S8x64x64x1x3x8x8_S8x64x64x1x3x8x8_S8x64x64x1x3x8x8_S8x64x64x1x3x8x8_S8x64x64x1x3x8x8_S8x64x64x9x3x8x8_d3 (ix7 b i j (⟨0, by decide⟩ : Fin 9) c p q)
      = w0 (ix7 b i j (0 : Fin 1) c p q) :=
  concatenate_apply_piece (t := S8x64x64x9x3x8x8) (3 : Fin 7) [⟨S8x64x64x1x3x8x8, w0⟩, ⟨S8x64x64x1x3x8x8, w1⟩, ⟨S8x64x64x1x3x8x8, w2⟩, ⟨S8x64x64x1x3x8x8, w3⟩, ⟨S8x64x64x1x3x8x8, w4⟩, ⟨S8x64x64x1x3x8x8, w5⟩, ⟨S8x64x64x1x3x8x8, w6⟩, ⟨S8x64x64x1x3x8x8, w7⟩, ⟨S8x64x64x1x3x8x8, w8⟩] concatenates_S8x64x64x1x3x8x8_S8x64x64x1x3x8x8_S8x64x64x1x3x8x8_S8x64x64x1x3x8x8_S8x64x64x1x3x8x8_S8x64x64x1x3x8x8_S8x64x64x1x3x8x8_S8x64x64x1x3x8x8_S8x64x64x1x3x8x8_S8x64x64x9x3x8x8_d3
    (ix7 b i j (⟨0, by decide⟩ : Fin 9) c p q) 0 (show 0 < 9 from by decide) S8x64x64x1x3x8x8 w0 rfl rfl 0 rfl
    (ix7 b i j (0 : Fin 1) c p q) (fun b' hb => by
      match b' with
      | ⟨0, _⟩ => rfl
      | ⟨1, _⟩ => rfl
      | ⟨2, _⟩ => rfl
      | ⟨3, _⟩ => exact absurd (Fin.ext rfl) hb
      | ⟨4, _⟩ => rfl
      | ⟨5, _⟩ => rfl
      | ⟨6, _⟩ => rfl) rfl
set_option maxHeartbeats 1000000 in
theorem stack_at_1 (w0 w1 w2 w3 w4 w5 w6 w7 w8 : Arr Ideal S8x64x64x1x3x8x8) (b : Fin 8) (i j : Fin 64) (c : Fin 3) (p q : Fin 8) :
    concatenate S8x64x64x9x3x8x8 3 [⟨S8x64x64x1x3x8x8, w0⟩, ⟨S8x64x64x1x3x8x8, w1⟩, ⟨S8x64x64x1x3x8x8, w2⟩, ⟨S8x64x64x1x3x8x8, w3⟩, ⟨S8x64x64x1x3x8x8, w4⟩, ⟨S8x64x64x1x3x8x8, w5⟩, ⟨S8x64x64x1x3x8x8, w6⟩, ⟨S8x64x64x1x3x8x8, w7⟩, ⟨S8x64x64x1x3x8x8, w8⟩] concatenates_S8x64x64x1x3x8x8_S8x64x64x1x3x8x8_S8x64x64x1x3x8x8_S8x64x64x1x3x8x8_S8x64x64x1x3x8x8_S8x64x64x1x3x8x8_S8x64x64x1x3x8x8_S8x64x64x1x3x8x8_S8x64x64x1x3x8x8_S8x64x64x9x3x8x8_d3 (ix7 b i j (⟨1, by decide⟩ : Fin 9) c p q)
      = w1 (ix7 b i j (0 : Fin 1) c p q) :=
  concatenate_apply_piece (t := S8x64x64x9x3x8x8) (3 : Fin 7) [⟨S8x64x64x1x3x8x8, w0⟩, ⟨S8x64x64x1x3x8x8, w1⟩, ⟨S8x64x64x1x3x8x8, w2⟩, ⟨S8x64x64x1x3x8x8, w3⟩, ⟨S8x64x64x1x3x8x8, w4⟩, ⟨S8x64x64x1x3x8x8, w5⟩, ⟨S8x64x64x1x3x8x8, w6⟩, ⟨S8x64x64x1x3x8x8, w7⟩, ⟨S8x64x64x1x3x8x8, w8⟩] concatenates_S8x64x64x1x3x8x8_S8x64x64x1x3x8x8_S8x64x64x1x3x8x8_S8x64x64x1x3x8x8_S8x64x64x1x3x8x8_S8x64x64x1x3x8x8_S8x64x64x1x3x8x8_S8x64x64x1x3x8x8_S8x64x64x1x3x8x8_S8x64x64x9x3x8x8_d3
    (ix7 b i j (⟨1, by decide⟩ : Fin 9) c p q) 1 (show 1 < 9 from by decide) S8x64x64x1x3x8x8 w1 rfl rfl 1 rfl
    (ix7 b i j (0 : Fin 1) c p q) (fun b' hb => by
      match b' with
      | ⟨0, _⟩ => rfl
      | ⟨1, _⟩ => rfl
      | ⟨2, _⟩ => rfl
      | ⟨3, _⟩ => exact absurd (Fin.ext rfl) hb
      | ⟨4, _⟩ => rfl
      | ⟨5, _⟩ => rfl
      | ⟨6, _⟩ => rfl) rfl
set_option maxHeartbeats 1000000 in
theorem stack_at_2 (w0 w1 w2 w3 w4 w5 w6 w7 w8 : Arr Ideal S8x64x64x1x3x8x8) (b : Fin 8) (i j : Fin 64) (c : Fin 3) (p q : Fin 8) :
    concatenate S8x64x64x9x3x8x8 3 [⟨S8x64x64x1x3x8x8, w0⟩, ⟨S8x64x64x1x3x8x8, w1⟩, ⟨S8x64x64x1x3x8x8, w2⟩, ⟨S8x64x64x1x3x8x8, w3⟩, ⟨S8x64x64x1x3x8x8, w4⟩, ⟨S8x64x64x1x3x8x8, w5⟩, ⟨S8x64x64x1x3x8x8, w6⟩, ⟨S8x64x64x1x3x8x8, w7⟩, ⟨S8x64x64x1x3x8x8, w8⟩] concatenates_S8x64x64x1x3x8x8_S8x64x64x1x3x8x8_S8x64x64x1x3x8x8_S8x64x64x1x3x8x8_S8x64x64x1x3x8x8_S8x64x64x1x3x8x8_S8x64x64x1x3x8x8_S8x64x64x1x3x8x8_S8x64x64x1x3x8x8_S8x64x64x9x3x8x8_d3 (ix7 b i j (⟨2, by decide⟩ : Fin 9) c p q)
      = w2 (ix7 b i j (0 : Fin 1) c p q) :=
  concatenate_apply_piece (t := S8x64x64x9x3x8x8) (3 : Fin 7) [⟨S8x64x64x1x3x8x8, w0⟩, ⟨S8x64x64x1x3x8x8, w1⟩, ⟨S8x64x64x1x3x8x8, w2⟩, ⟨S8x64x64x1x3x8x8, w3⟩, ⟨S8x64x64x1x3x8x8, w4⟩, ⟨S8x64x64x1x3x8x8, w5⟩, ⟨S8x64x64x1x3x8x8, w6⟩, ⟨S8x64x64x1x3x8x8, w7⟩, ⟨S8x64x64x1x3x8x8, w8⟩] concatenates_S8x64x64x1x3x8x8_S8x64x64x1x3x8x8_S8x64x64x1x3x8x8_S8x64x64x1x3x8x8_S8x64x64x1x3x8x8_S8x64x64x1x3x8x8_S8x64x64x1x3x8x8_S8x64x64x1x3x8x8_S8x64x64x1x3x8x8_S8x64x64x9x3x8x8_d3
    (ix7 b i j (⟨2, by decide⟩ : Fin 9) c p q) 2 (show 2 < 9 from by decide) S8x64x64x1x3x8x8 w2 rfl rfl 2 rfl
    (ix7 b i j (0 : Fin 1) c p q) (fun b' hb => by
      match b' with
      | ⟨0, _⟩ => rfl
      | ⟨1, _⟩ => rfl
      | ⟨2, _⟩ => rfl
      | ⟨3, _⟩ => exact absurd (Fin.ext rfl) hb
      | ⟨4, _⟩ => rfl
      | ⟨5, _⟩ => rfl
      | ⟨6, _⟩ => rfl) rfl
set_option maxHeartbeats 1000000 in
theorem stack_at_3 (w0 w1 w2 w3 w4 w5 w6 w7 w8 : Arr Ideal S8x64x64x1x3x8x8) (b : Fin 8) (i j : Fin 64) (c : Fin 3) (p q : Fin 8) :
    concatenate S8x64x64x9x3x8x8 3 [⟨S8x64x64x1x3x8x8, w0⟩, ⟨S8x64x64x1x3x8x8, w1⟩, ⟨S8x64x64x1x3x8x8, w2⟩, ⟨S8x64x64x1x3x8x8, w3⟩, ⟨S8x64x64x1x3x8x8, w4⟩, ⟨S8x64x64x1x3x8x8, w5⟩, ⟨S8x64x64x1x3x8x8, w6⟩, ⟨S8x64x64x1x3x8x8, w7⟩, ⟨S8x64x64x1x3x8x8, w8⟩] concatenates_S8x64x64x1x3x8x8_S8x64x64x1x3x8x8_S8x64x64x1x3x8x8_S8x64x64x1x3x8x8_S8x64x64x1x3x8x8_S8x64x64x1x3x8x8_S8x64x64x1x3x8x8_S8x64x64x1x3x8x8_S8x64x64x1x3x8x8_S8x64x64x9x3x8x8_d3 (ix7 b i j (⟨3, by decide⟩ : Fin 9) c p q)
      = w3 (ix7 b i j (0 : Fin 1) c p q) :=
  concatenate_apply_piece (t := S8x64x64x9x3x8x8) (3 : Fin 7) [⟨S8x64x64x1x3x8x8, w0⟩, ⟨S8x64x64x1x3x8x8, w1⟩, ⟨S8x64x64x1x3x8x8, w2⟩, ⟨S8x64x64x1x3x8x8, w3⟩, ⟨S8x64x64x1x3x8x8, w4⟩, ⟨S8x64x64x1x3x8x8, w5⟩, ⟨S8x64x64x1x3x8x8, w6⟩, ⟨S8x64x64x1x3x8x8, w7⟩, ⟨S8x64x64x1x3x8x8, w8⟩] concatenates_S8x64x64x1x3x8x8_S8x64x64x1x3x8x8_S8x64x64x1x3x8x8_S8x64x64x1x3x8x8_S8x64x64x1x3x8x8_S8x64x64x1x3x8x8_S8x64x64x1x3x8x8_S8x64x64x1x3x8x8_S8x64x64x1x3x8x8_S8x64x64x9x3x8x8_d3
    (ix7 b i j (⟨3, by decide⟩ : Fin 9) c p q) 3 (show 3 < 9 from by decide) S8x64x64x1x3x8x8 w3 rfl rfl 3 rfl
    (ix7 b i j (0 : Fin 1) c p q) (fun b' hb => by
      match b' with
      | ⟨0, _⟩ => rfl
      | ⟨1, _⟩ => rfl
      | ⟨2, _⟩ => rfl
      | ⟨3, _⟩ => exact absurd (Fin.ext rfl) hb
      | ⟨4, _⟩ => rfl
      | ⟨5, _⟩ => rfl
      | ⟨6, _⟩ => rfl) rfl
set_option maxHeartbeats 1000000 in
theorem stack_at_4 (w0 w1 w2 w3 w4 w5 w6 w7 w8 : Arr Ideal S8x64x64x1x3x8x8) (b : Fin 8) (i j : Fin 64) (c : Fin 3) (p q : Fin 8) :
    concatenate S8x64x64x9x3x8x8 3 [⟨S8x64x64x1x3x8x8, w0⟩, ⟨S8x64x64x1x3x8x8, w1⟩, ⟨S8x64x64x1x3x8x8, w2⟩, ⟨S8x64x64x1x3x8x8, w3⟩, ⟨S8x64x64x1x3x8x8, w4⟩, ⟨S8x64x64x1x3x8x8, w5⟩, ⟨S8x64x64x1x3x8x8, w6⟩, ⟨S8x64x64x1x3x8x8, w7⟩, ⟨S8x64x64x1x3x8x8, w8⟩] concatenates_S8x64x64x1x3x8x8_S8x64x64x1x3x8x8_S8x64x64x1x3x8x8_S8x64x64x1x3x8x8_S8x64x64x1x3x8x8_S8x64x64x1x3x8x8_S8x64x64x1x3x8x8_S8x64x64x1x3x8x8_S8x64x64x1x3x8x8_S8x64x64x9x3x8x8_d3 (ix7 b i j (⟨4, by decide⟩ : Fin 9) c p q)
      = w4 (ix7 b i j (0 : Fin 1) c p q) :=
  concatenate_apply_piece (t := S8x64x64x9x3x8x8) (3 : Fin 7) [⟨S8x64x64x1x3x8x8, w0⟩, ⟨S8x64x64x1x3x8x8, w1⟩, ⟨S8x64x64x1x3x8x8, w2⟩, ⟨S8x64x64x1x3x8x8, w3⟩, ⟨S8x64x64x1x3x8x8, w4⟩, ⟨S8x64x64x1x3x8x8, w5⟩, ⟨S8x64x64x1x3x8x8, w6⟩, ⟨S8x64x64x1x3x8x8, w7⟩, ⟨S8x64x64x1x3x8x8, w8⟩] concatenates_S8x64x64x1x3x8x8_S8x64x64x1x3x8x8_S8x64x64x1x3x8x8_S8x64x64x1x3x8x8_S8x64x64x1x3x8x8_S8x64x64x1x3x8x8_S8x64x64x1x3x8x8_S8x64x64x1x3x8x8_S8x64x64x1x3x8x8_S8x64x64x9x3x8x8_d3
    (ix7 b i j (⟨4, by decide⟩ : Fin 9) c p q) 4 (show 4 < 9 from by decide) S8x64x64x1x3x8x8 w4 rfl rfl 4 rfl
    (ix7 b i j (0 : Fin 1) c p q) (fun b' hb => by
      match b' with
      | ⟨0, _⟩ => rfl
      | ⟨1, _⟩ => rfl
      | ⟨2, _⟩ => rfl
      | ⟨3, _⟩ => exact absurd (Fin.ext rfl) hb
      | ⟨4, _⟩ => rfl
      | ⟨5, _⟩ => rfl
      | ⟨6, _⟩ => rfl) rfl
set_option maxHeartbeats 1000000 in
theorem stack_at_5 (w0 w1 w2 w3 w4 w5 w6 w7 w8 : Arr Ideal S8x64x64x1x3x8x8) (b : Fin 8) (i j : Fin 64) (c : Fin 3) (p q : Fin 8) :
    concatenate S8x64x64x9x3x8x8 3 [⟨S8x64x64x1x3x8x8, w0⟩, ⟨S8x64x64x1x3x8x8, w1⟩, ⟨S8x64x64x1x3x8x8, w2⟩, ⟨S8x64x64x1x3x8x8, w3⟩, ⟨S8x64x64x1x3x8x8, w4⟩, ⟨S8x64x64x1x3x8x8, w5⟩, ⟨S8x64x64x1x3x8x8, w6⟩, ⟨S8x64x64x1x3x8x8, w7⟩, ⟨S8x64x64x1x3x8x8, w8⟩] concatenates_S8x64x64x1x3x8x8_S8x64x64x1x3x8x8_S8x64x64x1x3x8x8_S8x64x64x1x3x8x8_S8x64x64x1x3x8x8_S8x64x64x1x3x8x8_S8x64x64x1x3x8x8_S8x64x64x1x3x8x8_S8x64x64x1x3x8x8_S8x64x64x9x3x8x8_d3 (ix7 b i j (⟨5, by decide⟩ : Fin 9) c p q)
      = w5 (ix7 b i j (0 : Fin 1) c p q) :=
  concatenate_apply_piece (t := S8x64x64x9x3x8x8) (3 : Fin 7) [⟨S8x64x64x1x3x8x8, w0⟩, ⟨S8x64x64x1x3x8x8, w1⟩, ⟨S8x64x64x1x3x8x8, w2⟩, ⟨S8x64x64x1x3x8x8, w3⟩, ⟨S8x64x64x1x3x8x8, w4⟩, ⟨S8x64x64x1x3x8x8, w5⟩, ⟨S8x64x64x1x3x8x8, w6⟩, ⟨S8x64x64x1x3x8x8, w7⟩, ⟨S8x64x64x1x3x8x8, w8⟩] concatenates_S8x64x64x1x3x8x8_S8x64x64x1x3x8x8_S8x64x64x1x3x8x8_S8x64x64x1x3x8x8_S8x64x64x1x3x8x8_S8x64x64x1x3x8x8_S8x64x64x1x3x8x8_S8x64x64x1x3x8x8_S8x64x64x1x3x8x8_S8x64x64x9x3x8x8_d3
    (ix7 b i j (⟨5, by decide⟩ : Fin 9) c p q) 5 (show 5 < 9 from by decide) S8x64x64x1x3x8x8 w5 rfl rfl 5 rfl
    (ix7 b i j (0 : Fin 1) c p q) (fun b' hb => by
      match b' with
      | ⟨0, _⟩ => rfl
      | ⟨1, _⟩ => rfl
      | ⟨2, _⟩ => rfl
      | ⟨3, _⟩ => exact absurd (Fin.ext rfl) hb
      | ⟨4, _⟩ => rfl
      | ⟨5, _⟩ => rfl
      | ⟨6, _⟩ => rfl) rfl
set_option maxHeartbeats 1000000 in
theorem stack_at_6 (w0 w1 w2 w3 w4 w5 w6 w7 w8 : Arr Ideal S8x64x64x1x3x8x8) (b : Fin 8) (i j : Fin 64) (c : Fin 3) (p q : Fin 8) :
    concatenate S8x64x64x9x3x8x8 3 [⟨S8x64x64x1x3x8x8, w0⟩, ⟨S8x64x64x1x3x8x8, w1⟩, ⟨S8x64x64x1x3x8x8, w2⟩, ⟨S8x64x64x1x3x8x8, w3⟩, ⟨S8x64x64x1x3x8x8, w4⟩, ⟨S8x64x64x1x3x8x8, w5⟩, ⟨S8x64x64x1x3x8x8, w6⟩, ⟨S8x64x64x1x3x8x8, w7⟩, ⟨S8x64x64x1x3x8x8, w8⟩] concatenates_S8x64x64x1x3x8x8_S8x64x64x1x3x8x8_S8x64x64x1x3x8x8_S8x64x64x1x3x8x8_S8x64x64x1x3x8x8_S8x64x64x1x3x8x8_S8x64x64x1x3x8x8_S8x64x64x1x3x8x8_S8x64x64x1x3x8x8_S8x64x64x9x3x8x8_d3 (ix7 b i j (⟨6, by decide⟩ : Fin 9) c p q)
      = w6 (ix7 b i j (0 : Fin 1) c p q) :=
  concatenate_apply_piece (t := S8x64x64x9x3x8x8) (3 : Fin 7) [⟨S8x64x64x1x3x8x8, w0⟩, ⟨S8x64x64x1x3x8x8, w1⟩, ⟨S8x64x64x1x3x8x8, w2⟩, ⟨S8x64x64x1x3x8x8, w3⟩, ⟨S8x64x64x1x3x8x8, w4⟩, ⟨S8x64x64x1x3x8x8, w5⟩, ⟨S8x64x64x1x3x8x8, w6⟩, ⟨S8x64x64x1x3x8x8, w7⟩, ⟨S8x64x64x1x3x8x8, w8⟩] concatenates_S8x64x64x1x3x8x8_S8x64x64x1x3x8x8_S8x64x64x1x3x8x8_S8x64x64x1x3x8x8_S8x64x64x1x3x8x8_S8x64x64x1x3x8x8_S8x64x64x1x3x8x8_S8x64x64x1x3x8x8_S8x64x64x1x3x8x8_S8x64x64x9x3x8x8_d3
    (ix7 b i j (⟨6, by decide⟩ : Fin 9) c p q) 6 (show 6 < 9 from by decide) S8x64x64x1x3x8x8 w6 rfl rfl 6 rfl
    (ix7 b i j (0 : Fin 1) c p q) (fun b' hb => by
      match b' with
      | ⟨0, _⟩ => rfl
      | ⟨1, _⟩ => rfl
      | ⟨2, _⟩ => rfl
      | ⟨3, _⟩ => exact absurd (Fin.ext rfl) hb
      | ⟨4, _⟩ => rfl
      | ⟨5, _⟩ => rfl
      | ⟨6, _⟩ => rfl) rfl
set_option maxHeartbeats 1000000 in
theorem stack_at_7 (w0 w1 w2 w3 w4 w5 w6 w7 w8 : Arr Ideal S8x64x64x1x3x8x8) (b : Fin 8) (i j : Fin 64) (c : Fin 3) (p q : Fin 8) :
    concatenate S8x64x64x9x3x8x8 3 [⟨S8x64x64x1x3x8x8, w0⟩, ⟨S8x64x64x1x3x8x8, w1⟩, ⟨S8x64x64x1x3x8x8, w2⟩, ⟨S8x64x64x1x3x8x8, w3⟩, ⟨S8x64x64x1x3x8x8, w4⟩, ⟨S8x64x64x1x3x8x8, w5⟩, ⟨S8x64x64x1x3x8x8, w6⟩, ⟨S8x64x64x1x3x8x8, w7⟩, ⟨S8x64x64x1x3x8x8, w8⟩] concatenates_S8x64x64x1x3x8x8_S8x64x64x1x3x8x8_S8x64x64x1x3x8x8_S8x64x64x1x3x8x8_S8x64x64x1x3x8x8_S8x64x64x1x3x8x8_S8x64x64x1x3x8x8_S8x64x64x1x3x8x8_S8x64x64x1x3x8x8_S8x64x64x9x3x8x8_d3 (ix7 b i j (⟨7, by decide⟩ : Fin 9) c p q)
      = w7 (ix7 b i j (0 : Fin 1) c p q) :=
  concatenate_apply_piece (t := S8x64x64x9x3x8x8) (3 : Fin 7) [⟨S8x64x64x1x3x8x8, w0⟩, ⟨S8x64x64x1x3x8x8, w1⟩, ⟨S8x64x64x1x3x8x8, w2⟩, ⟨S8x64x64x1x3x8x8, w3⟩, ⟨S8x64x64x1x3x8x8, w4⟩, ⟨S8x64x64x1x3x8x8, w5⟩, ⟨S8x64x64x1x3x8x8, w6⟩, ⟨S8x64x64x1x3x8x8, w7⟩, ⟨S8x64x64x1x3x8x8, w8⟩] concatenates_S8x64x64x1x3x8x8_S8x64x64x1x3x8x8_S8x64x64x1x3x8x8_S8x64x64x1x3x8x8_S8x64x64x1x3x8x8_S8x64x64x1x3x8x8_S8x64x64x1x3x8x8_S8x64x64x1x3x8x8_S8x64x64x1x3x8x8_S8x64x64x9x3x8x8_d3
    (ix7 b i j (⟨7, by decide⟩ : Fin 9) c p q) 7 (show 7 < 9 from by decide) S8x64x64x1x3x8x8 w7 rfl rfl 7 rfl
    (ix7 b i j (0 : Fin 1) c p q) (fun b' hb => by
      match b' with
      | ⟨0, _⟩ => rfl
      | ⟨1, _⟩ => rfl
      | ⟨2, _⟩ => rfl
      | ⟨3, _⟩ => exact absurd (Fin.ext rfl) hb
      | ⟨4, _⟩ => rfl
      | ⟨5, _⟩ => rfl
      | ⟨6, _⟩ => rfl) rfl
set_option maxHeartbeats 1000000 in
theorem stack_at_8 (w0 w1 w2 w3 w4 w5 w6 w7 w8 : Arr Ideal S8x64x64x1x3x8x8) (b : Fin 8) (i j : Fin 64) (c : Fin 3) (p q : Fin 8) :
    concatenate S8x64x64x9x3x8x8 3 [⟨S8x64x64x1x3x8x8, w0⟩, ⟨S8x64x64x1x3x8x8, w1⟩, ⟨S8x64x64x1x3x8x8, w2⟩, ⟨S8x64x64x1x3x8x8, w3⟩, ⟨S8x64x64x1x3x8x8, w4⟩, ⟨S8x64x64x1x3x8x8, w5⟩, ⟨S8x64x64x1x3x8x8, w6⟩, ⟨S8x64x64x1x3x8x8, w7⟩, ⟨S8x64x64x1x3x8x8, w8⟩] concatenates_S8x64x64x1x3x8x8_S8x64x64x1x3x8x8_S8x64x64x1x3x8x8_S8x64x64x1x3x8x8_S8x64x64x1x3x8x8_S8x64x64x1x3x8x8_S8x64x64x1x3x8x8_S8x64x64x1x3x8x8_S8x64x64x1x3x8x8_S8x64x64x9x3x8x8_d3 (ix7 b i j (⟨8, by decide⟩ : Fin 9) c p q)
      = w8 (ix7 b i j (0 : Fin 1) c p q) :=
  concatenate_apply_piece (t := S8x64x64x9x3x8x8) (3 : Fin 7) [⟨S8x64x64x1x3x8x8, w0⟩, ⟨S8x64x64x1x3x8x8, w1⟩, ⟨S8x64x64x1x3x8x8, w2⟩, ⟨S8x64x64x1x3x8x8, w3⟩, ⟨S8x64x64x1x3x8x8, w4⟩, ⟨S8x64x64x1x3x8x8, w5⟩, ⟨S8x64x64x1x3x8x8, w6⟩, ⟨S8x64x64x1x3x8x8, w7⟩, ⟨S8x64x64x1x3x8x8, w8⟩] concatenates_S8x64x64x1x3x8x8_S8x64x64x1x3x8x8_S8x64x64x1x3x8x8_S8x64x64x1x3x8x8_S8x64x64x1x3x8x8_S8x64x64x1x3x8x8_S8x64x64x1x3x8x8_S8x64x64x1x3x8x8_S8x64x64x1x3x8x8_S8x64x64x9x3x8x8_d3
    (ix7 b i j (⟨8, by decide⟩ : Fin 9) c p q) 8 (show 8 < 9 from by decide) S8x64x64x1x3x8x8 w8 rfl rfl 8 rfl
    (ix7 b i j (0 : Fin 1) c p q) (fun b' hb => by
      match b' with
      | ⟨0, _⟩ => rfl
      | ⟨1, _⟩ => rfl
      | ⟨2, _⟩ => rfl
      | ⟨3, _⟩ => exact absurd (Fin.ext rfl) hb
      | ⟨4, _⟩ => rfl
      | ⟨5, _⟩ => rfl
      | ⟨6, _⟩ => rfl) rfl

/-- The same for any neighbour n. -/
theorem stack_apply (w0 w1 w2 w3 w4 w5 w6 w7 w8 : Arr Ideal S8x64x64x1x3x8x8) (b : Fin 8) (i j : Fin 64) (n : Fin 9) (c : Fin 3) (p q : Fin 8) :
    stack (F := Ideal) w0 w1 w2 w3 w4 w5 w6 w7 w8 (ix7 b i j n c p q)
      = (![w0, w1, w2, w3, w4, w5, w6, w7, w8] n) (ix7 b i j (0 : Fin 1) c p q) := by
  unfold stack
  match n with
  | ⟨0, _⟩ => exact stack_at_0 w0 w1 w2 w3 w4 w5 w6 w7 w8 b i j c p q
  | ⟨1, _⟩ => exact stack_at_1 w0 w1 w2 w3 w4 w5 w6 w7 w8 b i j c p q
  | ⟨2, _⟩ => exact stack_at_2 w0 w1 w2 w3 w4 w5 w6 w7 w8 b i j c p q
  | ⟨3, _⟩ => exact stack_at_3 w0 w1 w2 w3 w4 w5 w6 w7 w8 b i j c p q
  | ⟨4, _⟩ => exact stack_at_4 w0 w1 w2 w3 w4 w5 w6 w7 w8 b i j c p q
  | ⟨5, _⟩ => exact stack_at_5 w0 w1 w2 w3 w4 w5 w6 w7 w8 b i j c p q
  | ⟨6, _⟩ => exact stack_at_6 w0 w1 w2 w3 w4 w5 w6 w7 w8 b i j c p q
  | ⟨7, _⟩ => exact stack_at_7 w0 w1 w2 w3 w4 w5 w6 w7 w8 b i j c p q
  | ⟨8, _⟩ => exact stack_at_8 w0 w1 w2 w3 w4 w5 w6 w7 w8 b i j c p q

/-- The nine windows stacked: neighbour n = 3 r + s of patch (i, j) is the grid at patch (i + r, j + s). -/
theorem neigh_apply (g : Arr Ideal S8x66x66x3x8x8) (b : Fin 8) (i j : Fin 64) (n : Fin 9) (c : Fin 3) (p q : Fin 8) :
    neigh (F := Ideal) g (ix7 b i j n c p q) = g (ix6 b (shift i (nrow n)) (shift j (ncol n)) c p q) := by
  unfold neigh
  rw [stack_apply]
  match n with
  | ⟨0, _⟩ =>
    exact window_apply 0 0 slices_S8x66x66x3x8x8_S8x64x64x3x8x8_0_0_0_0_0_0 g b i j 0 c p q (shift i (nrow (⟨0, by decide⟩ : Fin 9))) (shift j (ncol (⟨0, by decide⟩ : Fin 9)))
      (by show i.val + 0 / 3 = 0 + i.val; omega) (by show j.val + 0 % 3 = 0 + j.val; omega)
  | ⟨1, _⟩ =>
    exact window_apply 0 1 slices_S8x66x66x3x8x8_S8x64x64x3x8x8_0_0_1_0_0_0 g b i j 0 c p q (shift i (nrow (⟨1, by decide⟩ : Fin 9))) (shift j (ncol (⟨1, by decide⟩ : Fin 9)))
      (by show i.val + 1 / 3 = 0 + i.val; omega) (by show j.val + 1 % 3 = 1 + j.val; omega)
  | ⟨2, _⟩ =>
    exact window_apply 0 2 slices_S8x66x66x3x8x8_S8x64x64x3x8x8_0_0_2_0_0_0 g b i j 0 c p q (shift i (nrow (⟨2, by decide⟩ : Fin 9))) (shift j (ncol (⟨2, by decide⟩ : Fin 9)))
      (by show i.val + 2 / 3 = 0 + i.val; omega) (by show j.val + 2 % 3 = 2 + j.val; omega)
  | ⟨3, _⟩ =>
    exact window_apply 1 0 slices_S8x66x66x3x8x8_S8x64x64x3x8x8_0_1_0_0_0_0 g b i j 0 c p q (shift i (nrow (⟨3, by decide⟩ : Fin 9))) (shift j (ncol (⟨3, by decide⟩ : Fin 9)))
      (by show i.val + 3 / 3 = 1 + i.val; omega) (by show j.val + 3 % 3 = 0 + j.val; omega)
  | ⟨4, _⟩ =>
    exact window_apply 1 1 slices_S8x66x66x3x8x8_S8x64x64x3x8x8_0_1_1_0_0_0 g b i j 0 c p q (shift i (nrow (⟨4, by decide⟩ : Fin 9))) (shift j (ncol (⟨4, by decide⟩ : Fin 9)))
      (by show i.val + 4 / 3 = 1 + i.val; omega) (by show j.val + 4 % 3 = 1 + j.val; omega)
  | ⟨5, _⟩ =>
    exact window_apply 1 2 slices_S8x66x66x3x8x8_S8x64x64x3x8x8_0_1_2_0_0_0 g b i j 0 c p q (shift i (nrow (⟨5, by decide⟩ : Fin 9))) (shift j (ncol (⟨5, by decide⟩ : Fin 9)))
      (by show i.val + 5 / 3 = 1 + i.val; omega) (by show j.val + 5 % 3 = 2 + j.val; omega)
  | ⟨6, _⟩ =>
    exact window_apply 2 0 slices_S8x66x66x3x8x8_S8x64x64x3x8x8_0_2_0_0_0_0 g b i j 0 c p q (shift i (nrow (⟨6, by decide⟩ : Fin 9))) (shift j (ncol (⟨6, by decide⟩ : Fin 9)))
      (by show i.val + 6 / 3 = 2 + i.val; omega) (by show j.val + 6 % 3 = 0 + j.val; omega)
  | ⟨7, _⟩ =>
    exact window_apply 2 1 slices_S8x66x66x3x8x8_S8x64x64x3x8x8_0_2_1_0_0_0 g b i j 0 c p q (shift i (nrow (⟨7, by decide⟩ : Fin 9))) (shift j (ncol (⟨7, by decide⟩ : Fin 9)))
      (by show i.val + 7 / 3 = 2 + i.val; omega) (by show j.val + 7 % 3 = 1 + j.val; omega)
  | ⟨8, _⟩ =>
    exact window_apply 2 2 slices_S8x66x66x3x8x8_S8x64x64x3x8x8_0_2_2_0_0_0 g b i j 0 c p q (shift i (nrow (⟨8, by decide⟩ : Fin 9))) (shift j (ncol (⟨8, by decide⟩ : Fin 9)))
      (by show i.val + 8 / 3 = 2 + i.val; omega) (by show j.val + 8 % 3 = 2 + j.val; omega)

/-- A neighbour patch flattened: feature k = 64 c + 8 p + q is pixel (p, q) of channel c. -/
theorem feats_apply (nb : Arr Ideal S8x64x64x9x3x8x8) (b : Fin 8) (i j : Fin 64) (n : Fin 9) (k : Fin 192) :
    feats (F := Ideal) nb (ix5 b i j n k) = nb (ix7 b i j n (featC k) (featP k) (featQ k)) :=
  shapeCast_apply nb _ (ix5 b i j n k) (ix7 b i j n (featC k) (featP k) (featQ k)) (by
    rw [rowMajor_val_seven, Shape.rowMajor_val_five]
    show (((((b.val * 64 + i.val) * 64 + j.val) * 9 + n.val) * 3 + k.val / 64) * 8 + k.val / 8 % 8) * 8 + k.val % 8
      = (((b.val * 64 + i.val) * 64 + j.val) * 9 + n.val) * 192 + k.val
    have := k.isLt
    omega)

/-- Group s of the projection's channels, as 3 × 8 × 8: entry (c, p, q) is channel 192 s + 64 c + 8 p + q. -/
theorem group_apply (s : Nat) (hs : s < 3) (h : S8x64x64x9x3x3x8x8.Slices ![0, 0, 0, 0, s, 0, 0, 0] S8x64x64x9x1x3x8x8)
    (v : Arr Ideal S8x64x64x9x576) (b : Fin 8) (i j : Fin 64) (n : Fin 9) (c : Fin 3) (p q : Fin 8) (e : Fin 576)
    (he : e.val = s * 192 + (c.val * 64 + p.val * 8 + q.val)) :
    group (F := Ideal) ![0, 0, 0, 0, s, 0, 0, 0] h (shapeCast S8x64x64x9x3x3x8x8 v shapeCasts_S8x64x64x9x576_S8x64x64x9x3x3x8x8) (ix7 b i j n c p q)
      = v (ix5 b i j n e) := by
  unfold group
  refine (shapeCast_apply _ _ (ix7 b i j n c p q) (ix8 b i j n (0 : Fin 1) c p q) (by
    rw [rowMajor_val_eight, rowMajor_val_seven]
    show ((((((b.val * 64 + i.val) * 64 + j.val) * 9 + n.val) * 1 + 0) * 3 + c.val) * 8 + p.val) * 8 + q.val
      = (((((b.val * 64 + i.val) * 64 + j.val) * 9 + n.val) * 3 + c.val) * 8 + p.val) * 8 + q.val
    omega)).trans ?_
  refine (extractStridedSlice_apply _ _ h (ix8 b i j n (0 : Fin 1) c p q) (ix8 b i j n (⟨s, hs⟩ : Fin 3) c p q) (fun a => by
    match a with
    | ⟨0, _⟩ => exact (Nat.zero_add _).symm
    | ⟨1, _⟩ => exact (Nat.zero_add _).symm
    | ⟨2, _⟩ => exact (Nat.zero_add _).symm
    | ⟨3, _⟩ => exact (Nat.zero_add _).symm
    | ⟨4, _⟩ => exact (Nat.add_zero _).symm
    | ⟨5, _⟩ => exact (Nat.zero_add _).symm
    | ⟨6, _⟩ => exact (Nat.zero_add _).symm
    | ⟨7, _⟩ => exact (Nat.zero_add _).symm)).trans ?_
  exact shapeCast_apply v _ (ix8 b i j n (⟨s, hs⟩ : Fin 3) c p q) (ix5 b i j n e) (by
    rw [Shape.rowMajor_val_five, rowMajor_val_eight]
    show (((b.val * 64 + i.val) * 64 + j.val) * 9 + n.val) * 576 + e.val
      = ((((((b.val * 64 + i.val) * 64 + j.val) * 9 + n.val) * 3 + s) * 3 + c.val) * 8 + p.val) * 8 + q.val
    omega)

/-- The centre query: neighbour 4 of the stacked queries, times the program's constant one. -/
theorem centre_apply (Q : Arr Ideal S8x64x64x9x3x8x8) (b : Fin 8) (i j : Fin 64) (c : Fin 3) (p q : Fin 8) :
    centre (F := Ideal) Q (ix6 b i j c p q) = Q (ix7 b i j (4 : Fin 9) c p q) * Ideal.ofBits .f32 0x3F800000#32 := by
  unfold centre
  refine (mulf_apply (φ := .f32) _ _ (ix6 b i j c p q)).trans (congrArg₂ (· * ·) ?_ ?_)
  · refine (shapeCast_apply _ _ (ix6 b i j c p q) (ix7 b i j (0 : Fin 1) c p q) (by
      rw [rowMajor_val_seven, Shape.rowMajor_val_six]
      show (((((b.val * 64 + i.val) * 64 + j.val) * 1 + 0) * 3 + c.val) * 8 + p.val) * 8 + q.val
        = ((((b.val * 64 + i.val) * 64 + j.val) * 3 + c.val) * 8 + p.val) * 8 + q.val
      omega)).trans ?_
    exact extractStridedSlice_apply _ Q _ (ix7 b i j (0 : Fin 1) c p q) (ix7 b i j (4 : Fin 9) c p q) (fun a => by
      match a with
      | ⟨0, _⟩ => exact (Nat.zero_add _).symm
      | ⟨1, _⟩ => exact (Nat.zero_add _).symm
      | ⟨2, _⟩ => exact (Nat.zero_add _).symm
      | ⟨3, _⟩ => exact (Nat.add_zero _).symm
      | ⟨4, _⟩ => exact (Nat.zero_add _).symm
      | ⟨5, _⟩ => exact (Nat.zero_add _).symm
      | ⟨6, _⟩ => exact (Nat.zero_add _).symm)
  · exact broadcastInDim_scalar_apply _ _ _

/-- The centre query repeated along the neighbour axis. -/
theorem centreAll_apply (Q : Arr Ideal S8x64x64x9x3x8x8) (b : Fin 8) (i j : Fin 64) (n : Fin 9) (c : Fin 3) (p q : Fin 8) :
    centreAll (F := Ideal) Q (ix7 b i j n c p q) = centre (F := Ideal) Q (ix6 b i j c p q) := by
  unfold centreAll
  refine (broadcastInDim_apply _ _ _ (ix7 b i j n c p q) (ix7 b i j (0 : Fin 1) c p q) (fun a => by
    match a with
    | ⟨0, _⟩ => rfl
    | ⟨1, _⟩ => rfl
    | ⟨2, _⟩ => rfl
    | ⟨3, _⟩ => rfl
    | ⟨4, _⟩ => rfl
    | ⟨5, _⟩ => rfl
    | ⟨6, _⟩ => rfl)).trans ?_
  exact broadcastInDim_apply _ _ _ (ix7 b i j (0 : Fin 1) c p q) (ix6 b i j c p q) (fun a => by
    match a with
    | ⟨0, _⟩ => rfl
    | ⟨1, _⟩ => rfl
    | ⟨2, _⟩ => rfl
    | ⟨3, _⟩ => rfl
    | ⟨4, _⟩ => rfl
    | ⟨5, _⟩ => rfl)

/-- The weight table repeated over images, patches and channels: entry (b, i, j, n, c, p, q) is the table at (n, p, q). -/
theorem tableAll_apply (tbl : Arr Ideal S9x8x8) (b : Fin 8) (i j : Fin 64) (n : Fin 9) (c : Fin 3) (p q : Fin 8) :
    tableAll (F := Ideal) tbl (ix7 b i j n c p q) = tbl (ix3 n p q) := by
  unfold tableAll
  refine (broadcastInDim_apply _ _ _ (ix7 b i j n c p q) (ix7 (0 : Fin 1) (0 : Fin 1) (0 : Fin 1) n (0 : Fin 1) p q) (fun a => by
    match a with
    | ⟨0, _⟩ => rfl
    | ⟨1, _⟩ => rfl
    | ⟨2, _⟩ => rfl
    | ⟨3, _⟩ => rfl
    | ⟨4, _⟩ => rfl
    | ⟨5, _⟩ => rfl
    | ⟨6, _⟩ => rfl)).trans ?_
  refine (broadcastInDim_apply _ _ _ (ix7 (0 : Fin 1) (0 : Fin 1) (0 : Fin 1) n (0 : Fin 1) p q) (ix4 n (0 : Fin 1) p q) (fun a => by
    match a with
    | ⟨0, _⟩ => rfl
    | ⟨1, _⟩ => rfl
    | ⟨2, _⟩ => rfl
    | ⟨3, _⟩ => rfl)).trans ?_
  exact broadcastInDim_apply _ _ _ (ix4 n (0 : Fin 1) p q) (ix3 n p q) (fun a => by
    match a with
    | ⟨0, _⟩ => rfl
    | ⟨1, _⟩ => rfl
    | ⟨2, _⟩ => rfl)

end Cert.ReferenceIdeal.RefValue

end
-- ==== Proof.RefValue.lean ====
/-
  The reference's value before it is laid back out as images, as the specification.

  At (b, i, j, n, e) the projection of neighbour n of patch (i, j) is the 192-term product sum of the neighbour's
  features against row e of the matrix, plus bias e; the neighbour is the padded grid's patch (i + r, j + s) for
  n = 3 r + s, so this is the specification's `proj` there. Queries, keys and values are channels 192 s + d for
  s = 0, 1, 2; the centre query is neighbour 4, that is (r, s) = (1, 1); the products are taken in the
  specification's order; and the host's sum over the neighbour axis from the constant zero is
  `zero + ∑ n`.
-/
import proofs.«134163_j6322191860015_2_alg».proof.Proof.RefLayout
import Idealize.ShloMosaic.PureOps.Ideal.Laws

set_option maxRecDepth 16384

noncomputable section

namespace Cert.ReferenceIdeal.RefValue

open Cert.ReferenceIdeal Cert.ReferenceIdeal.Gen Cert.ReferenceIdeal.RefRun Cert.IdxHigh Cert.NeighbourAttention
open Idealize.ShloMosaic Idealize.ShloMosaic.ValueIdx

/-- The projection's contraction record: feature axis of the flattened neighbours against the matrix's columns. -/
abbrev DR := dot_S8x64x64x9x192_S576x192_S8x64x64x9x576_4_1_0123_0_n_n

/-! The operand indices of the product at output (b, i, j, n, e) and contraction position k are (b, i, j, n, k) and (e, k). -/
theorem lhs_0 (j : S8x64x64x9x576.Idx) (k : DR.contr.Idx) : (DR.lhsIdx j k 0 : ℕ) = j 0 := by
  simp [DotDims.lhsIdx, DR, dot_S8x64x64x9x192_S576x192_S8x64x64x9x576_4_1_0123_0_n_n]; rfl
theorem lhs_1 (j : S8x64x64x9x576.Idx) (k : DR.contr.Idx) : (DR.lhsIdx j k 1 : ℕ) = j 1 := by
  simp [DotDims.lhsIdx, DR, dot_S8x64x64x9x192_S576x192_S8x64x64x9x576_4_1_0123_0_n_n]; rfl
theorem lhs_2 (j : S8x64x64x9x576.Idx) (k : DR.contr.Idx) : (DR.lhsIdx j k 2 : ℕ) = j 2 := by
  simp [DotDims.lhsIdx, DR, dot_S8x64x64x9x192_S576x192_S8x64x64x9x576_4_1_0123_0_n_n]; rfl
theorem lhs_3 (j : S8x64x64x9x576.Idx) (k : DR.contr.Idx) : (DR.lhsIdx j k 3 : ℕ) = j 3 := by
  simp [DotDims.lhsIdx, DR, dot_S8x64x64x9x192_S576x192_S8x64x64x9x576_4_1_0123_0_n_n]; rfl
theorem lhs_4 (j : S8x64x64x9x576.Idx) (k : DR.contr.Idx) : (DR.lhsIdx j k 4 : ℕ) = k ⟨0, by decide⟩ := by
  simp [DotDims.lhsIdx, DR, dot_S8x64x64x9x192_S576x192_S8x64x64x9x576_4_1_0123_0_n_n]; rfl
theorem rhs_0 (j : S8x64x64x9x576.Idx) (k : DR.contr.Idx) : (DR.rhsIdx j k 0 : ℕ) = j 4 := by
  simp [DotDims.rhsIdx, DR, dot_S8x64x64x9x192_S576x192_S8x64x64x9x576_4_1_0123_0_n_n]; rfl
theorem rhs_1 (j : S8x64x64x9x576.Idx) (k : DR.contr.Idx) : (DR.rhsIdx j k 1 : ℕ) = k ⟨0, by decide⟩ := by
  simp [DotDims.rhsIdx, DR, dot_S8x64x64x9x192_S576x192_S8x64x64x9x576_4_1_0123_0_n_n]; rfl

/-- The projection of neighbour n of patch (i, j) to channel e. -/
theorem qkv_apply (nb : Arr Ideal S8x64x64x9x3x8x8) (W : Arr Ideal S576x192) (B : Arr Ideal S576)
    (b : Fin 8) (i j : Fin 64) (n : Fin 9) (e : Fin 576) :
    qkv (F := Ideal) nb W B (ix5 b i j n e)
      = (∑ k : Fin 192, nb (ix7 b i j n (featC k) (featP k) (featQ k)) * W (ix2 e k)) + B (ix1 e) := by
  unfold qkv
  refine (addf_apply (φ := .f32) _ _ (ix5 b i j n e)).trans (congrArg₂ (· + ·) ?_ ?_)
  · refine (Ideal.dotGeneral_apply DR none .single _ _ (ix5 b i j n e)).trans ?_
    refine ((contrEquiv1 DR 192 rfl rfl).symm.sum_comp _).symm.trans ?_
    refine Finset.sum_congr rfl fun k _ => congrArg₂ (· * ·) ?_ ?_
    · have h4 := (lhs_4 (ix5 b i j n e) ((contrEquiv1 DR 192 rfl rfl).symm k)).trans (contrEquiv1_symm_val DR 192 rfl rfl k)
      refine (congrArg (feats (F := Ideal) nb) (funext fun a => Fin.ext ?_)).trans (feats_apply nb b i j n k)
      match a with
      | ⟨0, _⟩ => exact lhs_0 _ _
      | ⟨1, _⟩ => exact lhs_1 _ _
      | ⟨2, _⟩ => exact lhs_2 _ _
      | ⟨3, _⟩ => exact lhs_3 _ _
      | ⟨4, _⟩ => exact h4
    · refine congrArg W (funext fun a => Fin.ext ?_)
      match a with
      | ⟨0, _⟩ => exact rhs_0 _ _
      | ⟨1, _⟩ => exact (rhs_1 _ _).trans (contrEquiv1_symm_val DR 192 rfl rfl k)
  · refine (broadcastInDim_apply _ _ _ (ix5 b i j n e) (ix5 (0 : Fin 1) (0 : Fin 1) (0 : Fin 1) (0 : Fin 1) e) (fun a => by
      match a with
      | ⟨0, _⟩ => rfl
      | ⟨1, _⟩ => rfl
      | ⟨2, _⟩ => rfl
      | ⟨3, _⟩ => rfl
      | ⟨4, _⟩ => rfl)).trans ?_
    exact broadcastInDim_apply _ _ _ (ix5 (0 : Fin 1) (0 : Fin 1) (0 : Fin 1) (0 : Fin 1) e) (ix1 e) (fun a => by
      match a with
      | ⟨0, _⟩ => rfl)

/-- The same over the nine stacked windows of a grid: the specification's projection of the grid's patch. -/
theorem qkv_neigh_apply (g : Arr Ideal S8x66x66x3x8x8) (W : Arr Ideal S576x192) (B : Arr Ideal S576)
    (b : Fin 8) (i j : Fin 64) (n : Fin 9) (e : Fin 576) :
    qkv (F := Ideal) (neigh (F := Ideal) g) W B (ix5 b i j n e) = proj g W B b (shift i (nrow n)) (shift j (ncol n)) e := by
  rw [qkv_apply]
  unfold proj
  exact congrArg (· + _) (Finset.sum_congr rfl fun k _ => congrArg (· * _) (neigh_apply g b i j n (featC k) (featP k) (featQ k)))

/-- Group s of the projection at neighbour n, feature (c, p, q). -/
theorem group_qkv8 (s : Nat) (hs : s < 3) (h : S8x64x64x9x3x3x8x8.Slices ![0, 0, 0, 0, s, 0, 0, 0] S8x64x64x9x1x3x8x8)
    (g : Arr Ideal S8x66x66x3x8x8) (W : Arr Ideal S576x192) (B : Arr Ideal S576)
    (b : Fin 8) (i j : Fin 64) (n : Fin 9) (c : Fin 3) (p q : Fin 8) :
    group (F := Ideal) ![0, 0, 0, 0, s, 0, 0, 0] h (qkv8 (F := Ideal) (neigh (F := Ideal) g) W B) (ix7 b i j n c p q)
      = proj g W B b (shift i (nrow n)) (shift j (ncol n)) (chan ⟨s, hs⟩ (feat c p q)) := by
  unfold qkv8
  rw [group_apply s hs h _ b i j n c p q (chan ⟨s, hs⟩ (feat c p q)) rfl]
  exact qkv_neigh_apply g W B b i j n _

/-- A rank-6 index with the neighbour coordinate put back on axis 3. -/
theorem lift_ix (hR : S8x64x64x9x3x8x8.Reduces [3] S8x64x64x3x8x8) (b : Fin 8) (i j : Fin 64) (c : Fin 3) (p q : Fin 8) (n : Fin 9) :
    hR.lift (ix6 b i j c p q) n = ix7 b i j n c p q := by
  funext a
  apply Fin.ext
  refine (Shape.Reduces.lift_val hR (ix6 b i j c p q) n a).trans ?_
  match a with
  | ⟨0, _⟩ => rfl
  | ⟨1, _⟩ => rfl
  | ⟨2, _⟩ => rfl
  | ⟨3, _⟩ => rfl
  | ⟨4, _⟩ => rfl
  | ⟨5, _⟩ => rfl
  | ⟨6, _⟩ => rfl

/-- The reference's value before the layout back into images is the specification over the padded patch grid. -/
theorem refCore_eq (x : Arr Ideal S8x3x512x512) (W : Arr Ideal S576x192) (B : Arr Ideal S576) :
    refCore (F := Ideal) x W B
      = out (grid (F := Ideal) x) W B (table (F := Ideal)) (Ideal.ofBits .f32 0x3F800000#32) (Ideal.ofBits .f32 0x00000000#32) := by
  funext y
  obtain ⟨b, i, j, c, p, q, rfl⟩ : ∃ (b : Fin 8) (i j : Fin 64) (c : Fin 3) (p q : Fin 8), y = ix6 b i j c p q :=
    ⟨y 0, y 1, y 2, y 3, y 4, y 5, eq_ix6 y⟩
  rw [out_ix6]
  unfold refCore coreFrom outAt
  have hR : S8x64x64x9x3x8x8.Reduces [3] S8x64x64x3x8x8 := by decide
  refine (Ideal.hostReduceAdd_single reducesTo_S8x64x64x9x3x8x8_S8x64x64x3x8x8_d3 hR _ _ (ix6 b i j c p q)).trans ?_
  refine congrArg₂ (· + ·) rfl (Finset.sum_congr rfl fun (n : Fin 9) _ => ?_)
  rw [lift_ix hR b i j c p q n]
  unfold terms term
  refine (mulf_apply (φ := .f32) _ _ _).trans (congrArg₂ (· * ·) ?_ (group_qkv8 2 (by decide) _ (grid (F := Ideal) x) W B b i j n c p q))
  refine (mulf_apply (φ := .f32) _ _ _).trans (congrArg₂ (· * ·) ?_ (tableAll_apply _ b i j n c p q))
  refine (mulf_apply (φ := .f32) _ _ _).trans (congrArg₂ (· * ·) ?_ (group_qkv8 1 (by decide) _ (grid (F := Ideal) x) W B b i j n c p q))
  refine (centreAll_apply _ b i j n c p q).trans ((centre_apply _ b i j c p q).trans ?_)
  exact congrArg (· * _) (group_qkv8 0 (by decide) _ (grid (F := Ideal) x) W B b i j (4 : Fin 9) c p q)

end Cert.ReferenceIdeal.RefValue

end
-- ==== Proof.TableEq.lean ====
/-
  The two programs each carry their own copy of the 576-entry weight table (the 9 × 8 × 8 constant, row-major, as
  32-bit words). The two copies list the same words at the same positions, so they are the same function of the
  position, and so are the tables of extended reals read from them at a multi-index (i, p, q) through the row-major
  position 64 i + 8 p + q.
-/
import proofs.«134163_j6322191860015_2_alg».proof.KernelIdeal
import proofs.«134163_j6322191860015_2_alg».proof.ReferenceIdeal
import Idealize.ShloMosaic.PureOps.Ideal

noncomputable section

namespace Cert.Tables

open Idealize.ShloMosaic

/-- The two copies of the table's words agree at every position. -/
theorem lit0_eq : Cert.KernelIdeal.lit0 = Cert.ReferenceIdeal.lit0 := rfl

/-- Hence the two tables of extended reals, read at a multi-index through its row-major position, agree. -/
theorem table_eq :
    (fun i => Ideal.ofBits .f32 (Cert.KernelIdeal.lit0 (Cert.KernelIdeal.S9x8x8.rowMajor i)))
      = (fun i : Cert.ReferenceIdeal.S9x8x8.Idx =>
          Ideal.ofBits .f32 (Cert.ReferenceIdeal.lit0 (Cert.ReferenceIdeal.S9x8x8.rowMajor i))) :=
  congrArg (fun (t : Fin 576 → BitVec 32) (i : Cert.ReferenceIdeal.S9x8x8.Idx) =>
    Ideal.ofBits .f32 (t (Cert.ReferenceIdeal.S9x8x8.rowMajor i))) lit0_eq

end Cert.Tables

end
-- ==== Proof.lean ====
/-
  The kernel and its reference compute one function.

  Both programs cut each padded image into 8 × 8 patches, project every padded patch to queries, keys and values, and
  at each patch of the unpadded grid sum, over the nine patches of its 3 × 3 neighbourhood, the centre patch's query
  times the neighbour's key times a fixed weight times the neighbour's value, feature by feature; then they lay the
  patches back out as images. The kernel projects each padded patch once and reads the neighbourhoods as shifted
  slices of the projected block, adding the nine products one after the other to a zero block; the reference gathers
  the nine neighbour patches first, projects each, and sums over the neighbour axis. Read over the extended reals —
  where a change of float format is the identity — both are the specification of Spec.lean index by index: the only
  law between them is that a nine-term sum does not depend on how it is bracketed, which holds in any additive
  commutative monoid, so the finiteness of the inputs is never used. The two programs print the same 9 × 8 × 8 weight
  table and end with the same two layout operations, which are never opened.

  The frames: the kernel program's, at the word level and idealized, by the launch theorem for host operations around
  one pipelined region (the body loads four blocks and stores one value over its whole output block); the
  reference's is its run with the result dropped.
-/
import proofs.«134163_j6322191860015_2_alg».proof.Defs
import proofs.«134163_j6322191860015_2_alg».proof.Proof.Gen.Kernel
import proofs.«134163_j6322191860015_2_alg».proof.Proof.Gen.KernelIdeal
import proofs.«134163_j6322191860015_2_alg».proof.Proof.Gen.ReferenceIdeal
import proofs.«134163_j6322191860015_2_alg».proof.Proof.Gen.Pre_finite_inputs
import proofs.«134163_j6322191860015_2_alg».proof.Proof.KernelRegion
import proofs.«134163_j6322191860015_2_alg».proof.Proof.KernelResult
import proofs.«134163_j6322191860015_2_alg».proof.Proof.KernelBody
import proofs.«134163_j6322191860015_2_alg».proof.Proof.RefRun
import proofs.«134163_j6322191860015_2_alg».proof.Proof.RefValue
import proofs.«134163_j6322191860015_2_alg».proof.Proof.TableEq
import Idealize.ShloMosaic.Adequacy
import Idealize.ShloMosaic.Init

noncomputable section

namespace Cert.Proof

open Idealize.ShloMosaic Idealize.ShloMosaic.TcCoe Idealize.SL.Sem

/-- The word-level kernel program runs, faults nowhere, and leaves its arguments as launched. -/
theorem frame_k : Cert.frame_Kernel := fun m ρ _ => Cert.Kernel.Region.frame m ρ

/-- So does the idealized kernel program. -/
theorem frame_ki : Cert.frame_KernelIdeal := fun m ρ _ => Cert.KernelIdeal.Region.frame m ρ

/-- The ideal pass rewrote nothing: there is nothing to preserve. -/
theorem preserves : Cert.preserves_Kernel_KernelIdeal := trivial

/-- The two programs' padded patch grids are one function of the image batch: the kernel's differs only by a change of
    float format, the identity on extended reals. -/
theorem grid_eq (x : Cert.KernelIdeal.S8x3x512x512.Idx → EReal) :
    Cert.ReferenceIdeal.RefRun.grid (F := Ideal) x = Cert.KernelIdeal.Entry.grid6 x := rfl

/-- The two programs' weight tables are one table. -/
theorem table_eq : Cert.ReferenceIdeal.RefRun.table (F := Ideal) = Cert.KernelIdeal.Entry.table :=
  Cert.Tables.table_eq.symm

/-- The body's stored value is the block computation. -/
theorem stored_is_blockOut : Cert.KernelIdeal.Final.StoredIsBlockOut :=
  fun xG xW xB xT i j d => Cert.KernelIdeal.Body.stored_apply xG xW xB xT i j d

/-- From memories agreeing on the arguments both idealized programs run to the specification laid back out as images. -/
theorem algebraic : Cert.algebraic_KernelIdeal_ReferenceIdeal := by
  intro m ρ m' ρ' _ hagree
  refine ⟨_, Cert.KernelIdeal.Result.run m ρ stored_is_blockOut, ?_⟩
  refine (θ_run Cert.ReferenceIdeal.defs _ _).mono (fun _ h c => ⟨(h c).1.trans ?_, (h c).2⟩)
    (Cert.ReferenceIdeal.RefRun.run (F := Ideal) m' ρ')
  rw [(hagree c).1, (hagree c).2.1, (hagree c).2.2]
  unfold Cert.ReferenceIdeal.RefRun.refResult
  rw [Cert.ReferenceIdeal.RefValue.refCore_eq, grid_eq, table_eq]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
